-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S2048x256 : Shape := ⟨2, ![2048, 256]⟩
abbrev S2048 : Shape := ⟨1, ![2048]⟩
abbrev S2048x1 : Shape := ⟨2, ![2048, 1]⟩
abbrev S8192x256 : Shape := ⟨2, ![8192, 256]⟩
abbrev S8192x1 : Shape := ⟨2, ![8192, 1]⟩
abbrev S512x256 : Shape := ⟨2, ![512, 256]⟩
abbrev S512x1 : Shape := ⟨2, ![512, 1]⟩
abbrev S256x2048 : Shape := ⟨2, ![256, 2048]⟩
abbrev S512x2048 : Shape := ⟨2, ![512, 2048]⟩
abbrev S1x2048 : Shape := ⟨2, ![1, 2048]⟩
abbrev S512 : Shape := ⟨1, ![512]⟩
abbrev S_ : Shape := ⟨0, ![]⟩

abbrev nBuf : Space → Nat
  | .hbm => 11
  | .vmem => 15
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .bf16⟩
  | .hbm, ⟨3, _⟩ => ⟨S4096x256, .bf16⟩
  | .hbm, ⟨4, _⟩ => ⟨S8192x256, .bf16⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | .local _ .vmem, ⟨4, _⟩ => ⟨S2048x256, .f32⟩
  | .local _ .vmem, ⟨5, _⟩ => ⟨S2048x256, .f32⟩
  | .local _ .vmem, ⟨6, _⟩ => ⟨S2048x256, .bf16⟩
  | .local _ .vmem, ⟨7, _⟩ => ⟨S2048x256, .bf16⟩
  | .local _ .vmem, ⟨8, _⟩ => ⟨S512x256, .bf16⟩
  | .local _ .vmem, ⟨9, _⟩ => ⟨S512x256, .bf16⟩
  | .local _ .vmem, ⟨10, _⟩ => ⟨S8192x256, .bf16⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc2_scratch0 : Ref sig .tc := ⟨.vmem, 13, rfl⟩
abbrev cc2_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![16, 4], ![false, false]⟩

def k2_mult1 (i : grid2.Coords) : BitVec 32 :=
  let arg1 : BitVec 32 := BitVec.ofNat 32 (i 1).val
  let c2048_i32 : BitVec 32 := 2048#32
  let v4 : BitVec 32 := Scalar.muli arg1 c2048_i32
  v4
def k2_off1 (i : grid2.Coords) : Fin 2 → Nat :=
  let arg1 : BitVec 32 := BitVec.ofNat 32 (i 1).val
  let c2048_i32 : BitVec 32 := 2048#32
  let v4 : BitVec 32 := Scalar.muli arg1 c2048_i32
  let v7 : BitVec 32 := v4
  let v8 : Index := Scalar.indexCast v7
  let c0_2 : Index := 0#32
  ![v8.toNat, 0]
def k2_cond2 (i : grid2.Coords) : BitVec 1 :=
  let arg1 : BitVec 32 := BitVec.ofNat 32 (i 1).val
  let c3_i32 : BitVec 32 := 3#32
  let v54 : BitVec 1 := Scalar.cmpi .eq arg1 c3_i32
  let v55 : BitVec 32 := Scalar.extui v54
  let c0_i32_18 : BitVec 32 := 0#32
  let v56 : BitVec 1 := Scalar.cmpi .ne v55 c0_i32_18
  v56

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S8192x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  broadcasts_S2048x1_S2048x256 : S2048x1.Broadcasts S2048x256
  bitsLt_bf16_f32 : FTy.bits .bf16 < FTy.bits .f32
  packedbf16_S2048x256_S2048x256_0_0 : (Rect.unit (s := S2048x256) ![0, 0] S2048x256.size inb_S2048x256_S2048x256_0_0).PackedRows (EltTy.packing .bf16)
  concatenates_S4096x256_S4096x256_S8192x256_d0 : Shape.Concatenates [S4096x256, S4096x256] S8192x256 0
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S2048x256_S2048x256 : S2048x256.ShapeCasts S2048x256
  transposes_S2048x256_p1_0_S256x2048 : S2048x256.Transposes [1, 0] S256x2048
  iota_S512x1_d0_w32 : S512x1.Iotas .tc 32 [0]
  iota_S1x2048_d1_w32 : S1x2048.Iotas .tc 32 [1]
  broadcasts_S512x1_S512x2048 : S512x1.Broadcasts S512x2048
  broadcasts_S1x2048_S512x2048 : S1x2048.Broadcasts S512x2048
  reduces_S512x2048_S512 : S512x2048.Reduces [1] S512
  shapeCasts_S512_S512x1 : S512.ShapeCasts S512x1
  reducesTo_S8192x1_S_d0_1 : S8192x1.ReducesTo [0, 1] S_
  h_S_ : 0 < S_.numel
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x256.size a
  hwx0_0 : ∀ i : grid0.Coords, EltTy.bits .f32 = 32 ∨ (Rect.block (s := S4096x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x256.size a
  hwx0_1 : ∀ i : grid0.Coords, EltTy.bits .bf16 = 32 ∨ (Rect.block (s := S4096x256) S2048x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S4096x256.size a
  hwx1_0 : ∀ i : grid1.Coords, EltTy.bits .f32 = 32 ∨ (Rect.block (s := S4096x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x256.size a
  hwx1_1 : ∀ i : grid1.Coords, EltTy.bits .bf16 = 32 ∨ (Rect.block (s := S4096x256) S2048x256.size (cc1_transform_1 i) (hinb1_1 i)).WholeWords (EltTy.packing .bf16)
  hrank2 : 0 < grid2.rank
  k2_mult1_dvd : ∀ i : grid2.Coords, 2048 ∣ (k2_mult1 i).toNat
  k2_off1_inb : ∀ i : grid2.Coords, ∀ a, (k2_off1 i) a + S2048x256.size a ≤ S8192x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S8192x256.size a
  hwx2_0 : ∀ i : grid2.Coords, EltTy.bits .bf16 = 32 ∨ (Rect.block (s := S8192x256) S512x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x256.size a ≤ S8192x256.size a
  hwx2_1 : ∀ i : grid2.Coords, EltTy.bits .bf16 = 32 ∨ (Rect.block (s := S8192x256) S8192x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S8192x1.size a
  hwx2_2 : ∀ i : grid2.Coords, EltTy.bits .f32 = 32 ∨ (Rect.block (s := S8192x1) S512x1.size (cc2_transform_2 i) (hinb2_2 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v2) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S8192x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S512x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩
abbrev S4096 : Shape := ⟨1, ![4096]⟩
abbrev S8192x2 : Shape := ⟨2, ![8192, 2]⟩

abbrev nBuf : Space → Nat
  | .hbm => 69
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S256x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192, .i32⟩
  | .hbm, ⟨19, _⟩ => ⟨S8192x1, .i32⟩
  | .hbm, ⟨20, _⟩ => ⟨S1x8192, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S4096, .i32⟩
  | .hbm, ⟨29, _⟩ => ⟨S4096, .i32⟩
  | .hbm, ⟨30, _⟩ => ⟨S8192, .i32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S8192x1, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1, .f32⟩
  | .hbm, ⟨44, _⟩ => ⟨S8192x8192, .f32⟩
  | .hbm, ⟨45, _⟩ => ⟨S8192x8192, .f32⟩
  | .hbm, ⟨46, _⟩ => ⟨S_, .i32⟩
  | .hbm, ⟨47, _⟩ => ⟨S8192, .i32⟩
  | .hbm, ⟨48, _⟩ => ⟨S8192, .i1⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S8192, .i32⟩
  | .hbm, ⟨53, _⟩ => ⟨S_, .i32⟩
  | .hbm, ⟨54, _⟩ => ⟨S8192, .i32⟩
  | .hbm, ⟨55, _⟩ => ⟨S8192, .i1⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S8192, .i32⟩
  | .hbm, ⟨60, _⟩ => ⟨S8192x1, .i32⟩
  | .hbm, ⟨61, _⟩ => ⟨S8192x1, .i32⟩
  | .hbm, ⟨62, _⟩ => ⟨S8192x2, .i32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_v16 : Ref sig .tc := ⟨.hbm, 27, rfl⟩
abbrev main_call2_v0 : Ref sig .tc := ⟨.hbm, 28, rfl⟩
abbrev main_call2_v1 : Ref sig .tc := ⟨.hbm, 29, rfl⟩
abbrev main_v17 : Ref sig .tc := ⟨.hbm, 30, rfl⟩
abbrev main_call3_cst : Ref sig .tc := ⟨.hbm, 31, rfl⟩
abbrev main_call3_v0 : Ref sig .tc := ⟨.hbm, 32, rfl⟩
abbrev main_call3_cst_0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_call3_v5 : Ref sig .tc := ⟨.hbm, 38, rfl⟩
abbrev main_call3_v6 : Ref sig .tc := ⟨.hbm, 39, rfl⟩
abbrev main_call3_cst_1 : Ref sig .tc := ⟨.hbm, 40, rfl⟩
abbrev main_call3_v7 : Ref sig .tc := ⟨.hbm, 41, rfl⟩
abbrev main_call3_v8 : Ref sig .tc := ⟨.hbm, 42, rfl⟩
abbrev main_call3_v9 : Ref sig .tc := ⟨.hbm, 43, rfl⟩
abbrev main_call3_v10 : Ref sig .tc := ⟨.hbm, 44, rfl⟩
abbrev main_v18 : Ref sig .tc := ⟨.hbm, 45, rfl⟩
abbrev main_c : Ref sig .tc := ⟨.hbm, 46, rfl⟩
abbrev main_v19 : Ref sig .tc := ⟨.hbm, 47, rfl⟩
abbrev main_v20 : Ref sig .tc := ⟨.hbm, 48, rfl⟩
abbrev main_c_2 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_3 : Ref sig .tc := ⟨.hbm, 53, rfl⟩
abbrev main_v24 : Ref sig .tc := ⟨.hbm, 54, rfl⟩
abbrev main_v25 : Ref sig .tc := ⟨.hbm, 55, rfl⟩
abbrev main_c_4 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_5 : Ref sig .tc := ⟨.hbm, 64, rfl⟩
abbrev main_v33 : Ref sig .tc := ⟨.hbm, 65, rfl⟩
abbrev main_cst_6 : Ref sig .tc := ⟨.hbm, 66, rfl⟩
abbrev main_v34 : Ref sig .tc := ⟨.hbm, 67, rfl⟩
abbrev main_v35 : Ref sig .tc := ⟨.hbm, 68, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  slices_S8192_S4096_4096 : S8192.Slices ![4096] S4096
  slices_S8192_S4096_0 : S8192.Slices ![0] S4096
  concatenates_S4096_S4096_S8192_d0 : Shape.Concatenates [S4096, S4096] S8192 0
  reducesTo_S8192x8192_S8192_d1 : S8192x8192.ReducesTo [1] S8192
  bcast_S_S8192 : S_.BroadcastsInDim S8192 (![] : Fin 0 → Fin S8192.rank)
  concatenates_S8192x1_S8192x1_S8192x2_d1 : Shape.Concatenates [S8192x1, S8192x1] S8192x2 1
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S8192x2_S8192_n_01_n_n_01_1_11_wf : GatherDims.WF S8192x8192 S8192x2 S8192 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.NormRegionBits.lean ====
/-
  The two row-scaling regions of the program, each taken by itself at an arbitrary state of the TensorCore's buffers
  at the region's entry.  A region walks a grid of two points; at a point it fetches a block of 2048 rows of its
  argument (4096 rows of 256 single-precision entries), divides every row by the larger of its Euclidean norm and a
  small constant, narrows the quotient to 16 bits and writes the block back to the same rows of the output array.
  For each region this module gives what the body leaves in the output window's buffer as a function of the input
  block, the body's triple, the pipeline's proof data over the entry contents, and the body obligation the several-regions
  frame asks of a region.
-/
import proofs.«116624_j43327630082371_2_alg».proof.Proof.Gen.Kernel.Launch
import proofs.«116624_j43327630082371_2_alg».proof.Proof.Gen.Kernel.Skeleton
import proofs.«116624_j43327630082371_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter both regions' halves are stated at
variable (V : (c : Dev nD) → (b : Ref sig .tc) → Buf (Elt F) ((c : Thread nD τ).loc b))

/-! # The row-scaling region 0: one 2048-row block of the first argument per grid point -/

/-- Window `w`'s block at grid point `t`: the rows of its array, as the region finds it, that the point covers. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the point's block whenever the body runs: the window is fetched at every
    point and the body never writes its buffer. Stated for any proof data whose input array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The one rectangle the body reads and writes: the whole 2048 × 256 block. -/
abbrev whole0 : Rect S2048x256 := Rect.unit (s := S2048x256) ![0, 0] S2048x256.size inb_S2048x256_S2048x256_0_0

/-- What the body leaves in the output window's buffer, from the input block `x`: its single store, of the block
    with every row divided by the larger of its norm and the small constant, over the whole buffer. -/
def scaled0 (x : Vec F S2048x256 .f32) : Vec F S2048x256 .bf16 :=
  View.canon [⟨whole0, k0_pay1 (View.ld x whole0)⟩]

/-- That store covers the buffer. -/
theorem cover0 (p : Vec F S2048x256 .bf16) (y : S2048x256.Idx) :
    ∃ pc ∈ ([⟨whole0, p⟩] : List (View.Piece (Elt F) S2048x256 .bf16)), y ∈ pc.1.set :=
  View.cover_of_tiled [⟨whole0, p⟩] S2048x256.size (by rfl) y

set_option maxHeartbeats 1000000 in
/-- The body on whole staging buffers, the input's at `x` and the output's at anything: it reads the input block, reads
    the output buffer (a value it never uses), stores the scaled block over the whole output buffer, and returns with the
    input's buffer as it was and the output's at `scaled0 x`. -/
theorem sound_kernel0 (c : Dev nD) (E : Set ℕ) (i : grid0.Coords) (arg1 : Memref sig .tc .vmem S2048x256 .f32) (harg1 : arg1.IsWhole)
    (arg2 : Memref sig .tc .vmem S2048x256 .bf16) (harg2 : arg2.IsWhole)
    (x : Vec F S2048x256 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (scaled0 x)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0 _)

/-- The region's proof data on core `c`: the arrays as the region finds them; after the body at point `t` the input's
    buffer at its block and the output's at the scaled block; the invariant holds the buffers the region never touches
    and the generator register; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => scaled0 (blk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = blk0 V c 0 t := by dsimp only [dat0]
theorem after0_1 (c : Dev nD) (t : Fin cfg0.N) : (dat0 V c).after 1 t = scaled0 (blk0 V c 0 t) := by dsimp only [dat0]

/-- The input's staging buffer holds its block at every point. -/
theorem before0_0 (c : Dev nD) (t : Fin cfg0.N) (d) : (dat0 V c).before 0 t d = blk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region, at every point. -/
theorem body_obligation0 (c : Dev nD) : BodyObligation (dat0 (F := F) V c) (defs₀ (F := F)) Variants.none () Set.univ := fun t => by
  rw [bigSep_W0, bigSep_W0]
  exact sound_body0 V c t

/-! # The row-scaling region 1: one 2048-row block of the second argument per grid point -/

/-- Window `w`'s block at grid point `t`: the rows of its array, as the region finds it, that the point covers. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds the point's block whenever the body runs: the window is fetched at every
    point and the body never writes its buffer. Stated for any proof data whose input array is `V`'s and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The one rectangle the body reads and writes: the whole 2048 × 256 block. -/
abbrev whole1 : Rect S2048x256 := Rect.unit (s := S2048x256) ![0, 0] S2048x256.size inb_S2048x256_S2048x256_0_0

/-- What the body leaves in the output window's buffer, from the input block `x`: its single store, of the block
    with every row divided by the larger of its norm and the small constant, over the whole buffer. -/
def scaled1 (x : Vec F S2048x256 .f32) : Vec F S2048x256 .bf16 :=
  View.canon [⟨whole1, k1_pay1 (View.ld x whole1)⟩]

/-- That store covers the buffer. -/
theorem cover1 (p : Vec F S2048x256 .bf16) (y : S2048x256.Idx) :
    ∃ pc ∈ ([⟨whole1, p⟩] : List (View.Piece (Elt F) S2048x256 .bf16)), y ∈ pc.1.set :=
  View.cover_of_tiled [⟨whole1, p⟩] S2048x256.size (by rfl) y

set_option maxHeartbeats 1000000 in
/-- The body on whole staging buffers, the input's at `x` and the output's at anything: it reads the input block, reads
    the output buffer (a value it never uses), stores the scaled block over the whole output buffer, and returns with the
    input's buffer as it was and the output's at `scaled1 x`. -/
theorem sound_kernel1 (c : Dev nD) (E : Set ℕ) (i : grid1.Coords) (arg1 : Memref sig .tc .vmem S2048x256 .f32) (harg1 : arg1.IsWhole)
    (arg2 : Memref sig .tc .vmem S2048x256 .bf16) (harg2 : arg2.IsWhole)
    (x : Vec F S2048x256 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (scaled1 x)) -∗ K ⟨⟩))
      ⊢ wp frame (wpE (defs₀ (F := F)) Variants.none c none) E (cc1__normalize_kernel i arg1 harg1 arg2 harg2) K := by
  simp only [cc1__normalize_kernel_eq_skeleton]; unfold cc1__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1 _)

/-- The region's proof data on core `c`: the arrays as the region finds them; after the body at point `t` the input's
    buffer at its block and the output's at the scaled block; the invariant holds the buffers the region never touches
    and the generator register; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => scaled1 (blk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = blk1 V c 0 t := by dsimp only [dat1]
theorem after1_1 (c : Dev nD) (t : Fin cfg1.N) : (dat1 V c).after 1 t = scaled1 (blk1 V c 0 t) := by dsimp only [dat1]

/-- The input's staging buffer holds its block at every point. -/
theorem before1_0 (c : Dev nD) (t : Fin cfg1.N) (d) : (dat1 V c).before 0 t d = blk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds its block, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (blk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.SimSharedBits.lean ====
/-
  The similarity region (the third kernel region: a 16 x 4 grid, row tile i, column step k) — what its runs share.
  The body zeroes two column accumulators (the running sum of exponentials and the running partner logit) at a row
  tile's first column step, adds the step's contributions at every step, and at the last step stores the tile's 512
  results.  Here: the two branch conditions decided over the grid, where the result window is idle, the staging and
  scratch buffers by name, and the region's resting invariant with the two accumulators split out.
-/
import proofs.«116624_j43327630082371_2_alg».proof.Proof.Gen.Kernel.Launch
import proofs.«116624_j43327630082371_2_alg».proof.Proof.Gen.Kernel.Skeleton
import proofs.«116624_j43327630082371_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches -/

/-- The accumulators are zeroed where the column step is 0: the printed scalar chain, its bindings substituted. -/
abbrev firstStep (i : grid2.Coords) : Prop :=
  (Scalar.cmpi .ne (Scalar.extui (Scalar.cmpi .eq (BitVec.ofNat 32 (i 1).val) 0#32)) 0#32) = 1#1
/-- That is at the points whose number is 0 mod 4 (the column step is the point's number mod 4). -/
theorem firstStep_iff : ∀ t : Fin cfg2.N, firstStep (grid2.coords t) ↔ t.val % 4 = 0 :=
  (by decide +kernel : ∀ t : Fin grid2.N, firstStep (grid2.coords t) ↔ t.val % 4 = 0)

/-- The results are stored where the column step is 3. -/
abbrev lastStep (i : grid2.Coords) : Prop := k2_cond2 i = 1#1
theorem lastStep_iff : ∀ t : Fin cfg2.N, lastStep (grid2.coords t) ↔ t.val % 4 = 3 :=
  (by decide +kernel : ∀ t : Fin grid2.N, lastStep (grid2.coords t) ↔ t.val % 4 = 3)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
/-- Before the last column step the body stores nothing into the result window, and the pipeline does not write it back. -/
theorem idle2_2 : ∀ t : Fin cfg2.N, ¬lastStep (grid2.coords t) → cfg2.idle 2 (grid2.coords t) = true := by decide +kernel
theorem noFlush2_2 : ∀ t : Fin cfg2.N, ¬lastStep (grid2.coords t) → (cfg2.win 2).flush t = false := by decide +kernel
theorem live2_2 : ∀ t : Fin cfg2.N, lastStep (grid2.coords t) → cfg2.idle 2 (grid2.coords t) = false := by decide +kernel

/-! ## The buffers by name -/

/-- The row tile's staging buffer at point t (the left operand's 512 rows), -/
abbrev rowM (t : Fin cfg2.N) : Memref sig .tc .vmem S512x256 .bf16 := win2_0.stage (cfg2.slots t 0)
abbrev rowW (t : Fin cfg2.N) : (rowM t).IsWhole := hstage2_0 ((cfg2.slots t 0).cast nbuf2_0)
/-- the resident buffer holding all 8192 rows (the right operand, sliced by the body), -/
abbrev allM (t : Fin cfg2.N) : Memref sig .tc .vmem S8192x256 .bf16 := win2_1.stage (cfg2.slots t 1)
abbrev allW (t : Fin cfg2.N) : (allM t).IsWhole := hstage2_1 ((cfg2.slots t 1).cast nbuf2_1)
/-- the result tile's staging buffer, -/
abbrev resM (t : Fin cfg2.N) : Memref sig .tc .vmem S512x1 .f32 := win2_2.stage (cfg2.slots t 2)
abbrev resW (t : Fin cfg2.N) : (resM t).IsWhole := hstage2_2 ((cfg2.slots t 2).cast nbuf2_2)
/-- the accumulator of the exponentials' sum and the accumulator of the partner logit. -/
abbrev expM : Memref sig .tc .vmem S512x1 .f32 := Memref.whole cc2_scratch0
abbrev tgtM : Memref sig .tc .vmem S512x1 .f32 := Memref.whole cc2_scratch1
/-- Views through which the contents of the result tile and of the accumulators are stated. -/
abbrev resV : View sig .tc .vmem S512x1 .f32 := (Memref.whole cc2_stg2_0 : Memref sig .tc .vmem S512x1 .f32).view
abbrev expV : View sig .tc .vmem S512x1 .f32 := expM.view
abbrev tgtV : View sig .tc .vmem S512x1 .f32 := tgtM.view

/-! ## The resting invariant -/

/-- The scoped buffers that belong to the other two regions, each at some contents, followed by `X`. -/
def besides (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ X)

/-- `besides` is monotone in what follows. -/
theorem besides_mono (c : Dev nD) {X Y : sProp 𝕄} (h : X ⊢ Y) : besides (F := F) c X ⊢ besides (F := F) c Y := by
  unfold besides
  iintro ⟨H1, H2, H3, H4, H5, H6, H7, H8, HX⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply h; iexact HX

/-- The region's resting invariant: the other regions' scoped buffers, the two accumulators at some contents, and the
    generator register at some state. -/
theorem restInv_eq (c : Dev nD) :
    (Pipeline.ΦA spec2 c : sProp 𝕄)
      = iprop(besides (F := F) c iprop((∃ d, owns (c : Thread nD τ) expM fullShare d) ∗ (∃ d, owns (c : Thread nD τ) tgtM fullShare d)) ∗ (∃ r, prngReg c r)) := by
  unfold Pipeline.ΦA besides; rw [scopedRest2_eq]; simp only [expM, tgtM, owns_whole]; try rfl

end Cert.Kernel.Hand

end
-- ==== Proof.SimRunsBits.lean ====
/-
  The similarity region's body, run once per case of its two branches.  In each case the body is run on whole buffers:
  the row tile and the resident rows at their contents, the accumulators at the contents the step before left (at
  anything, at a first step, where they are zeroed), the result tile untouched before the last step; it ends with the
  inputs as they were and each buffer it stored into holding the pieces it stored.  The pieces are found by the run.
-/
import proofs.«116624_j43327630082371_2_alg».proof.Proof.SimSharedBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- A FIRST column step (the accumulators are zeroed, then added to; nothing is stored into the result tile). -/
noncomputable def runFirst (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : firstStep i) (h1 : ¬lastStep i)
    (x0 : Vec F S512x256 .bf16) (x1 : Vec F S8192x256 .bf16) :
    Σ' (LR : List (View.Piece (Elt F) S512x1 .f32)) (LE : List (View.Piece (Elt F) S512x1 .f32)), { LT : List (View.Piece (Elt F) S512x1 .f32) //
      ∀ (xr : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xr
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xr
                ∗ (∃ f, arg5.view.loc (c : Thread nD τ) ↦[arg5.view.set]{fullShare} arg5.view.writes (Elt F) f LE) ∗ (∃ f, arg6.view.loc (c : Thread nD τ) ↦[arg6.view.set]{fullShare} arg6.view.writes (Elt F) f LT)) -∗ K ⟨⟩))
          ⊢ wp frame (wpE (defs₀ (F := F)) Variants.none c none) E (cc2_kernel i arg2 harg2 arg3 harg3 arg4 harg4 arg5 harg5 arg6 harg6) K } := by
  refine ⟨[], ?_, ?_, fun xr E K => ?run⟩
  case run =>
    simp only [cc2_kernel_eq_skeleton]; unfold cc2_kernel_skel; simp only [k2_part1_eq_skeleton]; unfold k2_part1_skel
    unfold owns
    iintro ⟨⟨%f0, %hf0, H0⟩, ⟨%f1, %hf1, H1⟩, ⟨%f2, %hf2, H2⟩, ⟨%de, %fe, -, HE⟩, ⟨%dt, %ft, -, HT⟩, Hk⟩
    obtain rfl := harg2.eq_unread hf0; obtain rfl := harg3.eq_unread hf1; obtain rfl := harg4.eq_unread hf2
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HE]; · iexists _; iexact HE
    iexists _; iexact HT

set_option maxHeartbeats 2000000 in
/-- A MIDDLE column step (the accumulators, at what the step before left, are added to; nothing else is stored). -/
noncomputable def runMiddle (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : ¬firstStep i) (h1 : ¬lastStep i)
    (x0 : Vec F S512x256 .bf16) (x1 : Vec F S8192x256 .bf16) (xe xt : Vec F S512x1 .f32) :
    Σ' (LR : List (View.Piece (Elt F) S512x1 .f32)) (LE : List (View.Piece (Elt F) S512x1 .f32)), { LT : List (View.Piece (Elt F) S512x1 .f32) //
      ∀ (xr : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xr
            ∗ owns (c : Thread nD τ) arg5 fullShare xe ∗ owns (c : Thread nD τ) arg6 fullShare xt
            ∗ (iprop(owns (c : Thread nD τ) arg2 fullShare x0 ∗ owns (c : Thread nD τ) arg3 fullShare x1 ∗ owns (c : Thread nD τ) arg4 fullShare xr
                ∗ (∃ f, arg5.view.loc (c : Thread nD τ) ↦[arg5.view.set]{fullShare} arg5.view.writes (Elt F) f LE) ∗ (∃ f, arg6.view.loc (c : Thread nD τ) ↦[arg6.view.set]{fullShare} arg6.view.writes (Elt F) f LT)) -∗ K ⟨⟩))
          ⊢ wp frame (wpE (defs₀ (F := F)) Variants.none c none) E (cc2_kernel i arg2 harg2 arg3 harg3 arg4 harg4 arg5 harg5 arg6 harg6) K } := by
  refine ⟨[], ?_, ?_, fun xr E K => ?run⟩
  case run =>
    simp only [cc2_kernel_eq_skeleton]; unfold cc2_kernel_skel; simp only [k2_part1_eq_skeleton]; unfold k2_part1_skel
    unfold owns
    iintro ⟨⟨%f0, %hf0, H0⟩, ⟨%f1, %hf1, H1⟩, ⟨%f2, %hf2, H2⟩, ⟨%fe, %hfe, HE⟩, ⟨%ft, %hft, HT⟩, Hk⟩
    obtain rfl := harg2.eq_unread hf0; obtain rfl := harg3.eq_unread hf1; obtain rfl := harg4.eq_unread hf2
    obtain rfl := harg5.eq_unread hfe; obtain rfl := harg6.eq_unread hft
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HE]; · iexists _; iexact HE
    iexists _; iexact HT

set_option maxHeartbeats 2000000 in
/-- A LAST column step (the accumulators are added to, then the tile's results are stored from them). -/
noncomputable def runLast (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : ¬firstStep i) (h1 : lastStep i)
    (x0 : Vec F S512x256 .bf16) (x1 : Vec F S8192x256 .bf16) (xe xt : Vec F S512x1 .f32) :
    Σ' (LR : List (View.Piece (Elt F) S512x1 .f32)) (LE : List (View.Piece (Elt F) S512x1 .f32)), { LT : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xe ∗ owns (c : Thread nD τ) arg6 fullShare xt
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LR)
                ∗ (∃ f, arg5.view.loc (c : Thread nD τ) ↦[arg5.view.set]{fullShare} arg5.view.writes (Elt F) f LE) ∗ (∃ f, arg6.view.loc (c : Thread nD τ) ↦[arg6.view.set]{fullShare} arg6.view.writes (Elt F) f LT)) -∗ K ⟨⟩))
          ⊢ wp frame (wpE (defs₀ (F := F)) Variants.none c none) E (cc2_kernel i arg2 harg2 arg3 harg3 arg4 harg4 arg5 harg5 arg6 harg6) K } := by
  refine ⟨?_, ?_, ?_, fun E K => ?run⟩
  case run =>
    simp only [cc2_kernel_eq_skeleton]; unfold cc2_kernel_skel; simp only [k2_part1_eq_skeleton]; unfold k2_part1_skel
    unfold owns
    iintro ⟨⟨%f0, %hf0, H0⟩, ⟨%f1, %hf1, H1⟩, ⟨%d2, %f2, -, H2⟩, ⟨%fe, %hfe, HE⟩, ⟨%ft, %hft, HT⟩, Hk⟩
    obtain rfl := harg2.eq_unread hf0; obtain rfl := harg3.eq_unread hf1
    obtain rfl := harg5.eq_unread hfe; obtain rfl := harg6.eq_unread hft
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HE]; · iexists _; iexact HE
    iexists _; iexact HT

end Cert.Kernel.Hand

end
-- ==== Proof.SimRegionBits.lean ====
/-
  The similarity region's proof data.  After the body at a grid point the two accumulators hold what the point's case
  leaves, computed from the row tile, the resident rows and (but at a first column step) what the point before left;
  the result tile's buffer holds the tile's results at a last column step and is idle otherwise.  The region's
  invariant carries the accumulators from point to point; the two input windows read one array and hold it at the
  two halves of the full share.
-/
import proofs.«116624_j43327630082371_2_alg».proof.Proof.SimRunsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The cases by the point's number -/

theorem first_of (t : Fin cfg2.N) (h : t.val % 4 = 0) : firstStep (grid2.coords t) := (firstStep_iff t).mpr h
theorem not_first_of (t : Fin cfg2.N) (h : ¬t.val % 4 = 0) : ¬firstStep (grid2.coords t) := fun h' => h ((firstStep_iff t).mp h')
theorem last_of (t : Fin cfg2.N) (h : t.val % 4 = 3) : lastStep (grid2.coords t) := (lastStep_iff t).mpr h
theorem not_last_of (t : Fin cfg2.N) (h : ¬t.val % 4 = 3) : ¬lastStep (grid2.coords t) := fun h' => h ((lastStep_iff t).mp h')
theorem not_last_of_first (t : Fin cfg2.N) (h : t.val % 4 = 0) : ¬lastStep (grid2.coords t) :=
  not_last_of t (by omega)

-- the region-entry contents: the parameter the region's half is stated at
variable (V : (c : Dev nD) → (b : Ref sig .tc) → Buf (Elt F) ((c : Thread nD τ).loc b))

/-! ## The windows' blocks -/

/-- Window w's block at point t, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row tile's buffer holds its block at every point, fetched there or not (between fetches the block index does not move). -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The resident rows' buffer holds the whole array at every point. -/
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## What a point leaves -/

/-- The pieces of a run read back over nothing, through a view of the right shape. -/
abbrev readBack (v : View sig .tc .vmem S512x1 .f32) (L : List (View.Piece (Elt F) S512x1 .f32)) : Vec F S512x1 .f32 :=
  v.read (Elt F) (v.writes (Elt F) v.junk L)

/-- What point t leaves in the result tile's buffer and in the two accumulators, from the row tile x0, the resident
    rows x1 and what the accumulators held (read only after a first column step). -/
def stepOut (c : Dev nD) (t : Fin cfg2.N) (x0 : Vec F S512x256 .bf16) (x1 : Vec F S8192x256 .bf16) (pe pt : Vec F S512x1 .f32) :
    Vec F S512x1 .f32 × Vec F S512x1 .f32 × Vec F S512x1 .f32 :=
  if h0 : t.val % 4 = 0 then
    (readBack resV (runFirst c (grid2.coords t) (rowM t) (rowW t) (allM t) (allW t) (resM t) (resW t) expM (Memref.isWhole_whole _) tgtM (Memref.isWhole_whole _) (first_of t h0) (not_last_of_first t h0) x0 x1).1,
     readBack expV (runFirst c (grid2.coords t) (rowM t) (rowW t) (allM t) (allW t) (resM t) (resW t) expM (Memref.isWhole_whole _) tgtM (Memref.isWhole_whole _) (first_of t h0) (not_last_of_first t h0) x0 x1).2.1,
     readBack tgtV (runFirst c (grid2.coords t) (rowM t) (rowW t) (allM t) (allW t) (resM t) (resW t) expM (Memref.isWhole_whole _) tgtM (Memref.isWhole_whole _) (first_of t h0) (not_last_of_first t h0) x0 x1).2.2.1)
  else if h1 : t.val % 4 = 3 then
    (readBack resV (runLast c (grid2.coords t) (rowM t) (rowW t) (allM t) (allW t) (resM t) (resW t) expM (Memref.isWhole_whole _) tgtM (Memref.isWhole_whole _) (not_first_of t h0) (last_of t h1) x0 x1 pe pt).1,
     readBack expV (runLast c (grid2.coords t) (rowM t) (rowW t) (allM t) (allW t) (resM t) (resW t) expM (Memref.isWhole_whole _) tgtM (Memref.isWhole_whole _) (not_first_of t h0) (last_of t h1) x0 x1 pe pt).2.1,
     readBack tgtV (runLast c (grid2.coords t) (rowM t) (rowW t) (allM t) (allW t) (resM t) (resW t) expM (Memref.isWhole_whole _) tgtM (Memref.isWhole_whole _) (not_first_of t h0) (last_of t h1) x0 x1 pe pt).2.2.1)
  else
    (readBack resV (runMiddle c (grid2.coords t) (rowM t) (rowW t) (allM t) (allW t) (resM t) (resW t) expM (Memref.isWhole_whole _) tgtM (Memref.isWhole_whole _) (not_first_of t h0) (not_last_of t h1) x0 x1 pe pt).1,
     readBack expV (runMiddle c (grid2.coords t) (rowM t) (rowW t) (allM t) (allW t) (resM t) (resW t) expM (Memref.isWhole_whole _) tgtM (Memref.isWhole_whole _) (not_first_of t h0) (not_last_of t h1) x0 x1 pe pt).2.1,
     readBack tgtV (runMiddle c (grid2.coords t) (rowM t) (rowW t) (allM t) (allW t) (resM t) (resW t) expM (Memref.isWhole_whole _) tgtM (Memref.isWhole_whole _) (not_first_of t h0) (not_last_of t h1) x0 x1 pe pt).2.2.1)

/-- THE ACCUMULATION: what the result tile's buffer and the accumulators hold after point n, by recursion on n. -/
def stepsAt (c : Dev nD) : (n : ℕ) → n < cfg2.N → Vec F S512x1 .f32 × Vec F S512x1 .f32 × Vec F S512x1 .f32
  | 0, hn => stepOut c ⟨0, hn⟩ (blk2 V c 0 ⟨0, hn⟩) (blk2 V c 1 ⟨0, hn⟩) (readBack expV []) (readBack tgtV [])
  | n + 1, hn => stepOut c ⟨n + 1, hn⟩ (blk2 V c 0 ⟨n + 1, hn⟩) (blk2 V c 1 ⟨n + 1, hn⟩)
      (stepsAt c n (Nat.lt_of_succ_lt hn)).2.1 (stepsAt c n (Nat.lt_of_succ_lt hn)).2.2

/-- After a point that is not the first, the accumulation steps from the point before. -/
theorem stepsAt_pos (c : Dev nD) (t : Fin cfg2.N) (hz : t.val ≠ 0) :
    stepsAt V c t.val t.isLt = stepOut c t (blk2 V c 0 t) (blk2 V c 1 t)
      (stepsAt V c (t.val - 1) (Nat.lt_of_le_of_lt (Nat.sub_le _ _) t.isLt)).2.1 (stepsAt V c (t.val - 1) (Nat.lt_of_le_of_lt (Nat.sub_le _ _) t.isLt)).2.2 := by
  obtain ⟨n, hn⟩ := t
  cases n with
  | zero => exact absurd rfl hz
  | succ n => rfl

/-- At the first point it starts from nothing (a first column step: the accumulators are not read). -/
theorem stepsAt_zero (c : Dev nD) (t : Fin cfg2.N) (hz : t.val = 0) :
    stepsAt V c t.val t.isLt = stepOut c t (blk2 V c 0 t) (blk2 V c 1 t) (readBack expV []) (readBack tgtV []) := by
  obtain ⟨n, hn⟩ := t
  cases n with
  | zero => rfl
  | succ n => exact absurd hz (Nat.succ_ne_zero n)

/-! ## The invariant from point to point -/

/-- Before point n: at the region's entry the resting invariant; afterwards the accumulators at what point n - 1 left. -/
def stepInv (c : Dev nD) : (n : ℕ) → n ≤ cfg2.N → sProp 𝕄
  | 0, _ => Pipeline.ΦA spec2 c
  | n + 1, hn => iprop(besides (F := F) c iprop(owns (c : Thread nD τ) expM fullShare (stepsAt V c n hn).2.1 ∗ owns (c : Thread nD τ) tgtM fullShare (stepsAt V c n hn).2.2) ∗ (∃ r, prngReg c r))

theorem stepInv_zero (c : Dev nD) (n : ℕ) (h : n ≤ cfg2.N) (hz : n = 0) : stepInv V c n h = Pipeline.ΦA spec2 c := by
  subst hz; rfl

theorem stepInv_succ (c : Dev nD) (n : ℕ) (hn : n < cfg2.N) :
    stepInv V c (n + 1) hn = iprop(besides (F := F) c iprop(owns (c : Thread nD τ) expM fullShare (stepsAt V c n hn).2.1 ∗ owns (c : Thread nD τ) tgtM fullShare (stepsAt V c n hn).2.2) ∗ (∃ r, prngReg c r)) := rfl

theorem stepInv_pos (c : Dev nD) (n : ℕ) (h : n ≤ cfg2.N) (hz : n ≠ 0) :
    stepInv V c n h = iprop(besides (F := F) c iprop(owns (c : Thread nD τ) expM fullShare (stepsAt V c (n - 1) (by omega)).2.1 ∗ owns (c : Thread nD τ) tgtM fullShare (stepsAt V c (n - 1) (by omega)).2.2) ∗ (∃ r, prngReg c r)) := by
  cases n with
  | zero => exact absurd rfl hz
  | succ n => rfl

/-! ## The proof data -/

/-- The region's proof data on core c: the arrays as the region finds them; after the body each input's buffer at its
    block and the result tile's at the accumulation's first component; the invariant `stepInv`; the array both input
    windows read held at the two halves of the full share; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => (stepsAt V c t.val t.isLt).1
  Φ t := stepInv V c t.val (Nat.le_of_lt_succ t.isLt)
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem stepInv_castSucc (c : Dev nD) (t : Fin cfg2.N) :
    (dat2 V c).Φ t.castSucc = stepInv V c t.val (Nat.le_of_lt t.isLt) := by
  dsimp only [dat2]; simp only [Fin.coe_castSucc]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = (stepsAt V c t.val t.isLt).1 := by dsimp only [dat2]

theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d

end Cert.Kernel.Hand

end
-- ==== Proof.SimCoversBits.lean ====
/-
  In every case the pieces the body stores into an accumulator — and, at a last column step, into the result tile —
  tile the whole [512,1] buffer, so they cover it: what the buffer holds afterwards does not depend on what it held.
-/
import proofs.«116624_j43327630082371_2_alg».proof.Proof.SimRunsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem coverE_first (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : firstStep i) (h1 : ¬lastStep i)
    (x0 : Vec F S512x256 .bf16) (x1 : Vec F S8192x256 .bf16) (y : S512x1.Idx) :
    ∃ pc ∈ (runFirst c i arg2 harg2 arg3 harg3 arg4 harg4 arg5 harg5 arg6 harg6 h0 h1 x0 x1).2.1, y ∈ pc.1.set :=
  View.cover_of_tiledL (runFirst c i arg2 harg2 arg3 harg3 arg4 harg4 arg5 harg5 arg6 harg6 h0 h1 x0 x1).2.1 S512x1.size (by sl_kernel_rfl) y

theorem coverT_first (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : firstStep i) (h1 : ¬lastStep i)
    (x0 : Vec F S512x256 .bf16) (x1 : Vec F S8192x256 .bf16) (y : S512x1.Idx) :
    ∃ pc ∈ (runFirst c i arg2 harg2 arg3 harg3 arg4 harg4 arg5 harg5 arg6 harg6 h0 h1 x0 x1).2.2.1, y ∈ pc.1.set :=
  View.cover_of_tiledL (runFirst c i arg2 harg2 arg3 harg3 arg4 harg4 arg5 harg5 arg6 harg6 h0 h1 x0 x1).2.2.1 S512x1.size (by sl_kernel_rfl) y

theorem coverE_middle (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : ¬firstStep i) (h1 : ¬lastStep i)
    (x0 : Vec F S512x256 .bf16) (x1 : Vec F S8192x256 .bf16) (xe xt : Vec F S512x1 .f32) (y : S512x1.Idx) :
    ∃ pc ∈ (runMiddle c i arg2 harg2 arg3 harg3 arg4 harg4 arg5 harg5 arg6 harg6 h0 h1 x0 x1 xe xt).2.1, y ∈ pc.1.set :=
  View.cover_of_tiledL (runMiddle c i arg2 harg2 arg3 harg3 arg4 harg4 arg5 harg5 arg6 harg6 h0 h1 x0 x1 xe xt).2.1 S512x1.size (by sl_kernel_rfl) y

theorem coverT_middle (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : ¬firstStep i) (h1 : ¬lastStep i)
    (x0 : Vec F S512x256 .bf16) (x1 : Vec F S8192x256 .bf16) (xe xt : Vec F S512x1 .f32) (y : S512x1.Idx) :
    ∃ pc ∈ (runMiddle c i arg2 harg2 arg3 harg3 arg4 harg4 arg5 harg5 arg6 harg6 h0 h1 x0 x1 xe xt).2.2.1, y ∈ pc.1.set :=
  View.cover_of_tiledL (runMiddle c i arg2 harg2 arg3 harg3 arg4 harg4 arg5 harg5 arg6 harg6 h0 h1 x0 x1 xe xt).2.2.1 S512x1.size (by sl_kernel_rfl) y

theorem coverE_last (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : ¬firstStep i) (h1 : lastStep i)
    (x0 : Vec F S512x256 .bf16) (x1 : Vec F S8192x256 .bf16) (xe xt : Vec F S512x1 .f32) (y : S512x1.Idx) :
    ∃ pc ∈ (runLast c i arg2 harg2 arg3 harg3 arg4 harg4 arg5 harg5 arg6 harg6 h0 h1 x0 x1 xe xt).2.1, y ∈ pc.1.set :=
  View.cover_of_tiledL (runLast c i arg2 harg2 arg3 harg3 arg4 harg4 arg5 harg5 arg6 harg6 h0 h1 x0 x1 xe xt).2.1 S512x1.size (by sl_kernel_rfl) y

theorem coverT_last (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : ¬firstStep i) (h1 : lastStep i)
    (x0 : Vec F S512x256 .bf16) (x1 : Vec F S8192x256 .bf16) (xe xt : Vec F S512x1 .f32) (y : S512x1.Idx) :
    ∃ pc ∈ (runLast c i arg2 harg2 arg3 harg3 arg4 harg4 arg5 harg5 arg6 harg6 h0 h1 x0 x1 xe xt).2.2.1, y ∈ pc.1.set :=
  View.cover_of_tiledL (runLast c i arg2 harg2 arg3 harg3 arg4 harg4 arg5 harg5 arg6 harg6 h0 h1 x0 x1 xe xt).2.2.1 S512x1.size (by sl_kernel_rfl) y

theorem coverR_last (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : ¬firstStep i) (h1 : lastStep i)
    (x0 : Vec F S512x256 .bf16) (x1 : Vec F S8192x256 .bf16) (xe xt : Vec F S512x1 .f32) (y : S512x1.Idx) :
    ∃ pc ∈ (runLast c i arg2 harg2 arg3 harg3 arg4 harg4 arg5 harg5 arg6 harg6 h0 h1 x0 x1 xe xt).1, y ∈ pc.1.set :=
  View.cover_of_tiledL (runLast c i arg2 harg2 arg3 harg3 arg4 harg4 arg5 harg5 arg6 harg6 h0 h1 x0 x1 xe xt).1 S512x1.size (by sl_kernel_rfl) y

end Cert.Kernel.Hand

end
-- ==== Proof.SimBodyBits.lean ====
/-
  The similarity region's body obligation: at every grid point the body, handed the invariant and the windows'
  buffers, runs to the invariant of the next point with every buffer at what the proof data says — by cases on the
  point's number mod 4 (a first, a middle or a last column step), each case its run.
-/
import proofs.«116624_j43327630082371_2_alg».proof.Proof.SimRegionBits
import proofs.«116624_j43327630082371_2_alg».proof.Proof.SimCoversBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (rowM t) fullShare ((dat2 V c).before 0 t d))
    ∗ (∃ d, owns (c : Thread nD τ) (allM t) fullShare ((dat2 V c).before 1 t d))
    ∗ (∃ d, owns (c : Thread nD τ) (resM t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

theorem stepOut_first (c : Dev nD) (t : Fin cfg2.N) (h0 : t.val % 4 = 0) (x0 : Vec F S512x256 .bf16) (x1 : Vec F S8192x256 .bf16) (pe pt : Vec F S512x1 .f32) :
    stepOut c t x0 x1 pe pt =
      (readBack resV (runFirst c (grid2.coords t) (rowM t) (rowW t) (allM t) (allW t) (resM t) (resW t) expM (Memref.isWhole_whole _) tgtM (Memref.isWhole_whole _) (first_of t h0) (not_last_of_first t h0) x0 x1).1,
       readBack expV (runFirst c (grid2.coords t) (rowM t) (rowW t) (allM t) (allW t) (resM t) (resW t) expM (Memref.isWhole_whole _) tgtM (Memref.isWhole_whole _) (first_of t h0) (not_last_of_first t h0) x0 x1).2.1,
       readBack tgtV (runFirst c (grid2.coords t) (rowM t) (rowW t) (allM t) (allW t) (resM t) (resW t) expM (Memref.isWhole_whole _) tgtM (Memref.isWhole_whole _) (first_of t h0) (not_last_of_first t h0) x0 x1).2.2.1) := dif_pos h0

theorem stepOut_last (c : Dev nD) (t : Fin cfg2.N) (h0 : ¬t.val % 4 = 0) (h1 : t.val % 4 = 3) (x0 : Vec F S512x256 .bf16) (x1 : Vec F S8192x256 .bf16) (pe pt : Vec F S512x1 .f32) :
    stepOut c t x0 x1 pe pt =
      (readBack resV (runLast c (grid2.coords t) (rowM t) (rowW t) (allM t) (allW t) (resM t) (resW t) expM (Memref.isWhole_whole _) tgtM (Memref.isWhole_whole _) (not_first_of t h0) (last_of t h1) x0 x1 pe pt).1,
       readBack expV (runLast c (grid2.coords t) (rowM t) (rowW t) (allM t) (allW t) (resM t) (resW t) expM (Memref.isWhole_whole _) tgtM (Memref.isWhole_whole _) (not_first_of t h0) (last_of t h1) x0 x1 pe pt).2.1,
       readBack tgtV (runLast c (grid2.coords t) (rowM t) (rowW t) (allM t) (allW t) (resM t) (resW t) expM (Memref.isWhole_whole _) tgtM (Memref.isWhole_whole _) (not_first_of t h0) (last_of t h1) x0 x1 pe pt).2.2.1) := (dif_neg h0).trans (dif_pos h1)

theorem stepOut_middle (c : Dev nD) (t : Fin cfg2.N) (h0 : ¬t.val % 4 = 0) (h1 : ¬t.val % 4 = 3) (x0 : Vec F S512x256 .bf16) (x1 : Vec F S8192x256 .bf16) (pe pt : Vec F S512x1 .f32) :
    stepOut c t x0 x1 pe pt =
      (readBack resV (runMiddle c (grid2.coords t) (rowM t) (rowW t) (allM t) (allW t) (resM t) (resW t) expM (Memref.isWhole_whole _) tgtM (Memref.isWhole_whole _) (not_first_of t h0) (not_last_of t h1) x0 x1 pe pt).1,
       readBack expV (runMiddle c (grid2.coords t) (rowM t) (rowW t) (allM t) (allW t) (resM t) (resW t) expM (Memref.isWhole_whole _) tgtM (Memref.isWhole_whole _) (not_first_of t h0) (not_last_of t h1) x0 x1 pe pt).2.1,
       readBack tgtV (runMiddle c (grid2.coords t) (rowM t) (rowW t) (allM t) (allW t) (resM t) (resW t) expM (Memref.isWhole_whole _) tgtM (Memref.isWhole_whole _) (not_first_of t h0) (not_last_of t h1) x0 x1 pe pt).2.2.1) := (dif_neg h0).trans (dif_neg h1)

set_option maxHeartbeats 4800000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = stepInv V c (t.val + 1) t.isLt from rfl, stepInv_succ]
  rw [show (dat2 V c).leavesExact 0 t = owns (c : Thread nD τ) (rowM t) fullShare ((dat2 V c).after 0 t) from by
    unfold Dat.leavesExact; rw [live2_0 t], after2_0]
  rw [show (dat2 V c).leavesExact 1 t = owns (c : Thread nD τ) (allM t) fullShare ((dat2 V c).after 1 t) from by
    unfold Dat.leavesExact; rw [live2_1 t], after2_1]
  have hN : t.val < 64 := lt_of_lt_of_eq t.isLt (show cfg2.N = 64 from N_2)
  by_cases h0 : t.val % 4 = 0
  · have hl := not_last_of_first t h0
    rw [Dat.leavesExact_idle (dat2 V c) 2 t (idle2_2 t hl) (noFlush2_2 t hl)]
    by_cases hz : t.val = 0
    · rw [stepsAt_zero V c t hz, stepOut_first c t h0]; (try dsimp only)
      rw [stepInv_castSucc V c t, stepInv_zero V c _ _ hz, restInv_eq]
      unfold besides
      iintro ⟨⟨⟨B1, B2, B3, B4, B5, B6, B7, B8, HE, HT⟩, Hg⟩, Ho, ⟨%d0, H0⟩, ⟨%d1, H1⟩, ⟨%d2, H2⟩⟩
      iapply ((runFirst c (grid2.coords t) _ _ _ _ _ _ _ _ _ _ (first_of t h0) hl (blk2 V c 0 t) (blk2 V c 1 t)).2.2.2 _ Set.univ _)
      isplitl [H0]; · iexact H0
      isplitl [H1]; · iexact H1
      isplitl [H2]; · iexact H2
      isplitl [HE]; · iexact HE
      isplitl [HT]; · iexact HT
      iintro ⟨H0, H1, H2, ⟨%fe, HE⟩, ⟨%ft, HT⟩⟩
      isplitl [B1 B2 B3 B4 B5 B6 B7 B8 HE HT Hg]
      · isplitl [B1 B2 B3 B4 B5 B6 B7 B8 HE HT]
        · skip
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [HE]
          · unfold owns; iexists _; isplitr
            swap; · iexact HE
            ipureintro; exact View.read_writes_of_cover _ _ _ _ _ (coverE_first _ _ _ _ _ _ _ _ _ _ _ _ _ _ _ _)
          · unfold owns; iexists _; isplitr
            swap; · iexact HT
            ipureintro; exact View.read_writes_of_cover _ _ _ _ _ (coverT_first _ _ _ _ _ _ _ _ _ _ _ _ _ _ _ _)
        iexact Hg
      isplitl [Ho]; · iexact Ho
      isplitl [H0]; · iexact H0
      isplitl [H1]; · iexact H1
      iexists _; iexact H2
    · rw [stepsAt_pos V c t hz, stepOut_first c t h0]; (try dsimp only)
      rw [stepInv_castSucc V c t, stepInv_pos V c _ _ hz]
      unfold besides
      iintro ⟨⟨⟨B1, B2, B3, B4, B5, B6, B7, B8, HE, HT⟩, Hg⟩, Ho, ⟨%d0, H0⟩, ⟨%d1, H1⟩, ⟨%d2, H2⟩⟩
      iapply ((runFirst c (grid2.coords t) _ _ _ _ _ _ _ _ _ _ (first_of t h0) hl (blk2 V c 0 t) (blk2 V c 1 t)).2.2.2 _ Set.univ _)
      isplitl [H0]; · iexact H0
      isplitl [H1]; · iexact H1
      isplitl [H2]; · iexact H2
      isplitl [HE]; · iexists _; iexact HE
      isplitl [HT]; · iexists _; iexact HT
      iintro ⟨H0, H1, H2, ⟨%fe, HE⟩, ⟨%ft, HT⟩⟩
      isplitl [B1 B2 B3 B4 B5 B6 B7 B8 HE HT Hg]
      · isplitl [B1 B2 B3 B4 B5 B6 B7 B8 HE HT]
        · skip
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [HE]
          · unfold owns; iexists _; isplitr
            swap; · iexact HE
            ipureintro; exact View.read_writes_of_cover _ _ _ _ _ (coverE_first _ _ _ _ _ _ _ _ _ _ _ _ _ _ _ _)
          · unfold owns; iexists _; isplitr
            swap; · iexact HT
            ipureintro; exact View.read_writes_of_cover _ _ _ _ _ (coverT_first _ _ _ _ _ _ _ _ _ _ _ _ _ _ _ _)
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat2 V c).leavesExact 2 t = owns (c : Thread nD τ) (resM t) fullShare ((dat2 V c).after 2 t) from by
        unfold Dat.leavesExact; rw [live2_2 t (last_of t h1)], after2_2]
      rw [stepsAt_pos V c t hz, stepOut_last c t h0 h1]; (try dsimp only)
      rw [stepInv_castSucc V c t, stepInv_pos V c _ _ hz]
      unfold besides
      iintro ⟨⟨⟨B1, B2, B3, B4, B5, B6, B7, B8, HE, HT⟩, Hg⟩, Ho, ⟨%d0, H0⟩, ⟨%d1, H1⟩, ⟨%d2, H2⟩⟩
      iapply ((runLast c (grid2.coords t) _ _ _ _ _ _ _ _ _ _ (not_first_of t h0) (last_of t h1) (blk2 V c 0 t) (blk2 V c 1 t) _ _).2.2.2 Set.univ _)
      isplitl [H0]; · iexact H0
      isplitl [H1]; · iexact H1
      isplitl [H2]; · iexists _; iexact H2
      isplitl [HE]; · iexact HE
      isplitl [HT]; · iexact HT
      iintro ⟨H0, H1, ⟨%fr, H2⟩, ⟨%fe, HE⟩, ⟨%ft, HT⟩⟩
      isplitl [B1 B2 B3 B4 B5 B6 B7 B8 HE HT Hg]
      · isplitl [B1 B2 B3 B4 B5 B6 B7 B8 HE HT]
        · skip
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [HE]
          · unfold owns; iexists _; isplitr
            swap; · iexact HE
            ipureintro; exact View.read_writes_of_cover _ _ _ _ _ (coverE_last _ _ _ _ _ _ _ _ _ _ _ _ _ _ _ _ _ _)
          · unfold owns; iexists _; isplitr
            swap; · iexact HT
            ipureintro; exact View.read_writes_of_cover _ _ _ _ _ (coverT_last _ _ _ _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverR_last _ _ _ _ _ _ _ _ _ _ _ _ _ _ _ _ _ _)
    · have hl := not_last_of t h1
      rw [Dat.leavesExact_idle (dat2 V c) 2 t (idle2_2 t hl) (noFlush2_2 t hl)]
      rw [stepsAt_pos V c t hz, stepOut_middle c t h0 h1]; (try dsimp only)
      rw [stepInv_castSucc V c t, stepInv_pos V c _ _ hz]
      unfold besides
      iintro ⟨⟨⟨B1, B2, B3, B4, B5, B6, B7, B8, HE, HT⟩, Hg⟩, Ho, ⟨%d0, H0⟩, ⟨%d1, H1⟩, ⟨%d2, H2⟩⟩
      iapply ((runMiddle c (grid2.coords t) _ _ _ _ _ _ _ _ _ _ (not_first_of t h0) (not_last_of t h1) (blk2 V c 0 t) (blk2 V c 1 t) _ _).2.2.2 _ Set.univ _)
      isplitl [H0]; · iexact H0
      isplitl [H1]; · iexact H1
      isplitl [H2]; · iexact H2
      isplitl [HE]; · iexact HE
      isplitl [HT]; · iexact HT
      iintro ⟨H0, H1, H2, ⟨%fe, HE⟩, ⟨%ft, HT⟩⟩
      isplitl [B1 B2 B3 B4 B5 B6 B7 B8 HE HT Hg]
      · isplitl [B1 B2 B3 B4 B5 B6 B7 B8 HE HT]
        · skip
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [HE]
          · unfold owns; iexists _; isplitr
            swap; · iexact HE
            ipureintro; exact View.read_writes_of_cover _ _ _ _ _ (coverE_middle _ _ _ _ _ _ _ _ _ _ _ _ _ _ _ _ _ _)
          · unfold owns; iexists _; isplitr
            swap; · iexact HT
            ipureintro; exact View.read_writes_of_cover _ _ _ _ _ (coverT_middle _ _ _ _ _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem inv_in (c : Dev nD) : Pipeline.ΦA spec2 c ⊢ (dat2 V c).Φ 0 := by
  rw [show (dat2 V c).Φ 0 = stepInv V c 0 (Nat.zero_le _) from rfl, stepInv_zero V c 0 _ rfl]
  try exact Idealize.SL.BI.Entails.refl _

/-- After the last point the invariant gives the resting invariant back: the accumulators' contents are forgotten. -/
theorem inv_out (c : Dev nD) : (dat2 V c).Φ (Fin.last cfg2.N) ⊢ Pipeline.ΦA spec2 c := by
  have hne : (Fin.last cfg2.N).val ≠ 0 := by rw [Fin.val_last]; have : cfg2.N = 64 := N_2; omega
  rw [show (dat2 V c).Φ (Fin.last cfg2.N) = stepInv V c (Fin.last cfg2.N).val (Nat.le_of_lt_succ (Fin.last cfg2.N).isLt) from rfl,
    stepInv_pos V c _ _ hne, restInv_eq]
  unfold besides
  iintro ⟨⟨B1, B2, B3, B4, B5, B6, B7, B8, HE, HT⟩, Hg⟩
  isplitl [B1 B2 B3 B4 B5 B6 B7 B8 HE HT]
  · skip
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [HE]; · iexists _; iexact HE
    iexists _; iexact HT
  iexact Hg

end Cert.Kernel.Hand

end
-- ==== Proof.RunPartsBits.lean ====
/-
  The run of the whole program, first part: what every unscoped buffer holds at each boundary between @main's five
  items (region 0, region 1, the concatenation, region 2, the closing mean), every pipeline's proof data at its
  region's entry contents, and the first two regions as segments of the run.
-/
import proofs.«116624_j43327630082371_2_alg».proof.Proof.NormRegionBits
import proofs.«116624_j43327630082371_2_alg».proof.Proof.SimBodyBits
import proofs.«116624_j43327630082371_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev at0 : Dev nD → Valuation τ sig (Elt F) := fun c b => (s₀ m ρ).mem ((c : Dev nD), b)
/-- The same read at the TensorCore's references (what region 0's proof data take). -/
abbrev in0 : (c : Dev nD) → (b : Ref sig .tc) → Buf (Elt F) ((c : Thread nD τ).loc b) := fun c b => at0 m ρ c b

/-- At region 0's exit: its arrays at what the pipeline leaves (an input as entered, the output's write-backs folded),
    every other buffer as entered. -/
def at1 (c : Dev nD) : Valuation τ sig (Elt F) :=
  Pipeline.withArrays spec0 c (at0 m ρ c) fun w => (dat0 (in0 m ρ) c).arrAt w cfg0.N
theorem at1_arr (c : Dev nD) (w : Fin cfg0.W) :
    at1 m ρ c (Proc.devRef .tc (Pipeline.arrRef spec0 w)) = (dat0 (in0 m ρ) c).arrAt w cfg0.N := by
  unfold at1; exact Pipeline.withArrays_arr spec0 launch0.win.arr_inj c _ _ w
theorem at1_of_ne (c : Dev nD) (b : Ref sig .tc) (hb : ∀ w, Pipeline.arrRef spec0 w ≠ b) :
    at1 m ρ c (Proc.devRef .tc b) = at0 m ρ c (Proc.devRef .tc b) := by
  unfold at1; exact Pipeline.withArrays_of_ne spec0 c _ _ b hb
/-- The same read at the TensorCore's references. -/
abbrev in1 : (c : Dev nD) → (b : Ref sig .tc) → Buf (Elt F) ((c : Thread nD τ).loc b) := fun c b => at1 m ρ c b
theorem kept0 (c : Dev nD) (w : Fin cfg0.W) : (dat0 (in0 m ρ) c).arrAt w cfg0.N = in1 m ρ c (Pipeline.arrRef spec0 w) :=
  (at1_arr m ρ c w).symm
theorem others0 (c : Dev nD) : ∀ b, b ∉ Finset.univ.image (Pipeline.arrRef spec0) → in1 m ρ c b = in0 m ρ c b :=
  fun b hb => at1_of_ne m ρ c b fun w e => hb (Finset.mem_image.mpr ⟨w, Finset.mem_univ _, e⟩)

/-- At region 1's exit: its arrays at what the pipeline leaves (an input as entered, the output's write-backs folded),
    every other buffer as entered. -/
def at2 (c : Dev nD) : Valuation τ sig (Elt F) :=
  Pipeline.withArrays spec1 c (at1 m ρ c) fun w => (dat1 (in1 m ρ) c).arrAt w cfg1.N
theorem at2_arr (c : Dev nD) (w : Fin cfg1.W) :
    at2 m ρ c (Proc.devRef .tc (Pipeline.arrRef spec1 w)) = (dat1 (in1 m ρ) c).arrAt w cfg1.N := by
  unfold at2; exact Pipeline.withArrays_arr spec1 launch1.win.arr_inj c _ _ w
theorem at2_of_ne (c : Dev nD) (b : Ref sig .tc) (hb : ∀ w, Pipeline.arrRef spec1 w ≠ b) :
    at2 m ρ c (Proc.devRef .tc b) = at1 m ρ c (Proc.devRef .tc b) := by
  unfold at2; exact Pipeline.withArrays_of_ne spec1 c _ _ b hb
/-- The same read at the TensorCore's references. -/
abbrev in2 : (c : Dev nD) → (b : Ref sig .tc) → Buf (Elt F) ((c : Thread nD τ).loc b) := fun c b => at2 m ρ c b
theorem kept1 (c : Dev nD) (w : Fin cfg1.W) : (dat1 (in1 m ρ) c).arrAt w cfg1.N = in2 m ρ c (Pipeline.arrRef spec1 w) :=
  (at2_arr m ρ c w).symm
theorem others1 (c : Dev nD) : ∀ b, b ∉ Finset.univ.image (Pipeline.arrRef spec1) → in2 m ρ c b = in1 m ρ c b :=
  fun b hb => at2_of_ne m ρ c b fun w e => hb (Finset.mem_image.mpr ⟨w, Finset.mem_univ _, e⟩)

/-- After the concatenation (region 2's entry). -/
abbrev at3 : Dev nD → Valuation τ sig (Elt F) := fun c => StableHlo.after hostOps2 (at2 m ρ c)
abbrev in3 : (c : Dev nD) → (b : Ref sig .tc) → Buf (Elt F) ((c : Thread nD τ).loc b) := fun c b => at3 m ρ c b

/-- At region 2's exit: the result array at what the pipeline leaves, every other buffer as entered (its two input
    windows read one array, which it leaves as it found it). -/
def at4 (c : Dev nD) : Valuation τ sig (Elt F) :=
  Function.update (at3 m ρ c) main_v3 ((dat2 (in3 m ρ) c).arrAt 2 cfg2.N)
abbrev in4 : (c : Dev nD) → (b : Ref sig .tc) → Buf (Elt F) ((c : Thread nD τ).loc b) := fun c b => at4 m ρ c b
/-- After the closing mean: the end. -/
abbrev at5 : Dev nD → Valuation τ sig (Elt F) := fun c => StableHlo.after hostOps3 (at4 m ρ c)

/-! ## The proof data family and what rides along -/

/-- No pipeline has a prefetched table. -/
abbrev tables : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) tables p) c
  | ⟨0, _⟩ => fun c => dat0 (in0 m ρ) c
  | ⟨1, _⟩ => fun c => dat1 (in1 m ρ) c
  | ⟨2, _⟩ => fun c => dat2 (in3 m ρ) c
/-- No core owes another anything: no level is assigned. -/
abbrev noLevels : GSem nD τ sig → Finset Unit := fun _ => ∅
abbrev zeroLevel : GSem nD τ sig → Unit → ℕ := fun _ _ => 0
/-- What rides beside the buffers through every item: the generator register at some state and the core owing nothing. -/
abbrev riding (c : Dev nD) : sProp 𝕄 := iprop((∃ r, prngReg c r) ∗ ∃ W, owes (c : Thread nD τ) (0 : CellTallies nD τ sig Unit) W)

/-! ## The first two regions as segments -/

set_option backward.isDefEq.respectTransparency.types false in
/-- Region 0 over the thread state: entered from every unscoped buffer at the boundary before it, left at the boundary
    after it.  Its arrays are split out of the unscoped buffers and put back at their exit contents; the generator
    register goes into the region's invariant and comes out; nothing is owed; the kernel has no semaphore of its own. -/
def reg0 : Pipeline.RegionSeg (pcfgs (F := F)) tables (pdats m ρ) () defs₀ Variants.none noLevels zeroLevel 0 where
  win := launch0.win.to₀
  block_pos := launch0.block_pos
  stage_whole := launch0.stage_whole
  K := PEmpty
  osem k := k.elim
  ho := Pipeline.OwnSemFacts.none _
  hbody c := (body_obligation0 (in0 m ρ) c).loose
  hwaits := Pipeline.hwaits_of_owed_zero _ _ _ _ noLevels zeroLevel 0 fun _ _ => rfl
  pre c := iprop(StableHlo.held (c : Thread nD τ) (Pipeline.ucRefs τ sig) (at0 m ρ c) ∗ riding c)
  post c := iprop(StableHlo.held (c : Thread nD τ) (Pipeline.ucRefs τ sig) (at1 m ρ c) ∗ riding c)
  X c := iprop(∃ r, prngReg c r)
  Y c := iprop(∃ r, prngReg c r)
  Z c := Pipeline.unscopedRest (Ix := Unit) (Name := ℕ) (U := UR sig nD τ) (Lvl := ℕ) spec0 c (in0 m ρ c)
  hentry c := by
    rw [Pipeline.ownSems0_none]
    have hsplit := Pipeline.arrays_of_unscopedBufs (p := 0) (pcfgs (F := F)) tables (pdats m ρ) launch0.win launch0.arr_whole c
      ((pdats m ρ 0 c).share_full fun _ => rfl) (in0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m ρ) ((pdats m ρ 0 c).share_full fun _ => rfl)
      (in0 m ρ c) (in1 m ρ c) ((pdats m ρ 0 c).arrAt · cfg0.N) (kept0 m ρ c) (others0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the boundary
    after it.  Its arrays are split out of the unscoped buffers and put back at their exit contents; the generator
    register goes into the region's invariant and comes out; nothing is owed; the kernel has no semaphore of its own. -/
def reg1 : Pipeline.RegionSeg (pcfgs (F := F)) tables (pdats m ρ) () defs₀ Variants.none noLevels zeroLevel 1 where
  win := launch1.win.to₀
  block_pos := launch1.block_pos
  stage_whole := launch1.stage_whole
  K := PEmpty
  osem k := k.elim
  ho := Pipeline.OwnSemFacts.none _
  hbody c := (body_obligation1 (in1 m ρ) c).loose
  hwaits := Pipeline.hwaits_of_owed_zero _ _ _ _ noLevels zeroLevel 1 fun _ _ => rfl
  pre c := iprop(StableHlo.held (c : Thread nD τ) (Pipeline.ucRefs τ sig) (at1 m ρ c) ∗ riding c)
  post c := iprop(StableHlo.held (c : Thread nD τ) (Pipeline.ucRefs τ sig) (at2 m ρ c) ∗ riding c)
  X c := iprop(∃ r, prngReg c r)
  Y c := iprop(∃ r, prngReg c r)
  Z c := Pipeline.unscopedRest (Ix := Unit) (Name := ℕ) (U := UR sig nD τ) (Lvl := ℕ) spec1 c (in1 m ρ c)
  hentry c := by
    rw [Pipeline.ownSems0_none]
    have hsplit := Pipeline.arrays_of_unscopedBufs (p := 1) (pcfgs (F := F)) tables (pdats m ρ) launch1.win launch1.arr_whole c
      ((pdats m ρ 1 c).share_full fun _ => rfl) (in1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m ρ) ((pdats m ρ 1 c).share_full fun _ => rfl)
      (in1 m ρ c) (in2 m ρ c) ((pdats m ρ 1 c).arrAt · cfg1.N) (kept1 m ρ c) (others1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.RunSimBits.lean ====
/-
  The run of the whole program, second part: the similarity region as a segment.  Its two input windows read ONE
  array (the concatenated scaled rows), so at entry that array's buffer, held whole, is cut into the two halves of
  the full share, one per window, and at exit the halves are joined again; the result array is held whole.
-/
import proofs.«116624_j43327630082371_2_alg».proof.Proof.RunPartsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two buffers behind the region's three windows, listed. -/
theorem arrBufs2_eq (c : Dev nD) (X : (b : Ref sig .tc) → Buf (Elt F) ((c : Thread nD τ).loc b)) :
    (Pipeline.arrBufs (Ix := Unit) (Name := ℕ) (U := UR sig nD τ) (Lvl := ℕ) spec2 c X : sProp 𝕄)
      = iprop((((c : Thread nD τ).loc main_v2) ↦{fullShare} X main_v2) ∗ (((c : Thread nD τ).loc main_v3) ↦{fullShare} X main_v3)) := by
  unfold Pipeline.arrBufs
  exact bigSep_eq_bigSepL_of_eq [main_v2, main_v3] (by decide) (by decide) _

/-- The region's arrays, window by window: the shared array at the left and the right half, the result array whole. -/
theorem arrays2_eq (V : (c : Dev nD) → (b : Ref sig .tc) → Buf (Elt F) ((c : Thread nD τ).loc b)) (c : Dev nD)
    (A0 A1 : Buf (Elt F) ((c : Thread nD τ).loc main_v2)) (A2 : Buf (Elt F) ((c : Thread nD τ).loc main_v3)) :
    ((dat2 V c).arrays (fun w => match w with | ⟨0, _⟩ => A0 | ⟨1, _⟩ => A1 | ⟨2, _⟩ => A2) : sProp 𝕄)
      = iprop((((c : Thread nD τ).loc main_v2) ↦{fullShare.left} A0) ∗ (((c : Thread nD τ).loc main_v2) ↦{fullShare.right} A1)
          ∗ (((c : Thread nD τ).loc main_v3) ↦{fullShare} A2)) := by
  unfold Dat.arrays
  rw [bigSep_W2, (arr_whole2 0).set_eq_univ, (arr_whole2 2).set_eq_univ]
  rfl

/-- Any contents of the three windows' arrays, as the three-way choice `arrays2_eq` is stated over. -/
theorem choice_eq (V : (c : Dev nD) → (b : Ref sig .tc) → Buf (Elt F) ((c : Thread nD τ).loc b)) (c : Dev nD)
    (Fs : (w : Fin cfg2.W) → Buf (Elt F) ((cfg2.win w).arr.view.loc (c : Thread nD τ))) :
    Fs = (fun w => match w with | ⟨0, _⟩ => Fs 0 | ⟨1, _⟩ => Fs 1 | ⟨2, _⟩ => Fs 2) := by
  funext w; match w with | ⟨0, _⟩ => rfl | ⟨1, _⟩ => rfl | ⟨2, _⟩ => rfl

/-- A core's unscoped buffers are the two buffers behind the region's arrays and the rest. -/
theorem split2 (c : Dev nD) (X : (b : Ref sig .tc) → Buf (Elt F) ((c : Thread nD τ).loc b)) :
    (unscopedBufs c X : sProp 𝕄) = iprop((Pipeline.arrBufs (Ix := Unit) (Name := ℕ) (U := UR sig nD τ) (Lvl := ℕ) spec2 c X : sProp 𝕄)
      ∗ Pipeline.unscopedRest (Ix := Unit) (Name := ℕ) (U := UR sig nD τ) (Lvl := ℕ) spec2 c X) :=
  Pipeline.unscopedBufs_split₀ cfgs 2 winFacts₀2.arr_unscoped c X

/-- ENTRY: every unscoped buffer at the region's entry contents gives the region's arrays at those contents — the shared
    array's buffer cut into its two halves — and the unscoped rest. -/
theorem entry2 (c : Dev nD) :
    (StableHlo.held (c : Thread nD τ) (Pipeline.ucRefs τ sig) (at3 m ρ c) : sProp 𝕄)
      ⊢ iprop((dat2 (in3 m ρ) c).arrays ((dat2 (in3 m ρ) c).arrAt · 0)
          ∗ Pipeline.unscopedRest (Ix := Unit) (Name := ℕ) (U := UR sig nD τ) (Lvl := ℕ) spec2 c (in3 m ρ c)) := by
  rw [← Pipeline.unscopedBufs_held (Ix := Unit) (Name := ℕ) (U := UR sig nD τ) (Lvl := ℕ) c (at3 m ρ c),
    split2 c (in3 m ρ c), arrBufs2_eq,
    choice_eq (in3 m ρ) c ((dat2 (in3 m ρ) c).arrAt · 0), arrays2_eq]
  iintro ⟨⟨H2, H3⟩, Hrest⟩
  ihave H2' := (pointsTo_share (PosShare.mem_left_op_right fullShare)).1 $$ H2
  icases H2' with ⟨H2l, H2r⟩
  isplitr [Hrest]
  · isplitl [H2l]; · iexact H2l
    isplitl [H2r]; · iexact H2r
    iexact H3
  iexact Hrest

/-- The boundary after the region agrees with the one before it off the result array, -/
theorem at4_of_ne (c : Dev nD) (b : Ref sig .tc) (hb : b ≠ main_v3) : in4 m ρ c b = in3 m ρ c b := by
  show at4 m ρ c (Proc.devRef .tc b) = at3 m ρ c (Proc.devRef .tc b)
  unfold at4
  exact Function.update_of_ne (StableHlo.devRef_ne_of_ne hb) _ _
/-- and has the result array at what the pipeline leaves. -/
theorem at4_res (c : Dev nD) : in4 m ρ c main_v3 = (dat2 (in3 m ρ) c).arrAt 2 cfg2.N := by
  show at4 m ρ c (Proc.devRef .tc main_v3) = _
  unfold at4
  exact Function.update_self _ _ _

/-- EXIT: the region's arrays at their final contents — the two halves of the shared array joined — and the unscoped
    rest are every unscoped buffer at the boundary after the region. -/
theorem exit2 (c : Dev nD) :
    iprop((dat2 (in3 m ρ) c).arrays ((dat2 (in3 m ρ) c).arrAt · cfg2.N)
        ∗ Pipeline.unscopedRest (Ix := Unit) (Name := ℕ) (U := UR sig nD τ) (Lvl := ℕ) spec2 c (in3 m ρ c))
      ⊢ (StableHlo.held (c : Thread nD τ) (Pipeline.ucRefs τ sig) (at4 m ρ c) : sProp 𝕄) := by
  have hrest : (Pipeline.unscopedRest (Ix := Unit) (Name := ℕ) (U := UR sig nD τ) (Lvl := ℕ) spec2 c (in3 m ρ c) : sProp 𝕄)
      = Pipeline.unscopedRest (Ix := Unit) (Name := ℕ) (U := UR sig nD τ) (Lvl := ℕ) spec2 c (in4 m ρ c) := by
    unfold Pipeline.unscopedRest
    refine bigSep_congr fun b hb => ?_
    have hne : b ≠ main_v3 := fun e => (Finset.mem_sdiff.mp hb).2 (Finset.mem_image.mpr ⟨2, Finset.mem_univ _, e.symm⟩)
    rw [at4_of_ne m ρ c b hne]
  have h0 : (dat2 (in3 m ρ) c).arrAt 0 cfg2.N = in4 m ρ c main_v2 :=
    ((dat2 (in3 m ρ) c).arrAt_in 0 rfl _).trans (((A_eq2 (in3 m ρ) c 0)).trans (at4_of_ne m ρ c main_v2 (by decide)).symm)
  have h1 : (dat2 (in3 m ρ) c).arrAt 1 cfg2.N = in4 m ρ c main_v2 :=
    ((dat2 (in3 m ρ) c).arrAt_in 1 rfl _).trans (((A_eq2 (in3 m ρ) c 1)).trans (at4_of_ne m ρ c main_v2 (by decide)).symm)
  have h2 : (dat2 (in3 m ρ) c).arrAt 2 cfg2.N = in4 m ρ c main_v3 := (at4_res m ρ c).symm
  rw [← Pipeline.unscopedBufs_held (Ix := Unit) (Name := ℕ) (U := UR sig nD τ) (Lvl := ℕ) c (at4 m ρ c),
    split2 c (in4 m ρ c), arrBufs2_eq,
    choice_eq (in3 m ρ) c ((dat2 (in3 m ρ) c).arrAt · cfg2.N), arrays2_eq, hrest]
  dsimp only
  rw [h0, h1, h2]
  iintro ⟨⟨H2l, H2r, H3⟩, Hrest⟩
  isplitr [Hrest]
  · isplitl [H2l H2r]
    · iapply (pointsTo_share (PosShare.mem_left_op_right fullShare)).2
      isplitl [H2l]; · iexact H2l
      iexact H2r
    iexact H3
  iexact Hrest

set_option backward.isDefEq.respectTransparency.types false in
/-- The similarity region over the thread state: entered from every unscoped buffer at the boundary before it, left at the
    boundary after it; the generator register and the scoped rest go into its invariant and come out. -/
def reg2 : Pipeline.RegionSeg (pcfgs (F := F)) tables (pdats m ρ) () defs₀ Variants.none noLevels zeroLevel 2 where
  win := winFacts₀2
  block_pos := block_pos2
  stage_whole := stage_whole2
  K := PEmpty
  osem k := k.elim
  ho := Pipeline.OwnSemFacts.none _
  hbody c := (body_obligation2 (in3 m ρ) c).loose
  hwaits := Pipeline.hwaits_of_owed_zero _ _ _ _ noLevels zeroLevel 2 fun _ _ => rfl
  pre c := iprop(StableHlo.held (c : Thread nD τ) (Pipeline.ucRefs τ sig) (at3 m ρ c) ∗ riding c)
  post c := iprop(StableHlo.held (c : Thread nD τ) (Pipeline.ucRefs τ sig) (at4 m ρ c) ∗ riding c)
  X c := iprop(∃ r, prngReg c r)
  Y c := iprop(∃ r, prngReg c r)
  Z c := Pipeline.unscopedRest (Ix := Unit) (Name := ℕ) (U := UR sig nD τ) (Lvl := ℕ) spec2 c (in3 m ρ c)
  hentry c := by
    rw [Pipeline.ownSems0_none]
    iintro ⟨⟨Hub, Hp, HO⟩, -, -⟩
    ihave H := (entry2 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (in3 m ρ) c).Φ 0 from rfl]
    iintro ⟨Hp, -, Hr⟩
    iapply (inv_in (in3 m ρ) c)
    unfold Pipeline.ΦA
    isplitl [Hr]; · iexact Hr
    iexact Hp
  hout c := by
    rw [Pipeline.ownSems0_none, show (pdats m ρ 2 c).Φ (Fin.last _) = (dat2 (in3 m ρ) c).Φ (Fin.last cfg2.N) from rfl]
    iintro H
    ihave H' := (inv_out (in3 m ρ) c) $$ H
    unfold Pipeline.ΦA
    icases H' with ⟨Hr, Hp⟩
    isplitl [Hp]; · iexact Hp
    isplitr; · iempintro
    iexact Hr
  hexit c := by
    rw [show ((pdats m ρ 2 c).arrays ((pdats m ρ 2 c).arrAt · (Pipeline.pin (pcfgs (F := F)) tables 2).N) : sProp 𝕄)
      = (dat2 (in3 m ρ) c).arrays ((dat2 (in3 m ρ) c).arrAt · cfg2.N) from rfl]
    iintro ⟨Ha, HO, HY, Hrest⟩
    imodintro
    isplitl [Ha Hrest]
    · iapply (exit2 m ρ c); isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.RunBits.lean ====
/-
  The run of the whole program: @main as five items in order — region 0, region 1, the concatenation, region 2, the
  closing mean —, launched from any memory with zero counters.  Every weakly fair execution terminates, nothing
  faulting, and every final state has every unscoped buffer at the contents of the last boundary.
-/
import proofs.«116624_j43327630082371_2_alg».proof.Proof.RunSimBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A stretch of host operations as an item: over the unscoped references from the contents W, `riding` riding along. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels zeroLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

/-- @main's five items. -/
abbrev items : List (Pipeline.Seg (pcfgs (F := F)) tables (pdats m ρ) () defs₀ Variants.none noLevels zeroLevel) :=
  [ .region (reg0 m ρ),
    .region (reg1 m ρ),
    .host (hostItem hostOps2 hostOps2_sub hostOps2_fresh (at2 m ρ)),
    .region (reg2 m ρ),
    .host (hostItem hostOps3 hostOps3_sub hostOps3_fresh (at4 m ρ)) ]

/-- @main IS the run of the items. -/
theorem main_items (c : Dev nD) : main (F := F) c = Pipeline.Seg.run (items m ρ) := (main_chain c).trans (by chain_rfl)

/-- The last thread state without the core's debt: every unscoped buffer at the last boundary, the generator register at some state. -/
abbrev atEnd (c : Dev nD) : sProp 𝕄 := iprop(StableHlo.held (c : Thread nD τ) (Pipeline.ucRefs τ sig) (at5 m ρ c) ∗ ∃ r, prngReg c r)

set_option backward.isDefEq.respectTransparency.types false in
/-- THE RUN. -/
theorem run_all : θ_run defs (onTc (τ := τ) (main (F := F))) ⟨m, fun _ => 0, ρ⟩
    (fun r => ∀ c : Dev nD, ∀ b ∈ Pipeline.ucRefs τ sig, r.2.mem (((c : Thread nD τ)).1, b) = at5 m ρ c b) :=
  Pipeline.θ_run_regions_kit (pcfgs (F := F)) tables (pdats m ρ) () cellOf_inj emb₁ defs₀ Variants.none noLevels zeroLevel m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m ρ c) ∗ riding c)) (Tₙ := atEnd m ρ)
    (hch := ⟨fun _ => .rfl, fun _ => .rfl, fun _ => .rfl, fun _ => .rfl, fun _ => .rfl, fun c => by
      show (iprop(StableHlo.held (c : Thread nD τ) (Pipeline.ucRefs τ sig) (at5 m ρ c) ∗ riding c) : sProp 𝕄)
        ⊢ iprop(atEnd m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noLevels zeroLevel fun c => ?_
      rw [show unscopedBufs c (fun b => m ((c : Thread nD τ).loc b)) = StableHlo.held (c : Thread nD τ) (Pipeline.ucRefs τ sig) (at0 m ρ c)
        from Pipeline.unscopedBufs_held c (at0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at5 m ρ c b)
    (hfin := fun c s' => by
      iintro ⟨⟨Hh, -⟩, HSI⟩
      unfold StableHlo.held
      imodintro
      iapply (pointsTo_read_all (Pipeline.ucRefs τ sig) (fun b => (((c : Thread nD τ)).1, b)) (at5 m ρ c) s')
      isplitl [Hh] <;> iassumption)
    (hQ := fun s h => h)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched -/

theorem at5_of (c : Dev nD) (r : Ref sig .tc) (h : r ∉ hostOps3_W) : at5 m ρ c r = at4 m ρ c r :=
  StableHlo.after_of_writes_sub hostOps3 _ hostOps3_writes h
theorem at3_of (c : Dev nD) (r : Ref sig .tc) (h : r ∉ hostOps2_W) : at3 m ρ c r = at2 m ρ c r :=
  StableHlo.after_of_writes_sub hostOps2 _ hostOps2_writes h

theorem at5_main_arg0 (c : Dev nD) : at5 m ρ c main_arg0 = m ((c : Thread nD τ).loc main_arg0) :=
  calc at5 m ρ c main_arg0
    _ = at4 m ρ c main_arg0 := at5_of m ρ c main_arg0 (by decide)
    _ = at3 m ρ c main_arg0 := at4_of_ne m ρ c main_arg0 (by decide)
    _ = at2 m ρ c main_arg0 := at3_of m ρ c main_arg0 (by decide)
    _ = at1 m ρ c main_arg0 := at2_of_ne m ρ c main_arg0 (by decide)
    _ = at0 m ρ c main_arg0 := (at1_arr m ρ c 0).trans (((dat0 (in0 m ρ) c).arrAt_in 0 rfl _).trans (A_eq0 (in0 m ρ) c 0))
    _ = m ((c : Thread nD τ).loc main_arg0) := rfl

theorem at5_main_arg1 (c : Dev nD) : at5 m ρ c main_arg1 = m ((c : Thread nD τ).loc main_arg1) :=
  calc at5 m ρ c main_arg1
    _ = at4 m ρ c main_arg1 := at5_of m ρ c main_arg1 (by decide)
    _ = at3 m ρ c main_arg1 := at4_of_ne m ρ c main_arg1 (by decide)
    _ = at2 m ρ c main_arg1 := at3_of m ρ c main_arg1 (by decide)
    _ = at1 m ρ c main_arg1 := (at2_arr m ρ c 0).trans (((dat1 (in1 m ρ) c).arrAt_in 0 rfl _).trans (A_eq1 (in1 m ρ) c 0))
    _ = at0 m ρ c main_arg1 := at1_of_ne m ρ c main_arg1 (by decide)
    _ = m ((c : Thread nD τ).loc main_arg1) := rfl

/-- THE FRAME, at any instance: the program runs to the end and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (at5_main_arg0 m ρ c),
     (h c _ (mem_uc main_arg1 (by decide))).trans (at5_main_arg1 m ρ c)⟩) (run_all m ρ)

end Cert.Kernel.Hand

end
-- ==== Proof.NormRegionIdeal.lean ====
/-
  The two row-scaling regions of the program, each taken by itself at an arbitrary state of the TensorCore's buffers
  at the region's entry.  A region walks a grid of two points; at a point it fetches a block of 2048 rows of its
  argument (4096 rows of 256 single-precision entries), divides every row by the larger of its Euclidean norm and a
  small constant, narrows the quotient to 16 bits and writes the block back to the same rows of the output array.
  For each region this module gives what the body leaves in the output window's buffer as a function of the input
  block, the body's triple, the pipeline's proof data over the entry contents, and the body obligation the several-regions
  frame asks of a region.
-/
import proofs.«116624_j43327630082371_2_alg».proof.Proof.Gen.KernelIdeal.Launch
import proofs.«116624_j43327630082371_2_alg».proof.Proof.Gen.KernelIdeal.Skeleton
import proofs.«116624_j43327630082371_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when a region is entered: the parameter both regions' halves are stated at
variable (V : (c : Dev nD) → (b : Ref sig .tc) → Buf (Elt F) ((c : Thread nD τ).loc b))

/-! # The row-scaling region 0: one 2048-row block of the first argument per grid point -/

/-- Window `w`'s block at grid point `t`: the rows of its array, as the region finds it, that the point covers. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the point's block whenever the body runs: the window is fetched at every
    point and the body never writes its buffer. Stated for any proof data whose input array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The one rectangle the body reads and writes: the whole 2048 × 256 block. -/
abbrev whole0 : Rect S2048x256 := Rect.unit (s := S2048x256) ![0, 0] S2048x256.size inb_S2048x256_S2048x256_0_0

/-- What the body leaves in the output window's buffer, from the input block `x`: its single store, of the block
    with every row divided by the larger of its norm and the small constant, over the whole buffer. -/
def scaled0 (x : Vec F S2048x256 .f32) : Vec F S2048x256 .bf16 :=
  View.canon [⟨whole0, k0_pay1 (View.ld x whole0)⟩]

/-- That store covers the buffer. -/
theorem cover0 (p : Vec F S2048x256 .bf16) (y : S2048x256.Idx) :
    ∃ pc ∈ ([⟨whole0, p⟩] : List (View.Piece (Elt F) S2048x256 .bf16)), y ∈ pc.1.set :=
  View.cover_of_tiled [⟨whole0, p⟩] S2048x256.size (by rfl) y

set_option maxHeartbeats 1000000 in
/-- The body on whole staging buffers, the input's at `x` and the output's at anything: it reads the input block, reads
    the output buffer (a value it never uses), stores the scaled block over the whole output buffer, and returns with the
    input's buffer as it was and the output's at `scaled0 x`. -/
theorem sound_kernel0 (c : Dev nD) (E : Set ℕ) (i : grid0.Coords) (arg1 : Memref sig .tc .vmem S2048x256 .f32) (harg1 : arg1.IsWhole)
    (arg2 : Memref sig .tc .vmem S2048x256 .bf16) (harg2 : arg2.IsWhole)
    (x : Vec F S2048x256 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (scaled0 x)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0 _)

/-- The region's proof data on core `c`: the arrays as the region finds them; after the body at point `t` the input's
    buffer at its block and the output's at the scaled block; the invariant holds the buffers the region never touches
    and the generator register; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => scaled0 (blk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = blk0 V c 0 t := by dsimp only [dat0]
theorem after0_1 (c : Dev nD) (t : Fin cfg0.N) : (dat0 V c).after 1 t = scaled0 (blk0 V c 0 t) := by dsimp only [dat0]

/-- The input's staging buffer holds its block at every point. -/
theorem before0_0 (c : Dev nD) (t : Fin cfg0.N) (d) : (dat0 V c).before 0 t d = blk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region, at every point. -/
theorem body_obligation0 (c : Dev nD) : BodyObligation (dat0 (F := F) V c) (defs₀ (F := F)) Variants.none () Set.univ := fun t => by
  rw [bigSep_W0, bigSep_W0]
  exact sound_body0 V c t

/-! # The row-scaling region 1: one 2048-row block of the second argument per grid point -/

/-- Window `w`'s block at grid point `t`: the rows of its array, as the region finds it, that the point covers. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds the point's block whenever the body runs: the window is fetched at every
    point and the body never writes its buffer. Stated for any proof data whose input array is `V`'s and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The one rectangle the body reads and writes: the whole 2048 × 256 block. -/
abbrev whole1 : Rect S2048x256 := Rect.unit (s := S2048x256) ![0, 0] S2048x256.size inb_S2048x256_S2048x256_0_0

/-- What the body leaves in the output window's buffer, from the input block `x`: its single store, of the block
    with every row divided by the larger of its norm and the small constant, over the whole buffer. -/
def scaled1 (x : Vec F S2048x256 .f32) : Vec F S2048x256 .bf16 :=
  View.canon [⟨whole1, k1_pay1 (View.ld x whole1)⟩]

/-- That store covers the buffer. -/
theorem cover1 (p : Vec F S2048x256 .bf16) (y : S2048x256.Idx) :
    ∃ pc ∈ ([⟨whole1, p⟩] : List (View.Piece (Elt F) S2048x256 .bf16)), y ∈ pc.1.set :=
  View.cover_of_tiled [⟨whole1, p⟩] S2048x256.size (by rfl) y

set_option maxHeartbeats 1000000 in
/-- The body on whole staging buffers, the input's at `x` and the output's at anything: it reads the input block, reads
    the output buffer (a value it never uses), stores the scaled block over the whole output buffer, and returns with the
    input's buffer as it was and the output's at `scaled1 x`. -/
theorem sound_kernel1 (c : Dev nD) (E : Set ℕ) (i : grid1.Coords) (arg1 : Memref sig .tc .vmem S2048x256 .f32) (harg1 : arg1.IsWhole)
    (arg2 : Memref sig .tc .vmem S2048x256 .bf16) (harg2 : arg2.IsWhole)
    (x : Vec F S2048x256 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (scaled1 x)) -∗ K ⟨⟩))
      ⊢ wp frame (wpE (defs₀ (F := F)) Variants.none c none) E (cc1__normalize_kernel i arg1 harg1 arg2 harg2) K := by
  simp only [cc1__normalize_kernel_eq_skeleton]; unfold cc1__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1 _)

/-- The region's proof data on core `c`: the arrays as the region finds them; after the body at point `t` the input's
    buffer at its block and the output's at the scaled block; the invariant holds the buffers the region never touches
    and the generator register; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => scaled1 (blk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = blk1 V c 0 t := by dsimp only [dat1]
theorem after1_1 (c : Dev nD) (t : Fin cfg1.N) : (dat1 V c).after 1 t = scaled1 (blk1 V c 0 t) := by dsimp only [dat1]

/-- The input's staging buffer holds its block at every point. -/
theorem before1_0 (c : Dev nD) (t : Fin cfg1.N) (d) : (dat1 V c).before 0 t d = blk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds its block, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (blk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.SimSharedIdeal.lean ====
/-
  The similarity region (the third kernel region: a 16 x 4 grid, row tile i, column step k) — what its runs share.
  The body zeroes two column accumulators (the running sum of exponentials and the running partner logit) at a row
  tile's first column step, adds the step's contributions at every step, and at the last step stores the tile's 512
  results.  Here: the two branch conditions decided over the grid, where the result window is idle, the staging and
  scratch buffers by name, and the region's resting invariant with the two accumulators split out.
-/
import proofs.«116624_j43327630082371_2_alg».proof.Proof.Gen.KernelIdeal.Launch
import proofs.«116624_j43327630082371_2_alg».proof.Proof.Gen.KernelIdeal.Skeleton
import proofs.«116624_j43327630082371_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two branches -/

/-- The accumulators are zeroed where the column step is 0: the printed scalar chain, its bindings substituted. -/
abbrev firstStep (i : grid2.Coords) : Prop :=
  (Scalar.cmpi .ne (Scalar.extui (Scalar.cmpi .eq (BitVec.ofNat 32 (i 1).val) 0#32)) 0#32) = 1#1
/-- That is at the points whose number is 0 mod 4 (the column step is the point's number mod 4). -/
theorem firstStep_iff : ∀ t : Fin cfg2.N, firstStep (grid2.coords t) ↔ t.val % 4 = 0 :=
  (by decide +kernel : ∀ t : Fin grid2.N, firstStep (grid2.coords t) ↔ t.val % 4 = 0)

/-- The results are stored where the column step is 3. -/
abbrev lastStep (i : grid2.Coords) : Prop := k2_cond2 i = 1#1
theorem lastStep_iff : ∀ t : Fin cfg2.N, lastStep (grid2.coords t) ↔ t.val % 4 = 3 :=
  (by decide +kernel : ∀ t : Fin grid2.N, lastStep (grid2.coords t) ↔ t.val % 4 = 3)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
/-- Before the last column step the body stores nothing into the result window, and the pipeline does not write it back. -/
theorem idle2_2 : ∀ t : Fin cfg2.N, ¬lastStep (grid2.coords t) → cfg2.idle 2 (grid2.coords t) = true := by decide +kernel
theorem noFlush2_2 : ∀ t : Fin cfg2.N, ¬lastStep (grid2.coords t) → (cfg2.win 2).flush t = false := by decide +kernel
theorem live2_2 : ∀ t : Fin cfg2.N, lastStep (grid2.coords t) → cfg2.idle 2 (grid2.coords t) = false := by decide +kernel

/-! ## The buffers by name -/

/-- The row tile's staging buffer at point t (the left operand's 512 rows), -/
abbrev rowM (t : Fin cfg2.N) : Memref sig .tc .vmem S512x256 .bf16 := win2_0.stage (cfg2.slots t 0)
abbrev rowW (t : Fin cfg2.N) : (rowM t).IsWhole := hstage2_0 ((cfg2.slots t 0).cast nbuf2_0)
/-- the resident buffer holding all 8192 rows (the right operand, sliced by the body), -/
abbrev allM (t : Fin cfg2.N) : Memref sig .tc .vmem S8192x256 .bf16 := win2_1.stage (cfg2.slots t 1)
abbrev allW (t : Fin cfg2.N) : (allM t).IsWhole := hstage2_1 ((cfg2.slots t 1).cast nbuf2_1)
/-- the result tile's staging buffer, -/
abbrev resM (t : Fin cfg2.N) : Memref sig .tc .vmem S512x1 .f32 := win2_2.stage (cfg2.slots t 2)
abbrev resW (t : Fin cfg2.N) : (resM t).IsWhole := hstage2_2 ((cfg2.slots t 2).cast nbuf2_2)
/-- the accumulator of the exponentials' sum and the accumulator of the partner logit. -/
abbrev expM : Memref sig .tc .vmem S512x1 .f32 := Memref.whole cc2_scratch0
abbrev tgtM : Memref sig .tc .vmem S512x1 .f32 := Memref.whole cc2_scratch1
/-- Views through which the contents of the result tile and of the accumulators are stated. -/
abbrev resV : View sig .tc .vmem S512x1 .f32 := (Memref.whole cc2_stg2_0 : Memref sig .tc .vmem S512x1 .f32).view
abbrev expV : View sig .tc .vmem S512x1 .f32 := expM.view
abbrev tgtV : View sig .tc .vmem S512x1 .f32 := tgtM.view

/-! ## The resting invariant -/

/-- The scoped buffers that belong to the other two regions, each at some contents, followed by `X`. -/
def besides (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ X)

/-- `besides` is monotone in what follows. -/
theorem besides_mono (c : Dev nD) {X Y : sProp 𝕄} (h : X ⊢ Y) : besides (F := F) c X ⊢ besides (F := F) c Y := by
  unfold besides
  iintro ⟨H1, H2, H3, H4, H5, H6, H7, H8, HX⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply h; iexact HX

/-- The region's resting invariant: the other regions' scoped buffers, the two accumulators at some contents, and the
    generator register at some state. -/
theorem restInv_eq (c : Dev nD) :
    (Pipeline.ΦA spec2 c : sProp 𝕄)
      = iprop(besides (F := F) c iprop((∃ d, owns (c : Thread nD τ) expM fullShare d) ∗ (∃ d, owns (c : Thread nD τ) tgtM fullShare d)) ∗ (∃ r, prngReg c r)) := by
  unfold Pipeline.ΦA besides; rw [scopedRest2_eq]; simp only [expM, tgtM, owns_whole]; try rfl

end Cert.KernelIdeal.Hand

end
-- ==== Proof.SimRunsIdeal.lean ====
/-
  The similarity region's body, run once per case of its two branches.  In each case the body is run on whole buffers:
  the row tile and the resident rows at their contents, the accumulators at the contents the step before left (at
  anything, at a first step, where they are zeroed), the result tile untouched before the last step; it ends with the
  inputs as they were and each buffer it stored into holding the pieces it stored.  The pieces are found by the run.
-/
import proofs.«116624_j43327630082371_2_alg».proof.Proof.SimSharedIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- A FIRST column step (the accumulators are zeroed, then added to; nothing is stored into the result tile). -/
noncomputable def runFirst (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : firstStep i) (h1 : ¬lastStep i)
    (x0 : Vec F S512x256 .bf16) (x1 : Vec F S8192x256 .bf16) :
    Σ' (LR : List (View.Piece (Elt F) S512x1 .f32)) (LE : List (View.Piece (Elt F) S512x1 .f32)), { LT : List (View.Piece (Elt F) S512x1 .f32) //
      ∀ (xr : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xr
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xr
                ∗ (∃ f, arg5.view.loc (c : Thread nD τ) ↦[arg5.view.set]{fullShare} arg5.view.writes (Elt F) f LE) ∗ (∃ f, arg6.view.loc (c : Thread nD τ) ↦[arg6.view.set]{fullShare} arg6.view.writes (Elt F) f LT)) -∗ K ⟨⟩))
          ⊢ wp frame (wpE (defs₀ (F := F)) Variants.none c none) E (cc2_kernel i arg2 harg2 arg3 harg3 arg4 harg4 arg5 harg5 arg6 harg6) K } := by
  refine ⟨[], ?_, ?_, fun xr E K => ?run⟩
  case run =>
    simp only [cc2_kernel_eq_skeleton]; unfold cc2_kernel_skel; simp only [k2_part1_eq_skeleton]; unfold k2_part1_skel
    unfold owns
    iintro ⟨⟨%f0, %hf0, H0⟩, ⟨%f1, %hf1, H1⟩, ⟨%f2, %hf2, H2⟩, ⟨%de, %fe, -, HE⟩, ⟨%dt, %ft, -, HT⟩, Hk⟩
    obtain rfl := harg2.eq_unread hf0; obtain rfl := harg3.eq_unread hf1; obtain rfl := harg4.eq_unread hf2
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HE]; · iexists _; iexact HE
    iexists _; iexact HT

set_option maxHeartbeats 2000000 in
/-- A MIDDLE column step (the accumulators, at what the step before left, are added to; nothing else is stored). -/
noncomputable def runMiddle (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : ¬firstStep i) (h1 : ¬lastStep i)
    (x0 : Vec F S512x256 .bf16) (x1 : Vec F S8192x256 .bf16) (xe xt : Vec F S512x1 .f32) :
    Σ' (LR : List (View.Piece (Elt F) S512x1 .f32)) (LE : List (View.Piece (Elt F) S512x1 .f32)), { LT : List (View.Piece (Elt F) S512x1 .f32) //
      ∀ (xr : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xr
            ∗ owns (c : Thread nD τ) arg5 fullShare xe ∗ owns (c : Thread nD τ) arg6 fullShare xt
            ∗ (iprop(owns (c : Thread nD τ) arg2 fullShare x0 ∗ owns (c : Thread nD τ) arg3 fullShare x1 ∗ owns (c : Thread nD τ) arg4 fullShare xr
                ∗ (∃ f, arg5.view.loc (c : Thread nD τ) ↦[arg5.view.set]{fullShare} arg5.view.writes (Elt F) f LE) ∗ (∃ f, arg6.view.loc (c : Thread nD τ) ↦[arg6.view.set]{fullShare} arg6.view.writes (Elt F) f LT)) -∗ K ⟨⟩))
          ⊢ wp frame (wpE (defs₀ (F := F)) Variants.none c none) E (cc2_kernel i arg2 harg2 arg3 harg3 arg4 harg4 arg5 harg5 arg6 harg6) K } := by
  refine ⟨[], ?_, ?_, fun xr E K => ?run⟩
  case run =>
    simp only [cc2_kernel_eq_skeleton]; unfold cc2_kernel_skel; simp only [k2_part1_eq_skeleton]; unfold k2_part1_skel
    unfold owns
    iintro ⟨⟨%f0, %hf0, H0⟩, ⟨%f1, %hf1, H1⟩, ⟨%f2, %hf2, H2⟩, ⟨%fe, %hfe, HE⟩, ⟨%ft, %hft, HT⟩, Hk⟩
    obtain rfl := harg2.eq_unread hf0; obtain rfl := harg3.eq_unread hf1; obtain rfl := harg4.eq_unread hf2
    obtain rfl := harg5.eq_unread hfe; obtain rfl := harg6.eq_unread hft
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HE]; · iexists _; iexact HE
    iexists _; iexact HT

set_option maxHeartbeats 2000000 in
/-- A LAST column step (the accumulators are added to, then the tile's results are stored from them). -/
noncomputable def runLast (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : ¬firstStep i) (h1 : lastStep i)
    (x0 : Vec F S512x256 .bf16) (x1 : Vec F S8192x256 .bf16) (xe xt : Vec F S512x1 .f32) :
    Σ' (LR : List (View.Piece (Elt F) S512x1 .f32)) (LE : List (View.Piece (Elt F) S512x1 .f32)), { LT : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xe ∗ owns (c : Thread nD τ) arg6 fullShare xt
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LR)
                ∗ (∃ f, arg5.view.loc (c : Thread nD τ) ↦[arg5.view.set]{fullShare} arg5.view.writes (Elt F) f LE) ∗ (∃ f, arg6.view.loc (c : Thread nD τ) ↦[arg6.view.set]{fullShare} arg6.view.writes (Elt F) f LT)) -∗ K ⟨⟩))
          ⊢ wp frame (wpE (defs₀ (F := F)) Variants.none c none) E (cc2_kernel i arg2 harg2 arg3 harg3 arg4 harg4 arg5 harg5 arg6 harg6) K } := by
  refine ⟨?_, ?_, ?_, fun E K => ?run⟩
  case run =>
    simp only [cc2_kernel_eq_skeleton]; unfold cc2_kernel_skel; simp only [k2_part1_eq_skeleton]; unfold k2_part1_skel
    unfold owns
    iintro ⟨⟨%f0, %hf0, H0⟩, ⟨%f1, %hf1, H1⟩, ⟨%d2, %f2, -, H2⟩, ⟨%fe, %hfe, HE⟩, ⟨%ft, %hft, HT⟩, Hk⟩
    obtain rfl := harg2.eq_unread hf0; obtain rfl := harg3.eq_unread hf1
    obtain rfl := harg5.eq_unread hfe; obtain rfl := harg6.eq_unread hft
    sl_exec (disch := first | exact h0 | exact h1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HE]; · iexists _; iexact HE
    iexists _; iexact HT

end Cert.KernelIdeal.Hand

end
-- ==== Proof.SimRegionIdeal.lean ====
/-
  The similarity region's proof data.  After the body at a grid point the two accumulators hold what the point's case
  leaves, computed from the row tile, the resident rows and (but at a first column step) what the point before left;
  the result tile's buffer holds the tile's results at a last column step and is idle otherwise.  The region's
  invariant carries the accumulators from point to point; the two input windows read one array and hold it at the
  two halves of the full share.
-/
import proofs.«116624_j43327630082371_2_alg».proof.Proof.SimRunsIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The cases by the point's number -/

theorem first_of (t : Fin cfg2.N) (h : t.val % 4 = 0) : firstStep (grid2.coords t) := (firstStep_iff t).mpr h
theorem not_first_of (t : Fin cfg2.N) (h : ¬t.val % 4 = 0) : ¬firstStep (grid2.coords t) := fun h' => h ((firstStep_iff t).mp h')
theorem last_of (t : Fin cfg2.N) (h : t.val % 4 = 3) : lastStep (grid2.coords t) := (lastStep_iff t).mpr h
theorem not_last_of (t : Fin cfg2.N) (h : ¬t.val % 4 = 3) : ¬lastStep (grid2.coords t) := fun h' => h ((lastStep_iff t).mp h')
theorem not_last_of_first (t : Fin cfg2.N) (h : t.val % 4 = 0) : ¬lastStep (grid2.coords t) :=
  not_last_of t (by omega)

-- the region-entry contents: the parameter the region's half is stated at
variable (V : (c : Dev nD) → (b : Ref sig .tc) → Buf (Elt F) ((c : Thread nD τ).loc b))

/-! ## The windows' blocks -/

/-- Window w's block at point t, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row tile's buffer holds its block at every point, fetched there or not (between fetches the block index does not move). -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The resident rows' buffer holds the whole array at every point. -/
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## What a point leaves -/

/-- The pieces of a run read back over nothing, through a view of the right shape. -/
abbrev readBack (v : View sig .tc .vmem S512x1 .f32) (L : List (View.Piece (Elt F) S512x1 .f32)) : Vec F S512x1 .f32 :=
  v.read (Elt F) (v.writes (Elt F) v.junk L)

/-- What point t leaves in the result tile's buffer and in the two accumulators, from the row tile x0, the resident
    rows x1 and what the accumulators held (read only after a first column step). -/
def stepOut (c : Dev nD) (t : Fin cfg2.N) (x0 : Vec F S512x256 .bf16) (x1 : Vec F S8192x256 .bf16) (pe pt : Vec F S512x1 .f32) :
    Vec F S512x1 .f32 × Vec F S512x1 .f32 × Vec F S512x1 .f32 :=
  if h0 : t.val % 4 = 0 then
    (readBack resV (runFirst c (grid2.coords t) (rowM t) (rowW t) (allM t) (allW t) (resM t) (resW t) expM (Memref.isWhole_whole _) tgtM (Memref.isWhole_whole _) (first_of t h0) (not_last_of_first t h0) x0 x1).1,
     readBack expV (runFirst c (grid2.coords t) (rowM t) (rowW t) (allM t) (allW t) (resM t) (resW t) expM (Memref.isWhole_whole _) tgtM (Memref.isWhole_whole _) (first_of t h0) (not_last_of_first t h0) x0 x1).2.1,
     readBack tgtV (runFirst c (grid2.coords t) (rowM t) (rowW t) (allM t) (allW t) (resM t) (resW t) expM (Memref.isWhole_whole _) tgtM (Memref.isWhole_whole _) (first_of t h0) (not_last_of_first t h0) x0 x1).2.2.1)
  else if h1 : t.val % 4 = 3 then
    (readBack resV (runLast c (grid2.coords t) (rowM t) (rowW t) (allM t) (allW t) (resM t) (resW t) expM (Memref.isWhole_whole _) tgtM (Memref.isWhole_whole _) (not_first_of t h0) (last_of t h1) x0 x1 pe pt).1,
     readBack expV (runLast c (grid2.coords t) (rowM t) (rowW t) (allM t) (allW t) (resM t) (resW t) expM (Memref.isWhole_whole _) tgtM (Memref.isWhole_whole _) (not_first_of t h0) (last_of t h1) x0 x1 pe pt).2.1,
     readBack tgtV (runLast c (grid2.coords t) (rowM t) (rowW t) (allM t) (allW t) (resM t) (resW t) expM (Memref.isWhole_whole _) tgtM (Memref.isWhole_whole _) (not_first_of t h0) (last_of t h1) x0 x1 pe pt).2.2.1)
  else
    (readBack resV (runMiddle c (grid2.coords t) (rowM t) (rowW t) (allM t) (allW t) (resM t) (resW t) expM (Memref.isWhole_whole _) tgtM (Memref.isWhole_whole _) (not_first_of t h0) (not_last_of t h1) x0 x1 pe pt).1,
     readBack expV (runMiddle c (grid2.coords t) (rowM t) (rowW t) (allM t) (allW t) (resM t) (resW t) expM (Memref.isWhole_whole _) tgtM (Memref.isWhole_whole _) (not_first_of t h0) (not_last_of t h1) x0 x1 pe pt).2.1,
     readBack tgtV (runMiddle c (grid2.coords t) (rowM t) (rowW t) (allM t) (allW t) (resM t) (resW t) expM (Memref.isWhole_whole _) tgtM (Memref.isWhole_whole _) (not_first_of t h0) (not_last_of t h1) x0 x1 pe pt).2.2.1)

/-- THE ACCUMULATION: what the result tile's buffer and the accumulators hold after point n, by recursion on n. -/
def stepsAt (c : Dev nD) : (n : ℕ) → n < cfg2.N → Vec F S512x1 .f32 × Vec F S512x1 .f32 × Vec F S512x1 .f32
  | 0, hn => stepOut c ⟨0, hn⟩ (blk2 V c 0 ⟨0, hn⟩) (blk2 V c 1 ⟨0, hn⟩) (readBack expV []) (readBack tgtV [])
  | n + 1, hn => stepOut c ⟨n + 1, hn⟩ (blk2 V c 0 ⟨n + 1, hn⟩) (blk2 V c 1 ⟨n + 1, hn⟩)
      (stepsAt c n (Nat.lt_of_succ_lt hn)).2.1 (stepsAt c n (Nat.lt_of_succ_lt hn)).2.2

/-- After a point that is not the first, the accumulation steps from the point before. -/
theorem stepsAt_pos (c : Dev nD) (t : Fin cfg2.N) (hz : t.val ≠ 0) :
    stepsAt V c t.val t.isLt = stepOut c t (blk2 V c 0 t) (blk2 V c 1 t)
      (stepsAt V c (t.val - 1) (Nat.lt_of_le_of_lt (Nat.sub_le _ _) t.isLt)).2.1 (stepsAt V c (t.val - 1) (Nat.lt_of_le_of_lt (Nat.sub_le _ _) t.isLt)).2.2 := by
  obtain ⟨n, hn⟩ := t
  cases n with
  | zero => exact absurd rfl hz
  | succ n => rfl

/-- At the first point it starts from nothing (a first column step: the accumulators are not read). -/
theorem stepsAt_zero (c : Dev nD) (t : Fin cfg2.N) (hz : t.val = 0) :
    stepsAt V c t.val t.isLt = stepOut c t (blk2 V c 0 t) (blk2 V c 1 t) (readBack expV []) (readBack tgtV []) := by
  obtain ⟨n, hn⟩ := t
  cases n with
  | zero => rfl
  | succ n => exact absurd hz (Nat.succ_ne_zero n)

/-! ## The invariant from point to point -/

/-- Before point n: at the region's entry the resting invariant; afterwards the accumulators at what point n - 1 left. -/
def stepInv (c : Dev nD) : (n : ℕ) → n ≤ cfg2.N → sProp 𝕄
  | 0, _ => Pipeline.ΦA spec2 c
  | n + 1, hn => iprop(besides (F := F) c iprop(owns (c : Thread nD τ) expM fullShare (stepsAt V c n hn).2.1 ∗ owns (c : Thread nD τ) tgtM fullShare (stepsAt V c n hn).2.2) ∗ (∃ r, prngReg c r))

theorem stepInv_zero (c : Dev nD) (n : ℕ) (h : n ≤ cfg2.N) (hz : n = 0) : stepInv V c n h = Pipeline.ΦA spec2 c := by
  subst hz; rfl

theorem stepInv_succ (c : Dev nD) (n : ℕ) (hn : n < cfg2.N) :
    stepInv V c (n + 1) hn = iprop(besides (F := F) c iprop(owns (c : Thread nD τ) expM fullShare (stepsAt V c n hn).2.1 ∗ owns (c : Thread nD τ) tgtM fullShare (stepsAt V c n hn).2.2) ∗ (∃ r, prngReg c r)) := rfl

theorem stepInv_pos (c : Dev nD) (n : ℕ) (h : n ≤ cfg2.N) (hz : n ≠ 0) :
    stepInv V c n h = iprop(besides (F := F) c iprop(owns (c : Thread nD τ) expM fullShare (stepsAt V c (n - 1) (by omega)).2.1 ∗ owns (c : Thread nD τ) tgtM fullShare (stepsAt V c (n - 1) (by omega)).2.2) ∗ (∃ r, prngReg c r)) := by
  cases n with
  | zero => exact absurd rfl hz
  | succ n => rfl

/-! ## The proof data -/

/-- The region's proof data on core c: the arrays as the region finds them; after the body each input's buffer at its
    block and the result tile's at the accumulation's first component; the invariant `stepInv`; the array both input
    windows read held at the two halves of the full share; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => (stepsAt V c t.val t.isLt).1
  Φ t := stepInv V c t.val (Nat.le_of_lt_succ t.isLt)
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem stepInv_castSucc (c : Dev nD) (t : Fin cfg2.N) :
    (dat2 V c).Φ t.castSucc = stepInv V c t.val (Nat.le_of_lt t.isLt) := by
  dsimp only [dat2]; simp only [Fin.coe_castSucc]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = (stepsAt V c t.val t.isLt).1 := by dsimp only [dat2]

theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d

end Cert.KernelIdeal.Hand

end
-- ==== Proof.SimCoversIdeal.lean ====
/-
  In every case the pieces the body stores into an accumulator — and, at a last column step, into the result tile —
  tile the whole [512,1] buffer, so they cover it: what the buffer holds afterwards does not depend on what it held.
-/
import proofs.«116624_j43327630082371_2_alg».proof.Proof.SimRunsIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem coverE_first (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : firstStep i) (h1 : ¬lastStep i)
    (x0 : Vec F S512x256 .bf16) (x1 : Vec F S8192x256 .bf16) (y : S512x1.Idx) :
    ∃ pc ∈ (runFirst c i arg2 harg2 arg3 harg3 arg4 harg4 arg5 harg5 arg6 harg6 h0 h1 x0 x1).2.1, y ∈ pc.1.set :=
  View.cover_of_tiledL (runFirst c i arg2 harg2 arg3 harg3 arg4 harg4 arg5 harg5 arg6 harg6 h0 h1 x0 x1).2.1 S512x1.size (by sl_kernel_rfl) y

theorem coverT_first (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : firstStep i) (h1 : ¬lastStep i)
    (x0 : Vec F S512x256 .bf16) (x1 : Vec F S8192x256 .bf16) (y : S512x1.Idx) :
    ∃ pc ∈ (runFirst c i arg2 harg2 arg3 harg3 arg4 harg4 arg5 harg5 arg6 harg6 h0 h1 x0 x1).2.2.1, y ∈ pc.1.set :=
  View.cover_of_tiledL (runFirst c i arg2 harg2 arg3 harg3 arg4 harg4 arg5 harg5 arg6 harg6 h0 h1 x0 x1).2.2.1 S512x1.size (by sl_kernel_rfl) y

theorem coverE_middle (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : ¬firstStep i) (h1 : ¬lastStep i)
    (x0 : Vec F S512x256 .bf16) (x1 : Vec F S8192x256 .bf16) (xe xt : Vec F S512x1 .f32) (y : S512x1.Idx) :
    ∃ pc ∈ (runMiddle c i arg2 harg2 arg3 harg3 arg4 harg4 arg5 harg5 arg6 harg6 h0 h1 x0 x1 xe xt).2.1, y ∈ pc.1.set :=
  View.cover_of_tiledL (runMiddle c i arg2 harg2 arg3 harg3 arg4 harg4 arg5 harg5 arg6 harg6 h0 h1 x0 x1 xe xt).2.1 S512x1.size (by sl_kernel_rfl) y

theorem coverT_middle (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : ¬firstStep i) (h1 : ¬lastStep i)
    (x0 : Vec F S512x256 .bf16) (x1 : Vec F S8192x256 .bf16) (xe xt : Vec F S512x1 .f32) (y : S512x1.Idx) :
    ∃ pc ∈ (runMiddle c i arg2 harg2 arg3 harg3 arg4 harg4 arg5 harg5 arg6 harg6 h0 h1 x0 x1 xe xt).2.2.1, y ∈ pc.1.set :=
  View.cover_of_tiledL (runMiddle c i arg2 harg2 arg3 harg3 arg4 harg4 arg5 harg5 arg6 harg6 h0 h1 x0 x1 xe xt).2.2.1 S512x1.size (by sl_kernel_rfl) y

theorem coverE_last (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : ¬firstStep i) (h1 : lastStep i)
    (x0 : Vec F S512x256 .bf16) (x1 : Vec F S8192x256 .bf16) (xe xt : Vec F S512x1 .f32) (y : S512x1.Idx) :
    ∃ pc ∈ (runLast c i arg2 harg2 arg3 harg3 arg4 harg4 arg5 harg5 arg6 harg6 h0 h1 x0 x1 xe xt).2.1, y ∈ pc.1.set :=
  View.cover_of_tiledL (runLast c i arg2 harg2 arg3 harg3 arg4 harg4 arg5 harg5 arg6 harg6 h0 h1 x0 x1 xe xt).2.1 S512x1.size (by sl_kernel_rfl) y

theorem coverT_last (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : ¬firstStep i) (h1 : lastStep i)
    (x0 : Vec F S512x256 .bf16) (x1 : Vec F S8192x256 .bf16) (xe xt : Vec F S512x1 .f32) (y : S512x1.Idx) :
    ∃ pc ∈ (runLast c i arg2 harg2 arg3 harg3 arg4 harg4 arg5 harg5 arg6 harg6 h0 h1 x0 x1 xe xt).2.2.1, y ∈ pc.1.set :=
  View.cover_of_tiledL (runLast c i arg2 harg2 arg3 harg3 arg4 harg4 arg5 harg5 arg6 harg6 h0 h1 x0 x1 xe xt).2.2.1 S512x1.size (by sl_kernel_rfl) y

theorem coverR_last (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : ¬firstStep i) (h1 : lastStep i)
    (x0 : Vec F S512x256 .bf16) (x1 : Vec F S8192x256 .bf16) (xe xt : Vec F S512x1 .f32) (y : S512x1.Idx) :
    ∃ pc ∈ (runLast c i arg2 harg2 arg3 harg3 arg4 harg4 arg5 harg5 arg6 harg6 h0 h1 x0 x1 xe xt).1, y ∈ pc.1.set :=
  View.cover_of_tiledL (runLast c i arg2 harg2 arg3 harg3 arg4 harg4 arg5 harg5 arg6 harg6 h0 h1 x0 x1 xe xt).1 S512x1.size (by sl_kernel_rfl) y

end Cert.KernelIdeal.Hand

end
-- ==== Proof.SimBodyIdeal.lean ====
/-
  The similarity region's body obligation: at every grid point the body, handed the invariant and the windows'
  buffers, runs to the invariant of the next point with every buffer at what the proof data says — by cases on the
  point's number mod 4 (a first, a middle or a last column step), each case its run.
-/
import proofs.«116624_j43327630082371_2_alg».proof.Proof.SimRegionIdeal
import proofs.«116624_j43327630082371_2_alg».proof.Proof.SimCoversIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (rowM t) fullShare ((dat2 V c).before 0 t d))
    ∗ (∃ d, owns (c : Thread nD τ) (allM t) fullShare ((dat2 V c).before 1 t d))
    ∗ (∃ d, owns (c : Thread nD τ) (resM t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

theorem stepOut_first (c : Dev nD) (t : Fin cfg2.N) (h0 : t.val % 4 = 0) (x0 : Vec F S512x256 .bf16) (x1 : Vec F S8192x256 .bf16) (pe pt : Vec F S512x1 .f32) :
    stepOut c t x0 x1 pe pt =
      (readBack resV (runFirst c (grid2.coords t) (rowM t) (rowW t) (allM t) (allW t) (resM t) (resW t) expM (Memref.isWhole_whole _) tgtM (Memref.isWhole_whole _) (first_of t h0) (not_last_of_first t h0) x0 x1).1,
       readBack expV (runFirst c (grid2.coords t) (rowM t) (rowW t) (allM t) (allW t) (resM t) (resW t) expM (Memref.isWhole_whole _) tgtM (Memref.isWhole_whole _) (first_of t h0) (not_last_of_first t h0) x0 x1).2.1,
       readBack tgtV (runFirst c (grid2.coords t) (rowM t) (rowW t) (allM t) (allW t) (resM t) (resW t) expM (Memref.isWhole_whole _) tgtM (Memref.isWhole_whole _) (first_of t h0) (not_last_of_first t h0) x0 x1).2.2.1) := dif_pos h0

theorem stepOut_last (c : Dev nD) (t : Fin cfg2.N) (h0 : ¬t.val % 4 = 0) (h1 : t.val % 4 = 3) (x0 : Vec F S512x256 .bf16) (x1 : Vec F S8192x256 .bf16) (pe pt : Vec F S512x1 .f32) :
    stepOut c t x0 x1 pe pt =
      (readBack resV (runLast c (grid2.coords t) (rowM t) (rowW t) (allM t) (allW t) (resM t) (resW t) expM (Memref.isWhole_whole _) tgtM (Memref.isWhole_whole _) (not_first_of t h0) (last_of t h1) x0 x1 pe pt).1,
       readBack expV (runLast c (grid2.coords t) (rowM t) (rowW t) (allM t) (allW t) (resM t) (resW t) expM (Memref.isWhole_whole _) tgtM (Memref.isWhole_whole _) (not_first_of t h0) (last_of t h1) x0 x1 pe pt).2.1,
       readBack tgtV (runLast c (grid2.coords t) (rowM t) (rowW t) (allM t) (allW t) (resM t) (resW t) expM (Memref.isWhole_whole _) tgtM (Memref.isWhole_whole _) (not_first_of t h0) (last_of t h1) x0 x1 pe pt).2.2.1) := (dif_neg h0).trans (dif_pos h1)

theorem stepOut_middle (c : Dev nD) (t : Fin cfg2.N) (h0 : ¬t.val % 4 = 0) (h1 : ¬t.val % 4 = 3) (x0 : Vec F S512x256 .bf16) (x1 : Vec F S8192x256 .bf16) (pe pt : Vec F S512x1 .f32) :
    stepOut c t x0 x1 pe pt =
      (readBack resV (runMiddle c (grid2.coords t) (rowM t) (rowW t) (allM t) (allW t) (resM t) (resW t) expM (Memref.isWhole_whole _) tgtM (Memref.isWhole_whole _) (not_first_of t h0) (not_last_of t h1) x0 x1 pe pt).1,
       readBack expV (runMiddle c (grid2.coords t) (rowM t) (rowW t) (allM t) (allW t) (resM t) (resW t) expM (Memref.isWhole_whole _) tgtM (Memref.isWhole_whole _) (not_first_of t h0) (not_last_of t h1) x0 x1 pe pt).2.1,
       readBack tgtV (runMiddle c (grid2.coords t) (rowM t) (rowW t) (allM t) (allW t) (resM t) (resW t) expM (Memref.isWhole_whole _) tgtM (Memref.isWhole_whole _) (not_first_of t h0) (not_last_of t h1) x0 x1 pe pt).2.2.1) := (dif_neg h0).trans (dif_neg h1)

set_option maxHeartbeats 4800000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = stepInv V c (t.val + 1) t.isLt from rfl, stepInv_succ]
  rw [show (dat2 V c).leavesExact 0 t = owns (c : Thread nD τ) (rowM t) fullShare ((dat2 V c).after 0 t) from by
    unfold Dat.leavesExact; rw [live2_0 t], after2_0]
  rw [show (dat2 V c).leavesExact 1 t = owns (c : Thread nD τ) (allM t) fullShare ((dat2 V c).after 1 t) from by
    unfold Dat.leavesExact; rw [live2_1 t], after2_1]
  have hN : t.val < 64 := lt_of_lt_of_eq t.isLt (show cfg2.N = 64 from N_2)
  by_cases h0 : t.val % 4 = 0
  · have hl := not_last_of_first t h0
    rw [Dat.leavesExact_idle (dat2 V c) 2 t (idle2_2 t hl) (noFlush2_2 t hl)]
    by_cases hz : t.val = 0
    · rw [stepsAt_zero V c t hz, stepOut_first c t h0]; (try dsimp only)
      rw [stepInv_castSucc V c t, stepInv_zero V c _ _ hz, restInv_eq]
      unfold besides
      iintro ⟨⟨⟨B1, B2, B3, B4, B5, B6, B7, B8, HE, HT⟩, Hg⟩, Ho, ⟨%d0, H0⟩, ⟨%d1, H1⟩, ⟨%d2, H2⟩⟩
      iapply ((runFirst c (grid2.coords t) _ _ _ _ _ _ _ _ _ _ (first_of t h0) hl (blk2 V c 0 t) (blk2 V c 1 t)).2.2.2 _ Set.univ _)
      isplitl [H0]; · iexact H0
      isplitl [H1]; · iexact H1
      isplitl [H2]; · iexact H2
      isplitl [HE]; · iexact HE
      isplitl [HT]; · iexact HT
      iintro ⟨H0, H1, H2, ⟨%fe, HE⟩, ⟨%ft, HT⟩⟩
      isplitl [B1 B2 B3 B4 B5 B6 B7 B8 HE HT Hg]
      · isplitl [B1 B2 B3 B4 B5 B6 B7 B8 HE HT]
        · skip
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [HE]
          · unfold owns; iexists _; isplitr
            swap; · iexact HE
            ipureintro; exact View.read_writes_of_cover _ _ _ _ _ (coverE_first _ _ _ _ _ _ _ _ _ _ _ _ _ _ _ _)
          · unfold owns; iexists _; isplitr
            swap; · iexact HT
            ipureintro; exact View.read_writes_of_cover _ _ _ _ _ (coverT_first _ _ _ _ _ _ _ _ _ _ _ _ _ _ _ _)
        iexact Hg
      isplitl [Ho]; · iexact Ho
      isplitl [H0]; · iexact H0
      isplitl [H1]; · iexact H1
      iexists _; iexact H2
    · rw [stepsAt_pos V c t hz, stepOut_first c t h0]; (try dsimp only)
      rw [stepInv_castSucc V c t, stepInv_pos V c _ _ hz]
      unfold besides
      iintro ⟨⟨⟨B1, B2, B3, B4, B5, B6, B7, B8, HE, HT⟩, Hg⟩, Ho, ⟨%d0, H0⟩, ⟨%d1, H1⟩, ⟨%d2, H2⟩⟩
      iapply ((runFirst c (grid2.coords t) _ _ _ _ _ _ _ _ _ _ (first_of t h0) hl (blk2 V c 0 t) (blk2 V c 1 t)).2.2.2 _ Set.univ _)
      isplitl [H0]; · iexact H0
      isplitl [H1]; · iexact H1
      isplitl [H2]; · iexact H2
      isplitl [HE]; · iexists _; iexact HE
      isplitl [HT]; · iexists _; iexact HT
      iintro ⟨H0, H1, H2, ⟨%fe, HE⟩, ⟨%ft, HT⟩⟩
      isplitl [B1 B2 B3 B4 B5 B6 B7 B8 HE HT Hg]
      · isplitl [B1 B2 B3 B4 B5 B6 B7 B8 HE HT]
        · skip
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [HE]
          · unfold owns; iexists _; isplitr
            swap; · iexact HE
            ipureintro; exact View.read_writes_of_cover _ _ _ _ _ (coverE_first _ _ _ _ _ _ _ _ _ _ _ _ _ _ _ _)
          · unfold owns; iexists _; isplitr
            swap; · iexact HT
            ipureintro; exact View.read_writes_of_cover _ _ _ _ _ (coverT_first _ _ _ _ _ _ _ _ _ _ _ _ _ _ _ _)
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat2 V c).leavesExact 2 t = owns (c : Thread nD τ) (resM t) fullShare ((dat2 V c).after 2 t) from by
        unfold Dat.leavesExact; rw [live2_2 t (last_of t h1)], after2_2]
      rw [stepsAt_pos V c t hz, stepOut_last c t h0 h1]; (try dsimp only)
      rw [stepInv_castSucc V c t, stepInv_pos V c _ _ hz]
      unfold besides
      iintro ⟨⟨⟨B1, B2, B3, B4, B5, B6, B7, B8, HE, HT⟩, Hg⟩, Ho, ⟨%d0, H0⟩, ⟨%d1, H1⟩, ⟨%d2, H2⟩⟩
      iapply ((runLast c (grid2.coords t) _ _ _ _ _ _ _ _ _ _ (not_first_of t h0) (last_of t h1) (blk2 V c 0 t) (blk2 V c 1 t) _ _).2.2.2 Set.univ _)
      isplitl [H0]; · iexact H0
      isplitl [H1]; · iexact H1
      isplitl [H2]; · iexists _; iexact H2
      isplitl [HE]; · iexact HE
      isplitl [HT]; · iexact HT
      iintro ⟨H0, H1, ⟨%fr, H2⟩, ⟨%fe, HE⟩, ⟨%ft, HT⟩⟩
      isplitl [B1 B2 B3 B4 B5 B6 B7 B8 HE HT Hg]
      · isplitl [B1 B2 B3 B4 B5 B6 B7 B8 HE HT]
        · skip
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [HE]
          · unfold owns; iexists _; isplitr
            swap; · iexact HE
            ipureintro; exact View.read_writes_of_cover _ _ _ _ _ (coverE_last _ _ _ _ _ _ _ _ _ _ _ _ _ _ _ _ _ _)
          · unfold owns; iexists _; isplitr
            swap; · iexact HT
            ipureintro; exact View.read_writes_of_cover _ _ _ _ _ (coverT_last _ _ _ _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverR_last _ _ _ _ _ _ _ _ _ _ _ _ _ _ _ _ _ _)
    · have hl := not_last_of t h1
      rw [Dat.leavesExact_idle (dat2 V c) 2 t (idle2_2 t hl) (noFlush2_2 t hl)]
      rw [stepsAt_pos V c t hz, stepOut_middle c t h0 h1]; (try dsimp only)
      rw [stepInv_castSucc V c t, stepInv_pos V c _ _ hz]
      unfold besides
      iintro ⟨⟨⟨B1, B2, B3, B4, B5, B6, B7, B8, HE, HT⟩, Hg⟩, Ho, ⟨%d0, H0⟩, ⟨%d1, H1⟩, ⟨%d2, H2⟩⟩
      iapply ((runMiddle c (grid2.coords t) _ _ _ _ _ _ _ _ _ _ (not_first_of t h0) (not_last_of t h1) (blk2 V c 0 t) (blk2 V c 1 t) _ _).2.2.2 _ Set.univ _)
      isplitl [H0]; · iexact H0
      isplitl [H1]; · iexact H1
      isplitl [H2]; · iexact H2
      isplitl [HE]; · iexact HE
      isplitl [HT]; · iexact HT
      iintro ⟨H0, H1, H2, ⟨%fe, HE⟩, ⟨%ft, HT⟩⟩
      isplitl [B1 B2 B3 B4 B5 B6 B7 B8 HE HT Hg]
      · isplitl [B1 B2 B3 B4 B5 B6 B7 B8 HE HT]
        · skip
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [HE]
          · unfold owns; iexists _; isplitr
            swap; · iexact HE
            ipureintro; exact View.read_writes_of_cover _ _ _ _ _ (coverE_middle _ _ _ _ _ _ _ _ _ _ _ _ _ _ _ _ _ _)
          · unfold owns; iexists _; isplitr
            swap; · iexact HT
            ipureintro; exact View.read_writes_of_cover _ _ _ _ _ (coverT_middle _ _ _ _ _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem inv_in (c : Dev nD) : Pipeline.ΦA spec2 c ⊢ (dat2 V c).Φ 0 := by
  rw [show (dat2 V c).Φ 0 = stepInv V c 0 (Nat.zero_le _) from rfl, stepInv_zero V c 0 _ rfl]
  try exact Idealize.SL.BI.Entails.refl _

/-- After the last point the invariant gives the resting invariant back: the accumulators' contents are forgotten. -/
theorem inv_out (c : Dev nD) : (dat2 V c).Φ (Fin.last cfg2.N) ⊢ Pipeline.ΦA spec2 c := by
  have hne : (Fin.last cfg2.N).val ≠ 0 := by rw [Fin.val_last]; have : cfg2.N = 64 := N_2; omega
  rw [show (dat2 V c).Φ (Fin.last cfg2.N) = stepInv V c (Fin.last cfg2.N).val (Nat.le_of_lt_succ (Fin.last cfg2.N).isLt) from rfl,
    stepInv_pos V c _ _ hne, restInv_eq]
  unfold besides
  iintro ⟨⟨B1, B2, B3, B4, B5, B6, B7, B8, HE, HT⟩, Hg⟩
  isplitl [B1 B2 B3 B4 B5 B6 B7 B8 HE HT]
  · skip
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [HE]; · iexists _; iexact HE
    iexists _; iexact HT
  iexact Hg

end Cert.KernelIdeal.Hand

end
-- ==== Proof.RunPartsIdeal.lean ====
/-
  The run of the whole program, first part: what every unscoped buffer holds at each boundary between @main's five
  items (region 0, region 1, the concatenation, region 2, the closing mean), every pipeline's proof data at its
  region's entry contents, and the first two regions as segments of the run.
-/
import proofs.«116624_j43327630082371_2_alg».proof.Proof.NormRegionIdeal
import proofs.«116624_j43327630082371_2_alg».proof.Proof.SimBodyIdeal
import proofs.«116624_j43327630082371_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev at0 : Dev nD → Valuation τ sig (Elt F) := fun c b => (s₀ m ρ).mem ((c : Dev nD), b)
/-- The same read at the TensorCore's references (what region 0's proof data take). -/
abbrev in0 : (c : Dev nD) → (b : Ref sig .tc) → Buf (Elt F) ((c : Thread nD τ).loc b) := fun c b => at0 m ρ c b

/-- At region 0's exit: its arrays at what the pipeline leaves (an input as entered, the output's write-backs folded),
    every other buffer as entered. -/
def at1 (c : Dev nD) : Valuation τ sig (Elt F) :=
  Pipeline.withArrays spec0 c (at0 m ρ c) fun w => (dat0 (in0 m ρ) c).arrAt w cfg0.N
theorem at1_arr (c : Dev nD) (w : Fin cfg0.W) :
    at1 m ρ c (Proc.devRef .tc (Pipeline.arrRef spec0 w)) = (dat0 (in0 m ρ) c).arrAt w cfg0.N := by
  unfold at1; exact Pipeline.withArrays_arr spec0 launch0.win.arr_inj c _ _ w
theorem at1_of_ne (c : Dev nD) (b : Ref sig .tc) (hb : ∀ w, Pipeline.arrRef spec0 w ≠ b) :
    at1 m ρ c (Proc.devRef .tc b) = at0 m ρ c (Proc.devRef .tc b) := by
  unfold at1; exact Pipeline.withArrays_of_ne spec0 c _ _ b hb
/-- The same read at the TensorCore's references. -/
abbrev in1 : (c : Dev nD) → (b : Ref sig .tc) → Buf (Elt F) ((c : Thread nD τ).loc b) := fun c b => at1 m ρ c b
theorem kept0 (c : Dev nD) (w : Fin cfg0.W) : (dat0 (in0 m ρ) c).arrAt w cfg0.N = in1 m ρ c (Pipeline.arrRef spec0 w) :=
  (at1_arr m ρ c w).symm
theorem others0 (c : Dev nD) : ∀ b, b ∉ Finset.univ.image (Pipeline.arrRef spec0) → in1 m ρ c b = in0 m ρ c b :=
  fun b hb => at1_of_ne m ρ c b fun w e => hb (Finset.mem_image.mpr ⟨w, Finset.mem_univ _, e⟩)

/-- At region 1's exit: its arrays at what the pipeline leaves (an input as entered, the output's write-backs folded),
    every other buffer as entered. -/
def at2 (c : Dev nD) : Valuation τ sig (Elt F) :=
  Pipeline.withArrays spec1 c (at1 m ρ c) fun w => (dat1 (in1 m ρ) c).arrAt w cfg1.N
theorem at2_arr (c : Dev nD) (w : Fin cfg1.W) :
    at2 m ρ c (Proc.devRef .tc (Pipeline.arrRef spec1 w)) = (dat1 (in1 m ρ) c).arrAt w cfg1.N := by
  unfold at2; exact Pipeline.withArrays_arr spec1 launch1.win.arr_inj c _ _ w
theorem at2_of_ne (c : Dev nD) (b : Ref sig .tc) (hb : ∀ w, Pipeline.arrRef spec1 w ≠ b) :
    at2 m ρ c (Proc.devRef .tc b) = at1 m ρ c (Proc.devRef .tc b) := by
  unfold at2; exact Pipeline.withArrays_of_ne spec1 c _ _ b hb
/-- The same read at the TensorCore's references. -/
abbrev in2 : (c : Dev nD) → (b : Ref sig .tc) → Buf (Elt F) ((c : Thread nD τ).loc b) := fun c b => at2 m ρ c b
theorem kept1 (c : Dev nD) (w : Fin cfg1.W) : (dat1 (in1 m ρ) c).arrAt w cfg1.N = in2 m ρ c (Pipeline.arrRef spec1 w) :=
  (at2_arr m ρ c w).symm
theorem others1 (c : Dev nD) : ∀ b, b ∉ Finset.univ.image (Pipeline.arrRef spec1) → in2 m ρ c b = in1 m ρ c b :=
  fun b hb => at2_of_ne m ρ c b fun w e => hb (Finset.mem_image.mpr ⟨w, Finset.mem_univ _, e⟩)

/-- After the concatenation (region 2's entry). -/
abbrev at3 : Dev nD → Valuation τ sig (Elt F) := fun c => StableHlo.after hostOps2 (at2 m ρ c)
abbrev in3 : (c : Dev nD) → (b : Ref sig .tc) → Buf (Elt F) ((c : Thread nD τ).loc b) := fun c b => at3 m ρ c b

/-- At region 2's exit: the result array at what the pipeline leaves, every other buffer as entered (its two input
    windows read one array, which it leaves as it found it). -/
def at4 (c : Dev nD) : Valuation τ sig (Elt F) :=
  Function.update (at3 m ρ c) main_v3 ((dat2 (in3 m ρ) c).arrAt 2 cfg2.N)
abbrev in4 : (c : Dev nD) → (b : Ref sig .tc) → Buf (Elt F) ((c : Thread nD τ).loc b) := fun c b => at4 m ρ c b
/-- After the closing mean: the end. -/
abbrev at5 : Dev nD → Valuation τ sig (Elt F) := fun c => StableHlo.after hostOps3 (at4 m ρ c)

/-! ## The proof data family and what rides along -/

/-- No pipeline has a prefetched table. -/
abbrev tables : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) tables p) c
  | ⟨0, _⟩ => fun c => dat0 (in0 m ρ) c
  | ⟨1, _⟩ => fun c => dat1 (in1 m ρ) c
  | ⟨2, _⟩ => fun c => dat2 (in3 m ρ) c
/-- No core owes another anything: no level is assigned. -/
abbrev noLevels : GSem nD τ sig → Finset Unit := fun _ => ∅
abbrev zeroLevel : GSem nD τ sig → Unit → ℕ := fun _ _ => 0
/-- What rides beside the buffers through every item: the generator register at some state and the core owing nothing. -/
abbrev riding (c : Dev nD) : sProp 𝕄 := iprop((∃ r, prngReg c r) ∗ ∃ W, owes (c : Thread nD τ) (0 : CellTallies nD τ sig Unit) W)

/-! ## The first two regions as segments -/

set_option backward.isDefEq.respectTransparency.types false in
/-- Region 0 over the thread state: entered from every unscoped buffer at the boundary before it, left at the boundary
    after it.  Its arrays are split out of the unscoped buffers and put back at their exit contents; the generator
    register goes into the region's invariant and comes out; nothing is owed; the kernel has no semaphore of its own. -/
def reg0 : Pipeline.RegionSeg (pcfgs (F := F)) tables (pdats m ρ) () defs₀ Variants.none noLevels zeroLevel 0 where
  win := launch0.win.to₀
  block_pos := launch0.block_pos
  stage_whole := launch0.stage_whole
  K := PEmpty
  osem k := k.elim
  ho := Pipeline.OwnSemFacts.none _
  hbody c := (body_obligation0 (in0 m ρ) c).loose
  hwaits := Pipeline.hwaits_of_owed_zero _ _ _ _ noLevels zeroLevel 0 fun _ _ => rfl
  pre c := iprop(StableHlo.held (c : Thread nD τ) (Pipeline.ucRefs τ sig) (at0 m ρ c) ∗ riding c)
  post c := iprop(StableHlo.held (c : Thread nD τ) (Pipeline.ucRefs τ sig) (at1 m ρ c) ∗ riding c)
  X c := iprop(∃ r, prngReg c r)
  Y c := iprop(∃ r, prngReg c r)
  Z c := Pipeline.unscopedRest (Ix := Unit) (Name := ℕ) (U := UR sig nD τ) (Lvl := ℕ) spec0 c (in0 m ρ c)
  hentry c := by
    rw [Pipeline.ownSems0_none]
    have hsplit := Pipeline.arrays_of_unscopedBufs (p := 0) (pcfgs (F := F)) tables (pdats m ρ) launch0.win launch0.arr_whole c
      ((pdats m ρ 0 c).share_full fun _ => rfl) (in0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m ρ) ((pdats m ρ 0 c).share_full fun _ => rfl)
      (in0 m ρ c) (in1 m ρ c) ((pdats m ρ 0 c).arrAt · cfg0.N) (kept0 m ρ c) (others0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the boundary
    after it.  Its arrays are split out of the unscoped buffers and put back at their exit contents; the generator
    register goes into the region's invariant and comes out; nothing is owed; the kernel has no semaphore of its own. -/
def reg1 : Pipeline.RegionSeg (pcfgs (F := F)) tables (pdats m ρ) () defs₀ Variants.none noLevels zeroLevel 1 where
  win := launch1.win.to₀
  block_pos := launch1.block_pos
  stage_whole := launch1.stage_whole
  K := PEmpty
  osem k := k.elim
  ho := Pipeline.OwnSemFacts.none _
  hbody c := (body_obligation1 (in1 m ρ) c).loose
  hwaits := Pipeline.hwaits_of_owed_zero _ _ _ _ noLevels zeroLevel 1 fun _ _ => rfl
  pre c := iprop(StableHlo.held (c : Thread nD τ) (Pipeline.ucRefs τ sig) (at1 m ρ c) ∗ riding c)
  post c := iprop(StableHlo.held (c : Thread nD τ) (Pipeline.ucRefs τ sig) (at2 m ρ c) ∗ riding c)
  X c := iprop(∃ r, prngReg c r)
  Y c := iprop(∃ r, prngReg c r)
  Z c := Pipeline.unscopedRest (Ix := Unit) (Name := ℕ) (U := UR sig nD τ) (Lvl := ℕ) spec1 c (in1 m ρ c)
  hentry c := by
    rw [Pipeline.ownSems0_none]
    have hsplit := Pipeline.arrays_of_unscopedBufs (p := 1) (pcfgs (F := F)) tables (pdats m ρ) launch1.win launch1.arr_whole c
      ((pdats m ρ 1 c).share_full fun _ => rfl) (in1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m ρ) ((pdats m ρ 1 c).share_full fun _ => rfl)
      (in1 m ρ c) (in2 m ρ c) ((pdats m ρ 1 c).arrAt · cfg1.N) (kept1 m ρ c) (others1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunSimIdeal.lean ====
/-
  The run of the whole program, second part: the similarity region as a segment.  Its two input windows read ONE
  array (the concatenated scaled rows), so at entry that array's buffer, held whole, is cut into the two halves of
  the full share, one per window, and at exit the halves are joined again; the result array is held whole.
-/
import proofs.«116624_j43327630082371_2_alg».proof.Proof.RunPartsIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The two buffers behind the region's three windows, listed. -/
theorem arrBufs2_eq (c : Dev nD) (X : (b : Ref sig .tc) → Buf (Elt F) ((c : Thread nD τ).loc b)) :
    (Pipeline.arrBufs (Ix := Unit) (Name := ℕ) (U := UR sig nD τ) (Lvl := ℕ) spec2 c X : sProp 𝕄)
      = iprop((((c : Thread nD τ).loc main_v2) ↦{fullShare} X main_v2) ∗ (((c : Thread nD τ).loc main_v3) ↦{fullShare} X main_v3)) := by
  unfold Pipeline.arrBufs
  exact bigSep_eq_bigSepL_of_eq [main_v2, main_v3] (by decide) (by decide) _

/-- The region's arrays, window by window: the shared array at the left and the right half, the result array whole. -/
theorem arrays2_eq (V : (c : Dev nD) → (b : Ref sig .tc) → Buf (Elt F) ((c : Thread nD τ).loc b)) (c : Dev nD)
    (A0 A1 : Buf (Elt F) ((c : Thread nD τ).loc main_v2)) (A2 : Buf (Elt F) ((c : Thread nD τ).loc main_v3)) :
    ((dat2 V c).arrays (fun w => match w with | ⟨0, _⟩ => A0 | ⟨1, _⟩ => A1 | ⟨2, _⟩ => A2) : sProp 𝕄)
      = iprop((((c : Thread nD τ).loc main_v2) ↦{fullShare.left} A0) ∗ (((c : Thread nD τ).loc main_v2) ↦{fullShare.right} A1)
          ∗ (((c : Thread nD τ).loc main_v3) ↦{fullShare} A2)) := by
  unfold Dat.arrays
  rw [bigSep_W2, (arr_whole2 0).set_eq_univ, (arr_whole2 2).set_eq_univ]
  rfl

/-- Any contents of the three windows' arrays, as the three-way choice `arrays2_eq` is stated over. -/
theorem choice_eq (V : (c : Dev nD) → (b : Ref sig .tc) → Buf (Elt F) ((c : Thread nD τ).loc b)) (c : Dev nD)
    (Fs : (w : Fin cfg2.W) → Buf (Elt F) ((cfg2.win w).arr.view.loc (c : Thread nD τ))) :
    Fs = (fun w => match w with | ⟨0, _⟩ => Fs 0 | ⟨1, _⟩ => Fs 1 | ⟨2, _⟩ => Fs 2) := by
  funext w; match w with | ⟨0, _⟩ => rfl | ⟨1, _⟩ => rfl | ⟨2, _⟩ => rfl

/-- A core's unscoped buffers are the two buffers behind the region's arrays and the rest. -/
theorem split2 (c : Dev nD) (X : (b : Ref sig .tc) → Buf (Elt F) ((c : Thread nD τ).loc b)) :
    (unscopedBufs c X : sProp 𝕄) = iprop((Pipeline.arrBufs (Ix := Unit) (Name := ℕ) (U := UR sig nD τ) (Lvl := ℕ) spec2 c X : sProp 𝕄)
      ∗ Pipeline.unscopedRest (Ix := Unit) (Name := ℕ) (U := UR sig nD τ) (Lvl := ℕ) spec2 c X) :=
  Pipeline.unscopedBufs_split₀ cfgs 2 winFacts₀2.arr_unscoped c X

/-- ENTRY: every unscoped buffer at the region's entry contents gives the region's arrays at those contents — the shared
    array's buffer cut into its two halves — and the unscoped rest. -/
theorem entry2 (c : Dev nD) :
    (StableHlo.held (c : Thread nD τ) (Pipeline.ucRefs τ sig) (at3 m ρ c) : sProp 𝕄)
      ⊢ iprop((dat2 (in3 m ρ) c).arrays ((dat2 (in3 m ρ) c).arrAt · 0)
          ∗ Pipeline.unscopedRest (Ix := Unit) (Name := ℕ) (U := UR sig nD τ) (Lvl := ℕ) spec2 c (in3 m ρ c)) := by
  rw [← Pipeline.unscopedBufs_held (Ix := Unit) (Name := ℕ) (U := UR sig nD τ) (Lvl := ℕ) c (at3 m ρ c),
    split2 c (in3 m ρ c), arrBufs2_eq,
    choice_eq (in3 m ρ) c ((dat2 (in3 m ρ) c).arrAt · 0), arrays2_eq]
  iintro ⟨⟨H2, H3⟩, Hrest⟩
  ihave H2' := (pointsTo_share (PosShare.mem_left_op_right fullShare)).1 $$ H2
  icases H2' with ⟨H2l, H2r⟩
  isplitr [Hrest]
  · isplitl [H2l]; · iexact H2l
    isplitl [H2r]; · iexact H2r
    iexact H3
  iexact Hrest

/-- The boundary after the region agrees with the one before it off the result array, -/
theorem at4_of_ne (c : Dev nD) (b : Ref sig .tc) (hb : b ≠ main_v3) : in4 m ρ c b = in3 m ρ c b := by
  show at4 m ρ c (Proc.devRef .tc b) = at3 m ρ c (Proc.devRef .tc b)
  unfold at4
  exact Function.update_of_ne (StableHlo.devRef_ne_of_ne hb) _ _
/-- and has the result array at what the pipeline leaves. -/
theorem at4_res (c : Dev nD) : in4 m ρ c main_v3 = (dat2 (in3 m ρ) c).arrAt 2 cfg2.N := by
  show at4 m ρ c (Proc.devRef .tc main_v3) = _
  unfold at4
  exact Function.update_self _ _ _

/-- EXIT: the region's arrays at their final contents — the two halves of the shared array joined — and the unscoped
    rest are every unscoped buffer at the boundary after the region. -/
theorem exit2 (c : Dev nD) :
    iprop((dat2 (in3 m ρ) c).arrays ((dat2 (in3 m ρ) c).arrAt · cfg2.N)
        ∗ Pipeline.unscopedRest (Ix := Unit) (Name := ℕ) (U := UR sig nD τ) (Lvl := ℕ) spec2 c (in3 m ρ c))
      ⊢ (StableHlo.held (c : Thread nD τ) (Pipeline.ucRefs τ sig) (at4 m ρ c) : sProp 𝕄) := by
  have hrest : (Pipeline.unscopedRest (Ix := Unit) (Name := ℕ) (U := UR sig nD τ) (Lvl := ℕ) spec2 c (in3 m ρ c) : sProp 𝕄)
      = Pipeline.unscopedRest (Ix := Unit) (Name := ℕ) (U := UR sig nD τ) (Lvl := ℕ) spec2 c (in4 m ρ c) := by
    unfold Pipeline.unscopedRest
    refine bigSep_congr fun b hb => ?_
    have hne : b ≠ main_v3 := fun e => (Finset.mem_sdiff.mp hb).2 (Finset.mem_image.mpr ⟨2, Finset.mem_univ _, e.symm⟩)
    rw [at4_of_ne m ρ c b hne]
  have h0 : (dat2 (in3 m ρ) c).arrAt 0 cfg2.N = in4 m ρ c main_v2 :=
    ((dat2 (in3 m ρ) c).arrAt_in 0 rfl _).trans (((A_eq2 (in3 m ρ) c 0)).trans (at4_of_ne m ρ c main_v2 (by decide)).symm)
  have h1 : (dat2 (in3 m ρ) c).arrAt 1 cfg2.N = in4 m ρ c main_v2 :=
    ((dat2 (in3 m ρ) c).arrAt_in 1 rfl _).trans (((A_eq2 (in3 m ρ) c 1)).trans (at4_of_ne m ρ c main_v2 (by decide)).symm)
  have h2 : (dat2 (in3 m ρ) c).arrAt 2 cfg2.N = in4 m ρ c main_v3 := (at4_res m ρ c).symm
  rw [← Pipeline.unscopedBufs_held (Ix := Unit) (Name := ℕ) (U := UR sig nD τ) (Lvl := ℕ) c (at4 m ρ c),
    split2 c (in4 m ρ c), arrBufs2_eq,
    choice_eq (in3 m ρ) c ((dat2 (in3 m ρ) c).arrAt · cfg2.N), arrays2_eq, hrest]
  dsimp only
  rw [h0, h1, h2]
  iintro ⟨⟨H2l, H2r, H3⟩, Hrest⟩
  isplitr [Hrest]
  · isplitl [H2l H2r]
    · iapply (pointsTo_share (PosShare.mem_left_op_right fullShare)).2
      isplitl [H2l]; · iexact H2l
      iexact H2r
    iexact H3
  iexact Hrest

set_option backward.isDefEq.respectTransparency.types false in
/-- The similarity region over the thread state: entered from every unscoped buffer at the boundary before it, left at the
    boundary after it; the generator register and the scoped rest go into its invariant and come out. -/
def reg2 : Pipeline.RegionSeg (pcfgs (F := F)) tables (pdats m ρ) () defs₀ Variants.none noLevels zeroLevel 2 where
  win := winFacts₀2
  block_pos := block_pos2
  stage_whole := stage_whole2
  K := PEmpty
  osem k := k.elim
  ho := Pipeline.OwnSemFacts.none _
  hbody c := (body_obligation2 (in3 m ρ) c).loose
  hwaits := Pipeline.hwaits_of_owed_zero _ _ _ _ noLevels zeroLevel 2 fun _ _ => rfl
  pre c := iprop(StableHlo.held (c : Thread nD τ) (Pipeline.ucRefs τ sig) (at3 m ρ c) ∗ riding c)
  post c := iprop(StableHlo.held (c : Thread nD τ) (Pipeline.ucRefs τ sig) (at4 m ρ c) ∗ riding c)
  X c := iprop(∃ r, prngReg c r)
  Y c := iprop(∃ r, prngReg c r)
  Z c := Pipeline.unscopedRest (Ix := Unit) (Name := ℕ) (U := UR sig nD τ) (Lvl := ℕ) spec2 c (in3 m ρ c)
  hentry c := by
    rw [Pipeline.ownSems0_none]
    iintro ⟨⟨Hub, Hp, HO⟩, -, -⟩
    ihave H := (entry2 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (in3 m ρ) c).Φ 0 from rfl]
    iintro ⟨Hp, -, Hr⟩
    iapply (inv_in (in3 m ρ) c)
    unfold Pipeline.ΦA
    isplitl [Hr]; · iexact Hr
    iexact Hp
  hout c := by
    rw [Pipeline.ownSems0_none, show (pdats m ρ 2 c).Φ (Fin.last _) = (dat2 (in3 m ρ) c).Φ (Fin.last cfg2.N) from rfl]
    iintro H
    ihave H' := (inv_out (in3 m ρ) c) $$ H
    unfold Pipeline.ΦA
    icases H' with ⟨Hr, Hp⟩
    isplitl [Hp]; · iexact Hp
    isplitr; · iempintro
    iexact Hr
  hexit c := by
    rw [show ((pdats m ρ 2 c).arrays ((pdats m ρ 2 c).arrAt · (Pipeline.pin (pcfgs (F := F)) tables 2).N) : sProp 𝕄)
      = (dat2 (in3 m ρ) c).arrays ((dat2 (in3 m ρ) c).arrAt · cfg2.N) from rfl]
    iintro ⟨Ha, HO, HY, Hrest⟩
    imodintro
    isplitl [Ha Hrest]
    · iapply (exit2 m ρ c); isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.RunIdeal.lean ====
/-
  The run of the whole program: @main as five items in order — region 0, region 1, the concatenation, region 2, the
  closing mean —, launched from any memory with zero counters.  Every weakly fair execution terminates, nothing
  faulting, and every final state has every unscoped buffer at the contents of the last boundary.
-/
import proofs.«116624_j43327630082371_2_alg».proof.Proof.RunSimIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A stretch of host operations as an item: over the unscoped references from the contents W, `riding` riding along. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels zeroLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

/-- @main's five items. -/
abbrev items : List (Pipeline.Seg (pcfgs (F := F)) tables (pdats m ρ) () defs₀ Variants.none noLevels zeroLevel) :=
  [ .region (reg0 m ρ),
    .region (reg1 m ρ),
    .host (hostItem hostOps2 hostOps2_sub hostOps2_fresh (at2 m ρ)),
    .region (reg2 m ρ),
    .host (hostItem hostOps3 hostOps3_sub hostOps3_fresh (at4 m ρ)) ]

/-- @main IS the run of the items. -/
theorem main_items (c : Dev nD) : main (F := F) c = Pipeline.Seg.run (items m ρ) := (main_chain c).trans (by chain_rfl)

/-- The last thread state without the core's debt: every unscoped buffer at the last boundary, the generator register at some state. -/
abbrev atEnd (c : Dev nD) : sProp 𝕄 := iprop(StableHlo.held (c : Thread nD τ) (Pipeline.ucRefs τ sig) (at5 m ρ c) ∗ ∃ r, prngReg c r)

set_option backward.isDefEq.respectTransparency.types false in
/-- THE RUN. -/
theorem run_all : θ_run defs (onTc (τ := τ) (main (F := F))) ⟨m, fun _ => 0, ρ⟩
    (fun r => ∀ c : Dev nD, ∀ b ∈ Pipeline.ucRefs τ sig, r.2.mem (((c : Thread nD τ)).1, b) = at5 m ρ c b) :=
  Pipeline.θ_run_regions_kit (pcfgs (F := F)) tables (pdats m ρ) () cellOf_inj emb₁ defs₀ Variants.none noLevels zeroLevel m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m ρ c) ∗ riding c)) (Tₙ := atEnd m ρ)
    (hch := ⟨fun _ => .rfl, fun _ => .rfl, fun _ => .rfl, fun _ => .rfl, fun _ => .rfl, fun c => by
      show (iprop(StableHlo.held (c : Thread nD τ) (Pipeline.ucRefs τ sig) (at5 m ρ c) ∗ riding c) : sProp 𝕄)
        ⊢ iprop(atEnd m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noLevels zeroLevel fun c => ?_
      rw [show unscopedBufs c (fun b => m ((c : Thread nD τ).loc b)) = StableHlo.held (c : Thread nD τ) (Pipeline.ucRefs τ sig) (at0 m ρ c)
        from Pipeline.unscopedBufs_held c (at0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at5 m ρ c b)
    (hfin := fun c s' => by
      iintro ⟨⟨Hh, -⟩, HSI⟩
      unfold StableHlo.held
      imodintro
      iapply (pointsTo_read_all (Pipeline.ucRefs τ sig) (fun b => (((c : Thread nD τ)).1, b)) (at5 m ρ c) s')
      isplitl [Hh] <;> iassumption)
    (hQ := fun s h => h)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched -/

theorem at5_of (c : Dev nD) (r : Ref sig .tc) (h : r ∉ hostOps3_W) : at5 m ρ c r = at4 m ρ c r :=
  StableHlo.after_of_writes_sub hostOps3 _ hostOps3_writes h
theorem at3_of (c : Dev nD) (r : Ref sig .tc) (h : r ∉ hostOps2_W) : at3 m ρ c r = at2 m ρ c r :=
  StableHlo.after_of_writes_sub hostOps2 _ hostOps2_writes h

theorem at5_main_arg0 (c : Dev nD) : at5 m ρ c main_arg0 = m ((c : Thread nD τ).loc main_arg0) :=
  calc at5 m ρ c main_arg0
    _ = at4 m ρ c main_arg0 := at5_of m ρ c main_arg0 (by decide)
    _ = at3 m ρ c main_arg0 := at4_of_ne m ρ c main_arg0 (by decide)
    _ = at2 m ρ c main_arg0 := at3_of m ρ c main_arg0 (by decide)
    _ = at1 m ρ c main_arg0 := at2_of_ne m ρ c main_arg0 (by decide)
    _ = at0 m ρ c main_arg0 := (at1_arr m ρ c 0).trans (((dat0 (in0 m ρ) c).arrAt_in 0 rfl _).trans (A_eq0 (in0 m ρ) c 0))
    _ = m ((c : Thread nD τ).loc main_arg0) := rfl

theorem at5_main_arg1 (c : Dev nD) : at5 m ρ c main_arg1 = m ((c : Thread nD τ).loc main_arg1) :=
  calc at5 m ρ c main_arg1
    _ = at4 m ρ c main_arg1 := at5_of m ρ c main_arg1 (by decide)
    _ = at3 m ρ c main_arg1 := at4_of_ne m ρ c main_arg1 (by decide)
    _ = at2 m ρ c main_arg1 := at3_of m ρ c main_arg1 (by decide)
    _ = at1 m ρ c main_arg1 := (at2_arr m ρ c 0).trans (((dat1 (in1 m ρ) c).arrAt_in 0 rfl _).trans (A_eq1 (in1 m ρ) c 0))
    _ = at0 m ρ c main_arg1 := at1_of_ne m ρ c main_arg1 (by decide)
    _ = m ((c : Thread nD τ).loc main_arg1) := rfl

/-- THE FRAME, at any instance: the program runs to the end and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (at5_main_arg0 m ρ c),
     (h c _ (mem_uc main_arg1 (by decide))).trans (at5_main_arg1 m ρ c)⟩) (run_all m ρ)

end Cert.KernelIdeal.Hand

end
-- ==== Proof.LibKeepdims.lean ====
/-
  A vector kept as a column: the two layout operations a reduction with kept dimensions prints, read at an index
  given by coordinates.

  A row reduction of an `[a, b]` matrix leaves a vector of length `a`; to set it against the matrix again it is cast
  to the column `[a, 1]` and that column is broadcast along the rows to `[a, b]`. At `(i, j)` the result is the
  vector's entry `i`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- A vector of length `a` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector cast to a column and broadcast along the rows reads, at `(i, j)`, the vector at `i`. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) :=
  (broadcastTo_a1_ab_apply _ h' i j).trans (shapeCast_a_a1_apply x h i 0)

end Cert.LibKeepdims
-- ==== Proof.NormValue.lean ====
/-
  What each row-scaling region leaves in its output array, entry by entry, on the extended reals.  A region's body
  divides every row of a 2048-row block by the larger of the row's Euclidean norm and a small constant; the two grid
  points' blocks are rows 0–2047 and 2048–4095 of the argument and are written back to the same rows of the output,
  so together they tile it, and the output array ends as the argument with every one of its 4096 rows so divided.
-/
import proofs.«116624_j43327630082371_2_alg».proof.Proof.NormRegionIdeal
import proofs.«116624_j43327630082371_2_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- Entry (p, k) of a matrix with rows of 256 entries, over the larger of row p's norm and the small constant. -/
def rowScaled {n : ℕ} (x : (⟨2, ![n, 256]⟩ : Shape).Idx → EReal) (p : Fin n) (k : Fin 256) : EReal :=
  Ideal.div (x (ix2 p k)) (max (Ideal.sqrt (∑ k' : Fin 256, x (ix2 p k') * x (ix2 p k'))) (Ideal.ofBits .f32 0x322BCC77#32))

/-- A 4096-row matrix with every row so scaled. -/
def scaledArray (x : S4096x256.Idx → EReal) : S4096x256.Idx → EReal := fun i => rowScaled x (i 0) (i 1)

/-- The scaled entry read through any naming `z` of the matrix's entries by row and column. -/
theorem rowScaled_of_entries {n : ℕ} (x : (⟨2, ![n, 256]⟩ : Shape).Idx → EReal) (z : Fin n → Fin 256 → EReal)
    (h : ∀ p k, x (ix2 p k) = z p k) (p : Fin n) (k : Fin 256) :
    rowScaled x p k = Ideal.div (z p k) (max (Ideal.sqrt (∑ k' : Fin 256, z p k' * z p k')) (Ideal.ofBits .f32 0x322BCC77#32)) := by
  unfold rowScaled; simp only [h]

/-- The zero offsets of the whole-block rectangle. -/
theorem hz : (![0, 0] : Fin 2 → Nat) = fun _ => 0 := funext fun a => by fin_cases a <;> rfl

variable (V : (c : Dev nD) → (b : Ref sig .tc) → Buf (Elt Ideal) ((c : Thread nD τ).loc b))

/-! # Region 0: the output array `main_v0` from the argument `main_arg0` -/

/-- The region's payload at entry (p, k) of a block `x`: the entry over the larger of the row's norm and the small
    constant. The narrowing to 16 bits is the identity on the extended reals; the lane sum starts from the zero word,
    which is the sum's neutral element, so no accumulator is left in front of it. -/
theorem scalePay0_apply (x : FVec Ideal S2048x256 .f32) (p : Fin 2048) (k : Fin 256) :
    k0_pay1 (F := Ideal) x (ix2 p k) = rowScaled x p k := by
  unfold k0_pay1
  show Ideal.div (x (ix2 p k)) (broadcastTo S2048x256 (maximumf (sqrt (shapeCast S2048x1
      (multiReduction .add [1] S2048 (mulf x x) 0x00000000#32 reduces_S2048x256_S2048 (.inl rfl) rfl) shapeCasts_S2048_S2048x1))
      (broadcast S2048x1 (Scalar.ofBits .f32 0x322BCC77#32))) broadcasts_S2048x1_S2048x256 (ix2 p k)) = _
  unfold rowScaled
  refine congrArg (Ideal.div (x (ix2 p k))) ?_
  refine (Cert.LibKeepdims.broadcastTo_a1_ab_apply _ broadcasts_S2048x1_S2048x256 p k).trans ?_
  show max (Ideal.sqrt (shapeCast S2048x1
      (multiReduction .add [1] S2048 (mulf x x) 0x00000000#32 reduces_S2048x256_S2048 (.inl rfl) rfl) shapeCasts_S2048_S2048x1 (ix2 p (0 : Fin 1))))
      (Ideal.ofBits .f32 0x322BCC77#32) = _
  refine congrArg (fun z => max (Ideal.sqrt z) (Ideal.ofBits .f32 0x322BCC77#32)) ?_
  refine (Cert.LibKeepdims.shapeCast_a_a1_apply _ shapeCasts_S2048_S2048x1 p 0).trans ?_
  refine (Ideal.multiReduction_add_single (mulf x x) 0x00000000#32 reduces_S2048x256_S2048 (.inl rfl) rfl (ix1 p)).trans ?_
  refine Finset.sum_congr rfl fun k' _ => ?_
  have e : reduces_S2048x256_S2048.lift (ix1 p) k' = ix2 p k' := by
    funext a; apply Fin.ext
    match a with
    | ⟨0, _⟩ => rfl
    | ⟨1, _⟩ => rfl
  show x (reduces_S2048x256_S2048.lift (ix1 p) k') * x (reduces_S2048x256_S2048.lift (ix1 p) k') = _
  exact congrArg (fun i => x i * x i) e

/-- The printed index maps over the grid: at point `t` both windows sit at block row `t` and block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is its block of the row-scaled argument. -/
theorem flushed0_eq (c : Dev nD) (t : Fin cfg0.N) :
    (dat0 (F := Ideal) V c).flushed 1 t = ((cfg0.win 1).blk t).view.read (Elt Ideal) (scaledArray (V c main_arg0)) := by
  show (cfg0.win 1).cut (grid0.coords t) ((dat0 V c).after 1 t) = _
  rw [after0_1]
  unfold scaled0
  rw [View.canon_unit_zero hz]
  simp only [View.ld_unit_zero (S := S2048x256) hz]
  obtain ⟨e0, e1, e2, e3⟩ := idx_facts0 t
  funext j
  obtain ⟨p, k, rfl⟩ : ∃ (p : Fin 2048) (k : Fin 256), j = ix2 p k := ⟨j 0, j 1, eq_ix2 j⟩
  refine (scalePay0_apply (blk0 V c 0 t) p k).trans ?_
  have h0 : ∀ k' : Fin 256, ((cfg0.win 0).blk t).view.emb (ix2 p k')
      = ix2 ((((cfg0.win 1).blk t).view.emb (ix2 p k)) 0 : Fin 4096) k' := by
    intro k'; funext a; apply Fin.ext
    match a with
    | ⟨0, _⟩ => show win0_0.index t (0 : Fin 2) * 2048 + 1 * p.val = win0_1.index t (0 : Fin 2) * 2048 + 1 * p.val; omega
    | ⟨1, _⟩ => show win0_0.index t (1 : Fin 2) * 256 + 1 * k'.val = k'.val; omega
  have h1 : (((cfg0.win 1).blk t).view.emb (ix2 p k)) 1 = (k : Fin 256) := by
    apply Fin.ext
    show win0_1.index t (1 : Fin 2) * 256 + 1 * k.val = k.val; omega
  show rowScaled (fun y => V c main_arg0 (((cfg0.win 0).blk t).view.emb y)) p k
      = rowScaled (V c main_arg0) ((((cfg0.win 1).blk t).view.emb (ix2 p k)) 0) ((((cfg0.win 1).blk t).view.emb (ix2 p k)) 1)
  unfold rowScaled
  simp only [h0]
  rw [h1]
  rfl

/-- An index of the output array is in point `t`'s block iff each coordinate is in the block's range on its axis. -/
theorem mem_blk0 (t : Fin cfg0.N) (i : S4096x256.Idx) :
    i ∈ ((cfg0.win 1).blk t).view.set ↔ ∀ a : Fin 2, win0_1.index t a * S2048x256.size a ≤ (i a).val ∧ (i a).val < win0_1.index t a * S2048x256.size a + S2048x256.size a := by
  show i ∈ ((View.whole main_v0).slice (win0_1.rect t)).set ↔ _
  rw [View.set_slice_whole, Rect.mem_set_unit]
  exact Iff.rfl

/-- The two blocks tile the output array: row `r` is in the block of point `r / 2048`. -/
theorem cover0_arr (i : S4096x256.Idx) : ∃ t : Fin cfg0.N, (cfg0.win 1).flush t = true ∧ i ∈ ((cfg0.win 1).blk t).view.set := by
  have hN : grid0.N = 2 := N_0
  have hi0 : (i 0).val < 4096 := idx2_lt0 i
  have hi1 : (i 1).val < 256 := idx2_lt1 i
  refine ⟨⟨(i 0).val / 2048, by show (i 0).val / 2048 < grid0.N; omega⟩, flush0_1 _, ?_⟩
  rw [mem_blk0]
  obtain ⟨-, -, e2, e3⟩ := idx_facts0 ⟨(i 0).val / 2048, by show (i 0).val / 2048 < grid0.N; omega⟩
  have e2' : win0_1.index ⟨(i 0).val / 2048, by show (i 0).val / 2048 < grid0.N; omega⟩ (0 : Fin 2) = (i 0).val / 2048 := e2
  intro a
  match a with
  | ⟨0, _⟩ => show win0_1.index _ (0 : Fin 2) * 2048 ≤ (i 0).val ∧ (i 0).val < win0_1.index _ (0 : Fin 2) * 2048 + 2048; omega
  | ⟨1, _⟩ => show win0_1.index _ (1 : Fin 2) * 256 ≤ (i 1).val ∧ (i 1).val < win0_1.index _ (1 : Fin 2) * 256 + 256; omega

/-- The output array after the region: the row-scaled argument, whole. -/
theorem final0 (c : Dev nD) : (dat0 (F := Ideal) V c).arrAt 1 cfg0.N = scaledArray (V c main_arg0) :=
  (dat0 (F := Ideal) V c).arrAt_eq_of_cover 1 (scaledArray (V c main_arg0)) (fun t _ => flushed0_eq V c t) cover0_arr

/-- The same, entry by entry: row p of the output is row p of the argument over the larger of that row's norm and the
    small constant. -/
theorem final0_apply (c : Dev nD) (x : S4096x256.Idx → EReal) (hx : V c main_arg0 = x) (p : Fin 4096) (k : Fin 256) :
    (dat0 (F := Ideal) V c).arrAt 1 cfg0.N (ix2 p k)
      = Ideal.div (x (ix2 p k)) (max (Ideal.sqrt (∑ k' : Fin 256, x (ix2 p k') * x (ix2 p k'))) (Ideal.ofBits .f32 0x322BCC77#32)) := by
  subst hx; rw [final0]; rfl

/-! # Region 1: the output array `main_v1` from the argument `main_arg1` -/

/-- The region's payload at entry (p, k) of a block `x`: the entry over the larger of the row's norm and the small
    constant. The narrowing to 16 bits is the identity on the extended reals; the lane sum starts from the zero word,
    which is the sum's neutral element, so no accumulator is left in front of it. -/
theorem scalePay1_apply (x : FVec Ideal S2048x256 .f32) (p : Fin 2048) (k : Fin 256) :
    k1_pay1 (F := Ideal) x (ix2 p k) = rowScaled x p k := by
  unfold k1_pay1
  show Ideal.div (x (ix2 p k)) (broadcastTo S2048x256 (maximumf (sqrt (shapeCast S2048x1
      (multiReduction .add [1] S2048 (mulf x x) 0x00000000#32 reduces_S2048x256_S2048 (.inl rfl) rfl) shapeCasts_S2048_S2048x1))
      (broadcast S2048x1 (Scalar.ofBits .f32 0x322BCC77#32))) broadcasts_S2048x1_S2048x256 (ix2 p k)) = _
  unfold rowScaled
  refine congrArg (Ideal.div (x (ix2 p k))) ?_
  refine (Cert.LibKeepdims.broadcastTo_a1_ab_apply _ broadcasts_S2048x1_S2048x256 p k).trans ?_
  show max (Ideal.sqrt (shapeCast S2048x1
      (multiReduction .add [1] S2048 (mulf x x) 0x00000000#32 reduces_S2048x256_S2048 (.inl rfl) rfl) shapeCasts_S2048_S2048x1 (ix2 p (0 : Fin 1))))
      (Ideal.ofBits .f32 0x322BCC77#32) = _
  refine congrArg (fun z => max (Ideal.sqrt z) (Ideal.ofBits .f32 0x322BCC77#32)) ?_
  refine (Cert.LibKeepdims.shapeCast_a_a1_apply _ shapeCasts_S2048_S2048x1 p 0).trans ?_
  refine (Ideal.multiReduction_add_single (mulf x x) 0x00000000#32 reduces_S2048x256_S2048 (.inl rfl) rfl (ix1 p)).trans ?_
  refine Finset.sum_congr rfl fun k' _ => ?_
  have e : reduces_S2048x256_S2048.lift (ix1 p) k' = ix2 p k' := by
    funext a; apply Fin.ext
    match a with
    | ⟨0, _⟩ => rfl
    | ⟨1, _⟩ => rfl
  show x (reduces_S2048x256_S2048.lift (ix1 p) k') * x (reduces_S2048x256_S2048.lift (ix1 p) k') = _
  exact congrArg (fun i => x i * x i) e

/-- The printed index maps over the grid: at point `t` both windows sit at block row `t` and block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point `t` writes back is its block of the row-scaled argument. -/
theorem flushed1_eq (c : Dev nD) (t : Fin cfg1.N) :
    (dat1 (F := Ideal) V c).flushed 1 t = ((cfg1.win 1).blk t).view.read (Elt Ideal) (scaledArray (V c main_arg1)) := by
  show (cfg1.win 1).cut (grid1.coords t) ((dat1 V c).after 1 t) = _
  rw [after1_1]
  unfold scaled1
  rw [View.canon_unit_zero hz]
  simp only [View.ld_unit_zero (S := S2048x256) hz]
  obtain ⟨e0, e1, e2, e3⟩ := idx_facts1 t
  funext j
  obtain ⟨p, k, rfl⟩ : ∃ (p : Fin 2048) (k : Fin 256), j = ix2 p k := ⟨j 0, j 1, eq_ix2 j⟩
  refine (scalePay1_apply (blk1 V c 0 t) p k).trans ?_
  have h0 : ∀ k' : Fin 256, ((cfg1.win 0).blk t).view.emb (ix2 p k')
      = ix2 ((((cfg1.win 1).blk t).view.emb (ix2 p k)) 0 : Fin 4096) k' := by
    intro k'; funext a; apply Fin.ext
    match a with
    | ⟨0, _⟩ => show win1_0.index t (0 : Fin 2) * 2048 + 1 * p.val = win1_1.index t (0 : Fin 2) * 2048 + 1 * p.val; omega
    | ⟨1, _⟩ => show win1_0.index t (1 : Fin 2) * 256 + 1 * k'.val = k'.val; omega
  have h1 : (((cfg1.win 1).blk t).view.emb (ix2 p k)) 1 = (k : Fin 256) := by
    apply Fin.ext
    show win1_1.index t (1 : Fin 2) * 256 + 1 * k.val = k.val; omega
  show rowScaled (fun y => V c main_arg1 (((cfg1.win 0).blk t).view.emb y)) p k
      = rowScaled (V c main_arg1) ((((cfg1.win 1).blk t).view.emb (ix2 p k)) 0) ((((cfg1.win 1).blk t).view.emb (ix2 p k)) 1)
  unfold rowScaled
  simp only [h0]
  rw [h1]
  rfl

/-- An index of the output array is in point `t`'s block iff each coordinate is in the block's range on its axis. -/
theorem mem_blk1 (t : Fin cfg1.N) (i : S4096x256.Idx) :
    i ∈ ((cfg1.win 1).blk t).view.set ↔ ∀ a : Fin 2, win1_1.index t a * S2048x256.size a ≤ (i a).val ∧ (i a).val < win1_1.index t a * S2048x256.size a + S2048x256.size a := by
  show i ∈ ((View.whole main_v1).slice (win1_1.rect t)).set ↔ _
  rw [View.set_slice_whole, Rect.mem_set_unit]
  exact Iff.rfl

/-- The two blocks tile the output array: row `r` is in the block of point `r / 2048`. -/
theorem cover1_arr (i : S4096x256.Idx) : ∃ t : Fin cfg1.N, (cfg1.win 1).flush t = true ∧ i ∈ ((cfg1.win 1).blk t).view.set := by
  have hN : grid1.N = 2 := N_1
  have hi0 : (i 0).val < 4096 := idx2_lt0 i
  have hi1 : (i 1).val < 256 := idx2_lt1 i
  refine ⟨⟨(i 0).val / 2048, by show (i 0).val / 2048 < grid1.N; omega⟩, flush1_1 _, ?_⟩
  rw [mem_blk1]
  obtain ⟨-, -, e2, e3⟩ := idx_facts1 ⟨(i 0).val / 2048, by show (i 0).val / 2048 < grid1.N; omega⟩
  have e2' : win1_1.index ⟨(i 0).val / 2048, by show (i 0).val / 2048 < grid1.N; omega⟩ (0 : Fin 2) = (i 0).val / 2048 := e2
  intro a
  match a with
  | ⟨0, _⟩ => show win1_1.index _ (0 : Fin 2) * 2048 ≤ (i 0).val ∧ (i 0).val < win1_1.index _ (0 : Fin 2) * 2048 + 2048; omega
  | ⟨1, _⟩ => show win1_1.index _ (1 : Fin 2) * 256 ≤ (i 1).val ∧ (i 1).val < win1_1.index _ (1 : Fin 2) * 256 + 256; omega

/-- The output array after the region: the row-scaled argument, whole. -/
theorem final1 (c : Dev nD) : (dat1 (F := Ideal) V c).arrAt 1 cfg1.N = scaledArray (V c main_arg1) :=
  (dat1 (F := Ideal) V c).arrAt_eq_of_cover 1 (scaledArray (V c main_arg1)) (fun t _ => flushed1_eq V c t) cover1_arr

/-- The same, entry by entry: row p of the output is row p of the argument over the larger of that row's norm and the
    small constant. -/
theorem final1_apply (c : Dev nD) (x : S4096x256.Idx → EReal) (hx : V c main_arg1 = x) (p : Fin 4096) (k : Fin 256) :
    (dat1 (F := Ideal) V c).arrAt 1 cfg1.N (ix2 p k)
      = Ideal.div (x (ix2 p k)) (max (Ideal.sqrt (∑ k' : Fin 256, x (ix2 p k') * x (ix2 p k'))) (Ideal.ofBits .f32 0x322BCC77#32)) := by
  subst hx; rw [final1]; rfl

end Cert.KernelIdeal.Hand

end
-- ==== Proof.Spec.lean ====
/-
  The contrastive loss both programs compute, as one function of the two argument matrices over the extended
  reals.  The 8192 rows are the 4096 rows of the first matrix followed by the 4096 rows of the second.  Each row is
  divided by the larger of its Euclidean norm and a small constant; the logit of two rows is twice the inner product
  of the scaled rows; a row's partner is the row 4096 places away (cyclically); and the loss of row i is its logit
  with its partner minus the logarithm of the sum of the exponentials of its logits with every OTHER row (the
  row's logit with itself is replaced by -infinity, whose exponential is 0), the logarithm taken after shifting every
  logit down by 2 and added back as 2.  The result is minus the mean of the rows' losses.
-/
import Idealize.ShloMosaic.PureOps.Ideal

noncomputable section

namespace Cert.NTXent

open Idealize.ShloMosaic

/-- The small constant under the norm (the single-precision word nearest 1e-8). -/
def tiny : EReal := Ideal.ofBits .f32 0x322BCC77#32
/-- The inverse temperature and the fixed shift: the word of 2. -/
def two : EReal := Ideal.ofBits .f32 0x40000000#32
/-- The number of rows: the word of 8192. -/
def count : EReal := Ideal.ofBits .f32 0x46000000#32

variable (z1 z2 : Fin 4096 → Fin 256 → EReal)

/-- Row i of the two matrices stacked. -/
def stacked (i : Fin 8192) (k : Fin 256) : EReal :=
  if h : i.val < 4096 then z1 ⟨i.val, h⟩ k else z2 ⟨i.val - 4096, by have := i.isLt; omega⟩ k

/-- What row i is divided by: its norm, or the small constant if that is larger. -/
def scale (i : Fin 8192) : EReal := max (Ideal.sqrt (∑ k : Fin 256, stacked z1 z2 i k * stacked z1 z2 i k)) tiny

/-- The scaled rows. -/
def unitRow (i : Fin 8192) (k : Fin 256) : EReal := Ideal.div (stacked z1 z2 i k) (scale z1 z2 i)

/-- The logit of rows i and j. -/
def logit (i j : Fin 8192) : EReal := (∑ k : Fin 256, unitRow z1 z2 i k * unitRow z1 z2 j k) * two

/-- The logit with the row's own place struck out. -/
def offDiag (i j : Fin 8192) : EReal := if i = j then ⊥ else logit z1 z2 i j

/-- The row 4096 places away. -/
def partner (i : Fin 8192) : Fin 8192 :=
  if h : i.val < 4096 then ⟨i.val + 4096, by omega⟩ else ⟨i.val - 4096, by have := i.isLt; omega⟩

/-- The sum of the shifted exponentials over a row. -/
def expSum (i : Fin 8192) : EReal := ∑ j : Fin 8192, Ideal.exp (offDiag z1 z2 i j - two)

/-- Row i's log-probability of its partner. -/
def rowLogProb (i : Fin 8192) : EReal := logit z1 z2 i (partner i) - (two + Ideal.log (expSum z1 z2 i))

/-- Minus the mean of the rows' log-probabilities. -/
def loss : EReal := -(Ideal.div (∑ i : Fin 8192, rowLogProb z1 z2 i) count)

end Cert.NTXent

end
-- ==== Proof.KernelRows.lean ====
/-
  What the similarity region finds in the array both its input windows read: the 8192 scaled rows.  The array is the
  concatenation, along the rows, of what the two row-scaling regions wrote; each of those wrote, row by row, the
  argument's row divided by the larger of its norm and the small constant.  So the array's entry at row r is the
  scaled entry of the two argument matrices stacked.
-/
import proofs.«116624_j43327630082371_2_alg».proof.Proof.RunIdeal
import proofs.«116624_j43327630082371_2_alg».proof.Proof.NormValue
import proofs.«116624_j43327630082371_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The first argument matrix by row and column, -/
def rowsA (c : Dev nD) : Fin 4096 → Fin 256 → EReal := fun p k => (m ((c : Thread nD τ).loc main_arg0) : S4096x256.Idx → EReal) (ix2 p k)
/-- and the second. -/
def rowsB (c : Dev nD) : Fin 4096 → Fin 256 → EReal := fun p k => (m ((c : Thread nD τ).loc main_arg1) : S4096x256.Idx → EReal) (ix2 p k)

/-- What region 0 wrote: the first argument's rows scaled. -/
theorem wrote0 (c : Dev nD) : (in2 m ρ c main_v0 : S4096x256.Idx → EReal) = scaledArray (m ((c : Thread nD τ).loc main_arg0) : S4096x256.Idx → EReal) :=
  calc in2 m ρ c main_v0
    _ = in1 m ρ c main_v0 := at2_of_ne m ρ c main_v0 (by decide)
    _ = (dat0 (in0 m ρ) c).arrAt 1 cfg0.N := at1_arr m ρ c 1
    _ = scaledArray (in0 m ρ c main_arg0) := final0 (in0 m ρ) c
    _ = _ := rfl

/-- What region 1 wrote: the second argument's rows scaled (region 0 does not touch the second argument). -/
theorem wrote1 (c : Dev nD) : (in2 m ρ c main_v1 : S4096x256.Idx → EReal) = scaledArray (m ((c : Thread nD τ).loc main_arg1) : S4096x256.Idx → EReal) :=
  calc in2 m ρ c main_v1
    _ = (dat1 (in1 m ρ) c).arrAt 1 cfg1.N := at2_arr m ρ c 1
    _ = scaledArray (in1 m ρ c main_arg1) := final1 (in1 m ρ) c
    _ = scaledArray (in0 m ρ c main_arg1) := by rw [show in1 m ρ c main_arg1 = in0 m ρ c main_arg1 from at1_of_ne m ρ c main_arg1 (by decide)]
    _ = _ := rfl

/-- The array the similarity region reads is the two written arrays joined along the rows. -/
theorem joined (c : Dev nD) : (in3 m ρ c main_v2 : S8192x256.Idx → EReal)
    = concatenate S8192x256 0 [⟨S4096x256, (in2 m ρ c main_v0 : S4096x256.Idx → EReal)⟩, ⟨S4096x256, (in2 m ρ c main_v1 : S4096x256.Idx → EReal)⟩] concatenates_S4096x256_S4096x256_S8192x256_d0 := by
  show StableHlo.after hostOps2 (at2 m ρ c) (Proc.devRef .tc main_v2) = _
  after_results

/-- Its entry at row r, column k: the stacked arguments' scaled entry. -/
theorem scaledRows_apply (c : Dev nD) (r : Fin 8192) (k : Fin 256) :
    (in3 m ρ c main_v2 : S8192x256.Idx → EReal) (ix2 r k) = Cert.NTXent.unitRow (rowsA m c) (rowsB m c) r k := by
  rw [joined, wrote0, wrote1]
  unfold Cert.NTXent.unitRow Cert.NTXent.scale Cert.NTXent.stacked Cert.NTXent.tiny
  by_cases h : r.val < 4096
  · simp only [dif_pos h]
    rw [concatenate_pair_apply_left (t := S8192x256) (s₁ := S4096x256) (s₂ := S4096x256) (0 : Fin 2) _ _ concatenates_S4096x256_S4096x256_S8192x256_d0 (ix2 r k) rfl (ix2 (⟨r.val, h⟩ : Fin 4096) k)
      (fun b => by match b with | ⟨0, _⟩ => rfl | ⟨1, _⟩ => rfl)]
    exact rowScaled_of_entries _ (rowsA m c) (fun p k => rfl) ⟨r.val, h⟩ k
  · simp only [dif_neg h]
    have hr := r.isLt
    rw [concatenate_pair_apply_right (t := S8192x256) (s₁ := S4096x256) (s₂ := S4096x256) (0 : Fin 2) _ _ concatenates_S4096x256_S4096x256_S8192x256_d0 (ix2 r k) rfl rfl (ix2 (⟨r.val - 4096, by omega⟩ : Fin 4096) k)
      (fun b hb => by match b, hb with | ⟨1, _⟩, _ => rfl | ⟨0, _⟩, hb => exact absurd rfl hb)
      (by show (r.val - 4096) + 4096 = r.val; omega)]
    exact rowScaled_of_entries _ (rowsB m c) (fun p k => rfl) ⟨r.val - 4096, by omega⟩ k

end Cert.KernelIdeal.Hand

end
-- ==== Proof.KernelTail.lean ====
/-
  The program's last five host operations read at the result's one index: the sum of the 8192 results (from the zero
  initial value), divided by the number of rows, negated.
-/
import proofs.«116624_j43327630082371_2_alg».proof.Proof.RunIdeal
import Idealize.ShloMosaic.Lib.ValueIdx
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The host's sum of a whole [8192,1] array into a scalar: the initial value plus the sum over the rows. -/
theorem total_sum (y : FVec Ideal S8192x1 .f32) (v : FVec Ideal S_ .f32) (i : S_.Idx) :
    Host.reduceAdd (F := Ideal) y v reducesTo_S8192x1_S_d0_1 h_S_ i = v (Shape.Idx.first h_S_) + ∑ r : Fin 8192, y (ix2 r (0 : Fin 1)) := by
  simp only [Host.reduceAdd, Ideal.hostReduceAdd_def]
  rw [Ideal.hostReduceAdd_total reducesTo_S8192x1_S_d0_1 (fun b => b.elim0) y _ i, sum_idx2]
  congr 1
  exact Finset.sum_congr rfl fun r _ => Fin.sum_univ_one _

/-- The program's result as the closing operations of what region 2 left in the result array. -/
theorem closing (c : Dev nD) : (at5 m ρ c main_v6 : FVec Ideal S_ .f32)
    = Host.negf (F := Ideal) (Host.divf (F := Ideal) (Host.reduceAdd (F := Ideal) (in4 m ρ c main_v3 : FVec Ideal S8192x1 .f32) (constant (F := Ideal) S_ .f32 0x00000000#32) reducesTo_S8192x1_S_d0_1 h_S_) (constant (F := Ideal) S_ .f32 0x46000000#32)) := by
  show StableHlo.after hostOps3 (at4 m ρ c) (Proc.devRef .tc main_v6) = _
  after_results

/-- Read at its index: minus the quotient of the rows' sum by the count. -/
theorem closing_apply (c : Dev nD) (y : FVec Ideal S8192x1 .f32) (hy : (in4 m ρ c main_v3 : FVec Ideal S8192x1 .f32) = y) (i : S_.Idx) :
    (at5 m ρ c main_v6 : FVec Ideal S_ .f32) i
      = -(Ideal.div (∑ r : Fin 8192, y (ix2 r (0 : Fin 1))) (Ideal.ofBits .f32 0x46000000#32)) := by
  rw [closing, hy]
  show FloatOps.hostNegf (FloatOps.hostDivf (Host.reduceAdd (F := Ideal) y (constant (F := Ideal) S_ .f32 0x00000000#32) reducesTo_S8192x1_S_d0_1 h_S_ i) (FloatOps.ofBits .f32 0x46000000#32)) = _
  rw [total_sum]
  show -(Ideal.div (Ideal.ofBits .f32 0x00000000#32 + ∑ r : Fin 8192, y (ix2 r (0 : Fin 1))) (Ideal.ofBits .f32 0x46000000#32)) = _
  rw [Ideal.ofBits_zero_f32, zero_add]

end Cert.KernelIdeal.Hand

end
-- ==== Proof.SimPieces.lean ====
/-
  What the similarity region's body leaves in the two accumulators and in the result tile, case by case, as values.
  Every store of the body writes a whole [512,1] buffer, so what a buffer holds after a column step is the last value
  stored into it: the sum of exponentials' accumulator gains the step's row sums, the partner logit's accumulator
  gains the step's partner entries — at a first column step both starting from the zeros just stored — and at a last
  column step the result tile takes, from the two new accumulators, the partner logit minus the logarithm of the sum.
  The 2048 rows a step works against are a slice of the resident rows, read here at an entry.
-/
import proofs.«116624_j43327630082371_2_alg».proof.Proof.SimRegionIdeal
import proofs.«116624_j43327630082371_2_alg».proof.Proof.SimCoversIdeal
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The zero offsets of a whole-buffer rectangle. -/
theorem hz2 : (![0, 0] : Fin 2 → Nat) = fun _ => 0 := funext fun a => by fin_cases a <;> rfl

/-- The 2048 resident rows a column step sets the row tile against: rows `2048 * k` onwards, `k` the column step. -/
def colRows (i : grid2.Coords) (x1 : Vec F S8192x256 .bf16) : Vec F S2048x256 .bf16 :=
  View.ld x1 (Rect.unit (s := S8192x256) (k2_off1 i) S2048x256.size (k2_off1_inb i))

/-- Entry (p, k) of those rows is entry (2048 * (column step) + p, k) of the resident rows. -/
theorem colRows_apply (i : grid2.Coords) (x1 : Vec F S8192x256 .bf16) (p : Fin 2048) (k : Fin 256) :
    colRows i x1 (ValueIdx.ix2 p k)
      = x1 (ValueIdx.ix2 (⟨2048 * (i 1).val + p.val, by have := (i 1).isLt; have h4 : (i 1).val < 4 := this; omega⟩ : Fin 8192) k) := by
  unfold colRows
  show x1 ((Rect.unit (s := S8192x256) (k2_off1 i) S2048x256.size (k2_off1_inb i)).emb (ValueIdx.ix2 p k)) = _
  refine congrArg x1 ?_
  funext a; apply Fin.ext
  have e := k2_off1_eq i
  match a with
  | ⟨0, _⟩ => show k2_off1 i (0 : Fin 2) + 1 * p.val = 2048 * (i 1).val + p.val; rw [e]; show 2048 * (i 1).val + 1 * p.val = _; omega
  | ⟨1, _⟩ => show k2_off1 i (1 : Fin 2) + 1 * k.val = k.val; rw [e]; show 0 + 1 * k.val = _; omega

/-! ## A first column step: the accumulators are zeroed, read back, and added to -/

theorem pieceE_first (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : firstStep i) (h1 : ¬lastStep i) (x0 : Vec F S512x256 .bf16) (x1 : Vec F S8192x256 .bf16)
    (v : View sig .tc .vmem S512x1 .f32) :
    readBack v (runFirst c i arg2 harg2 arg3 harg3 arg4 harg4 arg5 harg5 arg6 harg6 h0 h1 x0 x1).2.1 = k2_pay2 (k2_pay9 i x0 (colRows i x1)) k2_pay4 := by
  unfold readBack
  rw [View.read_writes_eq_canon _ _ _ (coverE_first c i arg2 harg2 arg3 harg3 arg4 harg4 arg5 harg5 arg6 harg6 h0 h1 x0 x1)]
  unfold runFirst
  dsimp only
  sl_unfold_run_names
  rw [View.canon_cons_unit_zero (S := S512x1) hz2]
  simp only [View.readCov_unit_zero (S := S512x1) _ hz2]
  simp only [View.readAt_eq_ld, harg2.read_unread, harg3.read_unread, View.ld_unit_zero (S := S512x256) hz2]
  rfl

theorem pieceT_first (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : firstStep i) (h1 : ¬lastStep i) (x0 : Vec F S512x256 .bf16) (x1 : Vec F S8192x256 .bf16)
    (v : View sig .tc .vmem S512x1 .f32) :
    readBack v (runFirst c i arg2 harg2 arg3 harg3 arg4 harg4 arg5 harg5 arg6 harg6 h0 h1 x0 x1).2.2.1 = k2_pay1 (k2_pay10 i x0 (colRows i x1)) k2_pay5 := by
  unfold readBack
  rw [View.read_writes_eq_canon _ _ _ (coverT_first c i arg2 harg2 arg3 harg3 arg4 harg4 arg5 harg5 arg6 harg6 h0 h1 x0 x1)]
  unfold runFirst
  dsimp only
  sl_unfold_run_names
  rw [View.canon_cons_unit_zero (S := S512x1) hz2]
  simp only [View.readCov_unit_zero (S := S512x1) _ hz2]
  simp only [View.readAt_eq_ld, harg2.read_unread, harg3.read_unread, View.ld_unit_zero (S := S512x256) hz2]
  rfl

/-! ## A middle column step: the accumulators are added to -/

theorem pieceE_middle (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : ¬firstStep i) (h1 : ¬lastStep i) (x0 : Vec F S512x256 .bf16) (x1 : Vec F S8192x256 .bf16) (xe xt : Vec F S512x1 .f32)
    (v : View sig .tc .vmem S512x1 .f32) :
    readBack v (runMiddle c i arg2 harg2 arg3 harg3 arg4 harg4 arg5 harg5 arg6 harg6 h0 h1 x0 x1 xe xt).2.1 = k2_pay2 (k2_pay9 i x0 (colRows i x1)) xe := by
  unfold readBack
  rw [View.read_writes_eq_canon _ _ _ (coverE_middle c i arg2 harg2 arg3 harg3 arg4 harg4 arg5 harg5 arg6 harg6 h0 h1 x0 x1 xe xt)]
  unfold runMiddle
  dsimp only
  sl_unfold_run_names
  rw [View.canon_unit_zero (S := S512x1) hz2]
  simp only [View.readAt_eq_ld, harg2.read_unread, harg3.read_unread, harg5.read_unread, harg6.read_unread, View.ld_unit_zero (S := S512x256) hz2, View.ld_unit_zero (S := S512x1) hz2]
  rfl

theorem pieceT_middle (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : ¬firstStep i) (h1 : ¬lastStep i) (x0 : Vec F S512x256 .bf16) (x1 : Vec F S8192x256 .bf16) (xe xt : Vec F S512x1 .f32)
    (v : View sig .tc .vmem S512x1 .f32) :
    readBack v (runMiddle c i arg2 harg2 arg3 harg3 arg4 harg4 arg5 harg5 arg6 harg6 h0 h1 x0 x1 xe xt).2.2.1 = k2_pay1 (k2_pay10 i x0 (colRows i x1)) xt := by
  unfold readBack
  rw [View.read_writes_eq_canon _ _ _ (coverT_middle c i arg2 harg2 arg3 harg3 arg4 harg4 arg5 harg5 arg6 harg6 h0 h1 x0 x1 xe xt)]
  unfold runMiddle
  dsimp only
  sl_unfold_run_names
  rw [View.canon_unit_zero (S := S512x1) hz2]
  simp only [View.readAt_eq_ld, harg2.read_unread, harg3.read_unread, harg5.read_unread, harg6.read_unread, View.ld_unit_zero (S := S512x256) hz2, View.ld_unit_zero (S := S512x1) hz2]
  rfl

/-! ## A last column step: the accumulators are added to, then the results are stored from them -/

theorem pieceE_last (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : ¬firstStep i) (h1 : lastStep i) (x0 : Vec F S512x256 .bf16) (x1 : Vec F S8192x256 .bf16) (xe xt : Vec F S512x1 .f32)
    (v : View sig .tc .vmem S512x1 .f32) :
    readBack v (runLast c i arg2 harg2 arg3 harg3 arg4 harg4 arg5 harg5 arg6 harg6 h0 h1 x0 x1 xe xt).2.1 = k2_pay2 (k2_pay9 i x0 (colRows i x1)) xe := by
  unfold readBack
  rw [View.read_writes_eq_canon _ _ _ (coverE_last c i arg2 harg2 arg3 harg3 arg4 harg4 arg5 harg5 arg6 harg6 h0 h1 x0 x1 xe xt)]
  unfold runLast
  dsimp only
  sl_unfold_run_names
  rw [View.canon_unit_zero (S := S512x1) hz2]
  simp only [View.readAt_eq_ld, harg2.read_unread, harg3.read_unread, harg5.read_unread, harg6.read_unread, View.ld_unit_zero (S := S512x256) hz2, View.ld_unit_zero (S := S512x1) hz2]
  rfl

theorem pieceT_last (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : ¬firstStep i) (h1 : lastStep i) (x0 : Vec F S512x256 .bf16) (x1 : Vec F S8192x256 .bf16) (xe xt : Vec F S512x1 .f32)
    (v : View sig .tc .vmem S512x1 .f32) :
    readBack v (runLast c i arg2 harg2 arg3 harg3 arg4 harg4 arg5 harg5 arg6 harg6 h0 h1 x0 x1 xe xt).2.2.1 = k2_pay1 (k2_pay10 i x0 (colRows i x1)) xt := by
  unfold readBack
  rw [View.read_writes_eq_canon _ _ _ (coverT_last c i arg2 harg2 arg3 harg3 arg4 harg4 arg5 harg5 arg6 harg6 h0 h1 x0 x1 xe xt)]
  unfold runLast
  dsimp only
  sl_unfold_run_names
  rw [View.canon_unit_zero (S := S512x1) hz2]
  simp only [View.readAt_eq_ld, harg2.read_unread, harg3.read_unread, harg5.read_unread, harg6.read_unread, View.ld_unit_zero (S := S512x256) hz2, View.ld_unit_zero (S := S512x1) hz2]
  rfl

theorem pieceR_last (c : Dev nD) (i : grid2.Coords) (arg2 : Memref sig .tc .vmem S512x256 .bf16) (harg2 : arg2.IsWhole) (arg3 : Memref sig .tc .vmem S8192x256 .bf16) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (h0 : ¬firstStep i) (h1 : lastStep i) (x0 : Vec F S512x256 .bf16) (x1 : Vec F S8192x256 .bf16) (xe xt : Vec F S512x1 .f32)
    (v : View sig .tc .vmem S512x1 .f32) :
    readBack v (runLast c i arg2 harg2 arg3 harg3 arg4 harg4 arg5 harg5 arg6 harg6 h0 h1 x0 x1 xe xt).1
      = k2_pay3 (k2_pay2 (k2_pay9 i x0 (colRows i x1)) xe) (k2_pay1 (k2_pay10 i x0 (colRows i x1)) xt) := by
  unfold readBack
  rw [View.read_writes_eq_canon _ _ _ (coverR_last c i arg2 harg2 arg3 harg3 arg4 harg4 arg5 harg5 arg6 harg6 h0 h1 x0 x1 xe xt)]
  unfold runLast
  dsimp only
  sl_unfold_run_names
  rw [View.canon_unit_zero (S := S512x1) hz2]
  simp only [View.readCov_unit_zero (S := S512x1) _ hz2]
  simp only [View.readAt_eq_ld, harg2.read_unread, harg3.read_unread, harg5.read_unread, harg6.read_unread, View.ld_unit_zero (S := S512x256) hz2, View.ld_unit_zero (S := S512x1) hz2]
  rfl

end Cert.KernelIdeal.Hand

end
-- ==== Proof.LibPlainDot.lean ====
/-
  A plain matrix product read at an entry, over the extended reals.

  The product of an [M, K] array with a [K, N] array into [M, N] — the left operand's second axis contracted with the
  right operand's first, no batch axes — has at (p, q) the value  Σ_k x(p, k) · w(k, q).  This holds for the device's
  product into the zero accumulator and for the host's product alike: at the ideal instance both are the exact finite
  sum over the contracted coordinate, and the contraction index of a one-axis contraction is that coordinate.
-/
import Idealize.ShloMosaic.Lib.ValueIdx
import Idealize.ShloMosaic.PureOps.Ideal.Laws

namespace Cert.LibPlainDot

open Idealize.ShloMosaic Idealize.ShloMosaic.ValueIdx

variable {M K N : ℕ}

/-- The left operand's row coordinate is the result's row coordinate. -/
theorem lhs_row (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction coordinate. -/
theorem rhs_row (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column coordinate. -/
theorem rhs_col (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- At the k-th contraction coordinate the left operand is read at (p, k). -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => exact lhs_row _ _
  | ⟨1, _⟩ => exact (lhs_col _ _).trans hk

/-- At the k-th contraction coordinate the right operand is read at (k, q). -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact (rhs_row _ _).trans hk
  | ⟨1, _⟩ => exact rhs_col _ _

/-- The device's plain product into the zero accumulator, at (p, q), is Σ_k x(p, k) · w(k, q). -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    matmul (DotDims.plain M K N) prec x w (constant (F := Ideal) ⟨2, ![M, N]⟩ .f32 0x00000000#32) (ix2 p q)
      = ∑ k : Fin K, x (ix2 p k) * w (ix2 k q) := by
  refine (Ideal.matmul_constant_zero_apply (DotDims.plain M K N) prec x w (ix2 p q)).trans ?_
  refine (Equiv.sum_comp (contrEquiv1 (DotDims.plain M K N) K rfl rfl).symm _).symm.trans ?_
  exact Finset.sum_congr rfl fun k _ => by rw [lhsIdx_eq p q k, rhsIdx_eq p q k]

/-- The host's plain product, at (p, q), is Σ_k x(p, k) · w(k, q). -/
theorem hostDot_apply {φ₁ φ₂ : FTy} (prec : Option ContractPrecision)
    (x : FVec Ideal ⟨2, ![M, K]⟩ φ₁) (w : FVec Ideal ⟨2, ![K, N]⟩ φ₂) (p : Fin M) (q : Fin N) :
    Host.dotGeneral (DotDims.plain M K N) prec x w (ix2 p q) = ∑ k : Fin K, x (ix2 p k) * w (ix2 k q) := by
  refine (Ideal.dotGeneral_apply (DotDims.plain M K N) prec .single x w (ix2 p q)).trans ?_
  refine (Equiv.sum_comp (contrEquiv1 (DotDims.plain M K N) K rfl rfl).symm _).symm.trans ?_
  exact Finset.sum_congr rfl fun k _ => by rw [lhsIdx_eq p q k, rhsIdx_eq p q k]

end Cert.LibPlainDot
-- ==== Proof.LibDotTransposed.lean ====
/-
  A matrix product against a weight stored row by output column, read at an entry, over the extended reals.

  A weight w stored as [N, K] and transposed to [K, N] before a plain product with x of shape [M, K] gives, at
  (p, q), the value  Σ_k x(p, k) · w(q, k):  the transposed array at (k, q) is w at (q, k), and the plain product
  at (p, q) is the sum over the contracted coordinate. This holds for the device's product into the zero
  accumulator and for the host's product alike.
-/
import Idealize.ShloMosaic.Lib.ValueIdx
import Idealize.ShloMosaic.Lib.ValueLayout
import Idealize.ShloMosaic.PureOps.Ideal.Laws
import proofs.«116624_j43327630082371_2_alg».proof.Proof.LibPlainDot

namespace Cert.LibDotTransposed

open Idealize.ShloMosaic Idealize.ShloMosaic.ValueIdx

variable {M K N : ℕ}

/-- The device's product of x with the transpose of w, into the zero accumulator, at (p, q), is Σ_k x(p, k) · w(q, k). -/
theorem matmul_zero_apply {φ₁ φ₂ : FTy} (prec : Option ContractPrecision)
    (x : FVec Ideal ⟨2, ![M, K]⟩ φ₁) (w : FVec Ideal ⟨2, ![N, K]⟩ φ₂)
    (h : (⟨2, ![N, K]⟩ : Shape).Transposes [1, 0] ⟨2, ![K, N]⟩) (p : Fin M) (q : Fin N) :
    matmul (DotDims.plain M K N) prec x (transpose ⟨2, ![K, N]⟩ [1, 0] w h)
        (constant (F := Ideal) ⟨2, ![M, N]⟩ .f32 0x00000000#32) (ix2 p q)
      = ∑ k : Fin K, x (ix2 p k) * w (ix2 q k) :=
  (Cert.LibPlainDot.matmul_zero_apply prec x (transpose ⟨2, ![K, N]⟩ [1, 0] w h) p q).trans
    (Finset.sum_congr rfl fun k _ => by rw [transpose_ix2_apply])

/-- The host's product of x with the transpose of w, at (p, q), is Σ_k x(p, k) · w(q, k). -/
theorem hostDot_apply {φ₁ φ₂ : FTy} (prec : Option ContractPrecision)
    (x : FVec Ideal ⟨2, ![M, K]⟩ φ₁) (w : FVec Ideal ⟨2, ![N, K]⟩ φ₂)
    (h : (⟨2, ![N, K]⟩ : Shape).Transposes [1, 0] ⟨2, ![K, N]⟩) (p : Fin M) (q : Fin N) :
    Host.dotGeneral (DotDims.plain M K N) prec x (transpose ⟨2, ![K, N]⟩ [1, 0] w h) (ix2 p q)
      = ∑ k : Fin K, x (ix2 p k) * w (ix2 q k) :=
  (Cert.LibPlainDot.hostDot_apply prec x (transpose ⟨2, ![K, N]⟩ [1, 0] w h) p q).trans
    (Finset.sum_congr rfl fun k _ => by rw [transpose_ix2_apply])

end Cert.LibDotTransposed
-- ==== Proof.SimPayloads.lean ====
/-
  The similarity region's arithmetic, entry by entry, on the extended reals.  A column step sets the 512 rows of the
  row tile against 2048 of the resident rows: the logit of tile row p with step row q is twice their inner product;
  the row's own place — where the global row number 512·(row tile) + p equals the global column number
  2048·(column step) + q — is replaced by minus infinity before the exponentials are summed, and the partner's
  column — the global row number moved by 4096, up below 4096 and down from 4096 on — is the one place kept for the
  partner logit.  The global numbers are computed in 32-bit words; all of them stay below 8192, so the words compare
  as the numbers do.
-/
import proofs.«116624_j43327630082371_2_alg».proof.Proof.Gen.KernelIdeal.Skeleton
import proofs.«116624_j43327630082371_2_alg».proof.Proof.LibKeepdims
import proofs.«116624_j43327630082371_2_alg».proof.Proof.LibDotTransposed
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.Hand

open Cert.KernelIdeal Cert.KernelIdeal.Gen
open Idealize.ShloMosaic Idealize.ShloMosaic.ValueIdx

/-! ## Words: the global row and column numbers and the partner's number -/

/-- A small number times a constant plus a small number, in 32-bit words. -/
theorem word_affine (m a b : ℕ) : BitVec.ofNat 32 a + BitVec.ofNat 32 b * BitVec.ofNat 32 m = BitVec.ofNat 32 (m * b + a) := by
  rw [BitVec.ofNat_mul_ofNat, BitVec.ofNat_add_ofNat]
  congr 1
  rw [Nat.mul_comm, Nat.add_comm]

/-- Two numbers below 2^32 are equal iff their words are. -/
theorem cmpi_eq_ofNat (a b : ℕ) (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; simp
  · have hne : BitVec.ofNat 32 a ≠ BitVec.ofNat 32 b := fun e => h (by
      have := congrArg BitVec.toNat e
      simp only [BitVec.toNat_ofNat] at this
      omega)
    have hb' : (BitVec.ofNat 32 a == BitVec.ofNat 32 b) = false := beq_eq_false_iff_ne.mpr hne
    rw [if_neg h]
    show BitVec.ofBool (BitVec.ofNat 32 a == BitVec.ofNat 32 b) = 0#1
    rw [hb']; rfl

/-- A number below 2^31 is below 4096 iff its word is, as a signed word. -/
theorem cmpi_slt_4096 (r : ℕ) (hr : r < 2 ^ 31) :
    IntOp.cmpi .slt (BitVec.ofNat 32 r) 4096#32 = if r < 4096 then 1#1 else 0#1 := by
  unfold IntOp.cmpi
  have h1 : (BitVec.ofNat 32 r).toInt = (r : Int) := by
    rw [BitVec.toInt_eq_toNat_of_lt (by simp only [BitVec.toNat_ofNat]; omega)]
    simp only [BitVec.toNat_ofNat]; omega
  have h2 : (4096#32 : BitVec 32).toInt = 4096 := by decide
  show BitVec.ofBool ((BitVec.ofNat 32 r).slt 4096#32) = _
  rw [BitVec.slt_eq_decide, h1, h2]
  by_cases h : r < 4096
  · have : (r : Int) < 4096 := by omega
    simp [h, this]
  · have : ¬ (r : Int) < 4096 := by omega
    simp [h, this]

/-- The partner's number in words: 4096 more below 4096, 4096 less from 4096 on. -/
theorem partner_word (r : ℕ) (hr : r < 8192) :
    IntOp.addi (BitVec.ofNat 32 r) (Scalar.select (IntOp.cmpi .slt (BitVec.ofNat 32 r) 4096#32) 4096#32 4294963200#32)
      = BitVec.ofNat 32 (if r < 4096 then r + 4096 else r - 4096) := by
  rw [cmpi_slt_4096 r (by omega)]
  by_cases h : r < 4096
  · rw [if_pos h, if_pos h, select_one]
    show BitVec.ofNat 32 r + BitVec.ofNat 32 4096 = _
    rw [BitVec.ofNat_add_ofNat]
  · rw [if_neg h, if_neg h, select_zero]
    show BitVec.ofNat 32 r + BitVec.ofNat 32 4294963200 = _
    rw [BitVec.ofNat_add_ofNat]
    apply BitVec.eq_of_toNat_eq
    simp only [BitVec.toNat_ofNat]
    omega

/-! ## The payloads at an entry -/

/-- The accumulators' zeros. -/
theorem pay4_apply (p : Fin 512) (u : Fin 1) : k2_pay4 (F := Ideal) (ix2 p u) = 0 := by
  unfold k2_pay4
  refine (congrFun (shapeCast_self _ shapeCasts_S512x1_S512x1) (ix2 p u)).trans ?_
  exact Ideal.ofBits_zero_f32
theorem pay5_apply (p : Fin 512) (u : Fin 1) : k2_pay5 (F := Ideal) (ix2 p u) = 0 := by
  unfold k2_pay5
  refine (congrFun (shapeCast_self _ shapeCasts_S512x1_S512x1) (ix2 p u)).trans ?_
  exact Ideal.ofBits_zero_f32

/-- The partner logit's accumulator gains the step's partner entry. -/
theorem pay1_apply (v38 : FVec Ideal S512x1 .f32) (v39 : FVec Ideal S512x1 .f32) (p : Fin 512) (u : Fin 1) :
    k2_pay1 (F := Ideal) v38 v39 (ix2 p u) = v39 (ix2 p u) + v38 (ix2 p u) := by
  unfold k2_pay1
  exact (congrFun (shapeCast_self _ shapeCasts_S512x1_S512x1) (ix2 p u)).trans rfl

/-- The result: the partner logit minus the shift plus the logarithm of the accumulated sum. -/
theorem pay3_apply (v57 : FVec Ideal S512x1 .f32) (v61 : FVec Ideal S512x1 .f32) (p : Fin 512) (u : Fin 1) :
    k2_pay3 (F := Ideal) v57 v61 (ix2 p u) = v61 (ix2 p u) - (Ideal.ofBits .f32 0x40000000#32 + Ideal.log (v57 (ix2 p u))) := by
  unfold k2_pay3
  rfl

/-- A reduced index with a lane put back is the pair. -/
theorem lift_S512x2048 (p : Fin 512) (q : Fin (S512x2048.size 1)) : reduces_S512x2048_S512.lift (ix1 p) q = ix2 p (q : Fin 2048) := by
  funext a; apply Fin.ext
  match a with
  | ⟨0, _⟩ => rfl
  | ⟨1, _⟩ => rfl

/-- The sum's accumulator gains the row's sum of the exponentials of the shifted logits. -/
theorem pay2_apply (v25 : FVec Ideal S512x2048 .f32) (v44 : FVec Ideal S512x1 .f32) (p : Fin 512) (u : Fin 1) :
    k2_pay2 (F := Ideal) v25 v44 (ix2 p u)
      = v44 (ix2 p u) + ∑ q : Fin 2048, Ideal.exp (v25 (ix2 p q) - Ideal.ofBits .f32 0x40000000#32) := by
  unfold k2_pay2
  refine (congrFun (shapeCast_self _ shapeCasts_S512x1_S512x1) (ix2 p u)).trans ?_
  show v44 (ix2 p u) + shapeCast S512x1 (multiReduction .add [1] S512
      (exp (subf v25 (broadcast S512x2048 (Scalar.ofBits (F := Ideal) .f32 0x40000000#32)))) 0x00000000#32 reduces_S512x2048_S512 (.inl rfl) rfl)
      shapeCasts_S512_S512x1 (ix2 p u) = _
  refine congrArg (v44 (ix2 p u) + ·) ?_
  refine (Cert.LibKeepdims.shapeCast_a_a1_apply _ shapeCasts_S512_S512x1 p u).trans ?_
  refine (Ideal.multiReduction_add_single (exp (subf v25 (broadcast S512x2048 (Scalar.ofBits (F := Ideal) .f32 0x40000000#32)))) 0x00000000#32 reduces_S512x2048_S512 (.inl rfl) rfl (ix1 p)).trans ?_
  refine Finset.sum_congr rfl fun q _ => ?_
  show Ideal.exp (v25 (reduces_S512x2048_S512.lift (ix1 p) q) - Ideal.ofBits .f32 0x40000000#32) = _
  exact congrArg (fun j => Ideal.exp (v25 j - Ideal.ofBits .f32 0x40000000#32)) (lift_S512x2048 p q)

/-- The logit of row p of the tile with row q of the step's rows: twice their inner product. -/
theorem pay6_apply (x0 : FVec Ideal S512x256 .bf16) (s : FVec Ideal S2048x256 .bf16) (p : Fin 512) (q : Fin 2048) :
    k2_pay6 (F := Ideal) x0 s (ix2 p q) = (∑ k : Fin 256, x0 (ix2 p k) * s (ix2 q k)) * Ideal.ofBits .f32 0x40000000#32 := by
  unfold k2_pay6
  show (matmul dot_S512x256_S256x2048_S512x2048_1_0_0_1_n_n none (shapeCast S512x256 x0 shapeCasts_S512x256_S512x256)
      (transpose S256x2048 [1, 0] (shapeCast S2048x256 s shapeCasts_S2048x256_S2048x256) transposes_S2048x256_p1_0_S256x2048)
      (constant (F := Ideal) S512x2048 .f32 0x00000000#32)) (ix2 p q) * Ideal.ofBits .f32 0x40000000#32 = _
  refine congrArg (· * Ideal.ofBits .f32 0x40000000#32) ?_
  have e1 : shapeCast S512x256 x0 shapeCasts_S512x256_S512x256 = x0 := shapeCast_self _ _
  have e2 : shapeCast S2048x256 s shapeCasts_S2048x256_S2048x256 = s := shapeCast_self _ _
  rw [e1, e2]
  exact Cert.LibDotTransposed.matmul_zero_apply (M := 512) (K := 256) (N := 2048) none x0 s transposes_S2048x256_p1_0_S256x2048 p q

/-- The global row number of the tile's row p, as a word. -/
theorem pay7_apply (i : grid2.Coords) (p : Fin 512) (u : Fin 1) :
    k2_pay7 i (ix2 p u) = BitVec.ofNat 32 (512 * (i 0).val + p.val) := by
  unfold k2_pay7
  show IntOp.addi (iota .tc S512x1 32 [0] iota_S512x1_d0_w32 (ix2 p u)) (Scalar.muli (BitVec.ofNat 32 (i 0).val) 512#32) = _
  rw [iota_single_apply]
  exact word_affine 512 p.val (i 0).val

/-- The global column number of the step's column q, as a word. -/
theorem pay8_apply (i : grid2.Coords) (u : Fin 1) (q : Fin 2048) :
    k2_pay8 i (ix2 u q) = BitVec.ofNat 32 (2048 * (i 1).val + q.val) := by
  unfold k2_pay8
  show IntOp.addi (iota .tc S1x2048 32 [1] iota_S1x2048_d1_w32 (ix2 u q)) (Scalar.muli (BitVec.ofNat 32 (i 1).val) 2048#32) = _
  rw [iota_single_apply]
  exact word_affine 2048 q.val (i 1).val

/-- The named fill constant is minus infinity on the extended reals. -/
theorem negBig : Named.named (F := Ideal) κ "neg_big" (φ := .f32) 0xF149F2CA#32 = (⊥ : EReal) :=
  IdealRules.named_const.ideal_named_scalar _ _ _ _ rfl

/-- The logits with the row's own place struck out: minus infinity where the global row and column numbers agree. -/
theorem pay9_apply (i : grid2.Coords) (x0 : FVec Ideal S512x256 .bf16) (s : FVec Ideal S2048x256 .bf16) (p : Fin 512) (q : Fin 2048) :
    k2_pay9 (F := Ideal) i x0 s (ix2 p q)
      = if 512 * (i 0).val + p.val = 2048 * (i 1).val + q.val then ⊥ else k2_pay6 (F := Ideal) x0 s (ix2 p q) := by
  have hi0 : (i 0).val < 16 := (i 0).isLt
  have hi1 : (i 1).val < 4 := (i 1).isLt
  unfold k2_pay9
  show Scalar.select (IntOp.cmpi .eq (broadcastTo S512x2048 (k2_pay7 i) broadcasts_S512x1_S512x2048 (ix2 p q))
      (broadcastTo S512x2048 (k2_pay8 i) broadcasts_S1x2048_S512x2048 (ix2 p q)))
      (Named.named (F := Ideal) κ "neg_big" (φ := .f32) 0xF149F2CA#32) (k2_pay6 (F := Ideal) x0 s (ix2 p q)) = _
  rw [Cert.LibKeepdims.broadcastTo_a1_ab_apply (k2_pay7 i) broadcasts_S512x1_S512x2048 p q,
    broadcastTo_1b_ab_apply (k2_pay8 i) broadcasts_S1x2048_S512x2048 p q, pay7_apply, pay8_apply,
    cmpi_eq_ofNat _ _ (by omega) (by omega), negBig]
  by_cases h : 512 * (i 0).val + p.val = 2048 * (i 1).val + q.val
  · rw [if_pos h, if_pos h, select_one]
  · rw [if_neg h, if_neg h, select_zero]

/-- The global number of the partner of global row r. -/
def partnerOf (r : ℕ) : ℕ := if r < 4096 then r + 4096 else r - 4096

/-- The tile's logits with all but the partner's column struck to zero, at an entry. -/
theorem pay10_entry (i : grid2.Coords) (x0 : FVec Ideal S512x256 .bf16) (s : FVec Ideal S2048x256 .bf16) (p : Fin 512) (q : Fin 2048) :
    select (cmpi .eq
        (broadcastTo S512x2048 (addi (k2_pay7 i) (select (cmpi .slt (k2_pay7 i) (broadcast S512x1 4096#32)) (broadcast S512x1 4096#32) (broadcast S512x1 4294963200#32))) broadcasts_S512x1_S512x2048)
        (broadcastTo S512x2048 (k2_pay8 i) broadcasts_S1x2048_S512x2048))
      (k2_pay6 (F := Ideal) x0 s) (broadcast S512x2048 (Scalar.ofBits (F := Ideal) .f32 0x00000000#32)) (ix2 p q)
      = if partnerOf (512 * (i 0).val + p.val) = 2048 * (i 1).val + q.val then k2_pay6 (F := Ideal) x0 s (ix2 p q) else 0 := by
  have hi0 : (i 0).val < 16 := (i 0).isLt
  have hi1 : (i 1).val < 4 := (i 1).isLt
  show Scalar.select (IntOp.cmpi .eq
      (broadcastTo S512x2048 (addi (k2_pay7 i) (select (cmpi .slt (k2_pay7 i) (broadcast S512x1 4096#32)) (broadcast S512x1 4096#32) (broadcast S512x1 4294963200#32))) broadcasts_S512x1_S512x2048 (ix2 p q))
      (broadcastTo S512x2048 (k2_pay8 i) broadcasts_S1x2048_S512x2048 (ix2 p q)))
      (k2_pay6 (F := Ideal) x0 s (ix2 p q)) (Ideal.ofBits .f32 0x00000000#32) = _
  rw [Cert.LibKeepdims.broadcastTo_a1_ab_apply _ broadcasts_S512x1_S512x2048 p q,
    broadcastTo_1b_ab_apply (k2_pay8 i) broadcasts_S1x2048_S512x2048 p q, pay8_apply]
  show Scalar.select (IntOp.cmpi .eq (IntOp.addi (k2_pay7 i (ix2 p (0 : Fin 1)))
      (Scalar.select (IntOp.cmpi .slt (k2_pay7 i (ix2 p (0 : Fin 1))) 4096#32) 4096#32 4294963200#32))
      (BitVec.ofNat 32 (2048 * (i 1).val + q.val)))
      (k2_pay6 (F := Ideal) x0 s (ix2 p q)) (Ideal.ofBits .f32 0x00000000#32) = _
  rw [pay7_apply, partner_word _ (by omega)]
  have hpl : (if 512 * (i 0).val + p.val < 4096 then 512 * (i 0).val + p.val + 4096 else 512 * (i 0).val + p.val - 4096) < 2 ^ 32 := by
    split <;> omega
  rw [cmpi_eq_ofNat _ _ hpl (by have := q.isLt; omega), Ideal.ofBits_zero_f32]
  unfold partnerOf
  by_cases h : (if 512 * (i 0).val + p.val < 4096 then 512 * (i 0).val + p.val + 4096 else 512 * (i 0).val + p.val - 4096) = 2048 * (i 1).val + q.val
  · rw [if_pos h, if_pos h, select_one]
  · rw [if_neg h, if_neg h, select_zero]

/-- The step's partner entry of row p: the logit at the column whose global number is the partner's, if the step has it. -/
theorem pay10_apply (i : grid2.Coords) (x0 : FVec Ideal S512x256 .bf16) (s : FVec Ideal S2048x256 .bf16) (p : Fin 512) (u : Fin 1) :
    k2_pay10 (F := Ideal) i x0 s (ix2 p u)
      = ∑ q : Fin 2048, (if partnerOf (512 * (i 0).val + p.val) = 2048 * (i 1).val + q.val then k2_pay6 (F := Ideal) x0 s (ix2 p q) else 0) := by
  unfold k2_pay10
  refine (Cert.LibKeepdims.shapeCast_a_a1_apply _ shapeCasts_S512_S512x1 p u).trans ?_
  refine (Ideal.multiReduction_add_single _ 0x00000000#32 reduces_S512x2048_S512 (.inl rfl) rfl (ix1 p)).trans ?_
  refine Finset.sum_congr rfl fun q _ => ?_
  rw [lift_S512x2048 p q]
  exact pay10_entry i x0 s p q

end Cert.KernelIdeal.Hand

end
-- ==== Proof.LibSumBlocks.lean ====
/-
  A finite sum over `a * b` consecutive indices, taken as `a` consecutive blocks of `b` terms each.
-/
import Mathlib.Algebra.BigOperators.Fin
import Mathlib.Logic.Equiv.Fin.Basic

namespace Cert.LibSumBlocks

open Finset

/-- Term `k` of block `s` sits below `a * b`. -/
theorem blk_lt {a b s k : ℕ} (hs : s < a) (hk : k < b) : b * s + k < a * b :=
  calc b * s + k < b * s + b := Nat.add_lt_add_left hk _
    _ = b * (s + 1) := (Nat.mul_succ b s).symm
    _ ≤ b * a := Nat.mul_le_mul_left b hs
    _ = a * b := Nat.mul_comm b a

/-- In a commutative additive monoid the sum of `F` over `Fin (a * b)` is the sum over the `a` blocks of the sum of
    each block's `b` consecutive terms: `∑_r F r = ∑_{s < a} ∑_{k < b} F (b·s + k)`. Only commutativity and
    associativity of `+` enter, so it holds of the extended reals with their infinities. -/
theorem sum_fin_blocks {M : Type*} [AddCommMonoid M] (a b : ℕ) (F : Fin (a * b) → M) :
    ∑ r : Fin (a * b), F r = ∑ s : Fin a, ∑ k : Fin b, F ⟨b * s.val + k.val, blk_lt s.isLt k.isLt⟩ := by
  rw [← Equiv.sum_comp finProdFinEquiv F, Fintype.sum_prod_type]
  refine Finset.sum_congr rfl fun s _ => Finset.sum_congr rfl fun k _ => congrArg F (Fin.ext ?_)
  show k.val + b * s.val = b * s.val + k.val
  exact Nat.add_comm _ _

end Cert.LibSumBlocks
-- ==== Proof.SimValue.lean ====
/-
  What the similarity region leaves in its result column, entry by entry, on the extended reals.  A row tile's four
  column steps each add to two accumulators their share of the row's sum of shifted exponentials (the row's own place
  struck out) and of the row's logit with its partner (every column but the partner's struck to zero); the shares are
  four consecutive blocks of 2048 columns, so after the fourth step the accumulators hold the whole-row sum and the
  partner logit, and the step stores the partner logit minus the shift plus the logarithm of the sum.  The sixteen
  result tiles are written back to consecutive 512-row blocks of the result column and tile it.  Only the neutrality
  of zero and the commutativity and associativity of addition on the extended reals are used.
-/
import proofs.«116624_j43327630082371_2_alg».proof.Proof.SimBodyIdeal
import proofs.«116624_j43327630082371_2_alg».proof.Proof.SimPieces
import proofs.«116624_j43327630082371_2_alg».proof.Proof.SimPayloads
import proofs.«116624_j43327630082371_2_alg».proof.Proof.LibSumBlocks
import proofs.«116624_j43327630082371_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## What a column step leaves, by the payloads (any float instance) -/

section AnyInstance
variable {F : FTy → Type} [FloatOps F] [Named F]

/-- The sum accumulator after a step: the step's row sums added to what it held, or to the zeros just stored at a first step. -/
theorem stepOut_exp (c : Dev nD) (t : Fin cfg2.N) (x0 : Vec F S512x256 .bf16) (x1 : Vec F S8192x256 .bf16) (pe pt : Vec F S512x1 .f32) :
    (stepOut c t x0 x1 pe pt).2.1
      = k2_pay2 (k2_pay9 (grid2.coords t) x0 (colRows (grid2.coords t) x1)) (if t.val % 4 = 0 then k2_pay4 else pe) := by
  by_cases h0 : t.val % 4 = 0
  · rw [stepOut_first c t h0, if_pos h0]; dsimp only; exact pieceE_first (F := F) _ _ _ _ _ _ _ _ _ _ _ _ _ _ _ _ expV
  · rw [if_neg h0]
    by_cases h1 : t.val % 4 = 3
    · rw [stepOut_last c t h0 h1]; dsimp only; exact pieceE_last (F := F) _ _ _ _ _ _ _ _ _ _ _ _ _ _ _ _ _ _ expV
    · rw [stepOut_middle c t h0 h1]; dsimp only; exact pieceE_middle (F := F) _ _ _ _ _ _ _ _ _ _ _ _ _ _ _ _ _ _ expV

/-- The partner-logit accumulator after a step, likewise. -/
theorem stepOut_tgt (c : Dev nD) (t : Fin cfg2.N) (x0 : Vec F S512x256 .bf16) (x1 : Vec F S8192x256 .bf16) (pe pt : Vec F S512x1 .f32) :
    (stepOut c t x0 x1 pe pt).2.2
      = k2_pay1 (k2_pay10 (grid2.coords t) x0 (colRows (grid2.coords t) x1)) (if t.val % 4 = 0 then k2_pay5 else pt) := by
  by_cases h0 : t.val % 4 = 0
  · rw [stepOut_first c t h0, if_pos h0]; dsimp only; exact pieceT_first (F := F) _ _ _ _ _ _ _ _ _ _ _ _ _ _ _ _ tgtV
  · rw [if_neg h0]
    by_cases h1 : t.val % 4 = 3
    · rw [stepOut_last c t h0 h1]; dsimp only; exact pieceT_last (F := F) _ _ _ _ _ _ _ _ _ _ _ _ _ _ _ _ _ _ tgtV
    · rw [stepOut_middle c t h0 h1]; dsimp only; exact pieceT_middle (F := F) _ _ _ _ _ _ _ _ _ _ _ _ _ _ _ _ _ _ tgtV

/-- The result tile after a last step: from the two new accumulators. -/
theorem stepOut_res (c : Dev nD) (t : Fin cfg2.N) (h1 : t.val % 4 = 3) (x0 : Vec F S512x256 .bf16) (x1 : Vec F S8192x256 .bf16) (pe pt : Vec F S512x1 .f32) :
    (stepOut c t x0 x1 pe pt).1 = k2_pay3 (stepOut c t x0 x1 pe pt).2.1 (stepOut c t x0 x1 pe pt).2.2 := by
  have h0 : ¬t.val % 4 = 0 := by omega
  rw [stepOut_exp, stepOut_tgt, if_neg h0, if_neg h0, stepOut_last c t h0 h1]
  dsimp only
  exact pieceR_last (F := F) _ _ _ _ _ _ _ _ _ _ _ _ _ _ _ _ _ _ resV

end AnyInstance

/-! ## The region's arithmetic over the stacked rows (extended reals) -/

/-- Row r of the stacked matrix, zeros past its end. -/
def rowN (x : S8192x256.Idx → EReal) (r : ℕ) (k : Fin 256) : EReal := if h : r < 8192 then x (ix2 (⟨r, h⟩ : Fin 8192) k) else 0
/-- The logit of rows r and j by their numbers: twice the inner product. -/
def logitN (x : S8192x256.Idx → EReal) (r j : ℕ) : EReal := (∑ k : Fin 256, rowN x r k * rowN x j k) * Ideal.ofBits .f32 0x40000000#32
/-- Column step k's share of row r's sum of exponentials, the row's own place struck out. -/
def expBlock (x : S8192x256.Idx → EReal) (r k : ℕ) : EReal :=
  ∑ q : Fin 2048, Ideal.exp ((if r = 2048 * k + q.val then ⊥ else logitN x r (2048 * k + q.val)) - Ideal.ofBits .f32 0x40000000#32)
/-- Column step k's share of row r's partner logit: the partner's column if the step has it. -/
def tgtBlock (x : S8192x256.Idx → EReal) (r k : ℕ) : EReal :=
  ∑ q : Fin 2048, (if partnerOf r = 2048 * k + q.val then logitN x r (2048 * k + q.val) else 0)
/-- The sum accumulator of row r after column step k: the shares added in step order, from zero. -/
def expAcc (x : S8192x256.Idx → EReal) (r : ℕ) : ℕ → EReal
  | 0 => 0 + expBlock x r 0
  | k + 1 => expAcc x r k + expBlock x r (k + 1)
/-- The partner-logit accumulator of row r after column step k. -/
def tgtAcc (x : S8192x256.Idx → EReal) (r : ℕ) : ℕ → EReal
  | 0 => 0 + tgtBlock x r 0
  | k + 1 => tgtAcc x r k + tgtBlock x r (k + 1)

/-- A grid point's number is 4 · (row tile) + (column step). -/
theorem coords2 : ∀ t : Fin cfg2.N, (grid2.coords t 0).val = t.val / 4 ∧ (grid2.coords t 1).val = t.val % 4 :=
  (by decide +kernel : ∀ t : Fin grid2.N, (grid2.coords t 0).val = t.val / 4 ∧ (grid2.coords t 1).val = t.val % 4)

/-- The printed index maps over the grid: the row tile's and the result tile's block row is the row tile's number; the
    resident rows' block is the whole array. -/
theorem idx_facts2 : ∀ t : Fin cfg2.N, win2_0.index t (0 : Fin 2) = t.val / 4 ∧ win2_0.index t (1 : Fin 2) = 0
    ∧ win2_1.index t (0 : Fin 2) = 0 ∧ win2_1.index t (1 : Fin 2) = 0
    ∧ win2_2.index t (0 : Fin 2) = t.val / 4 ∧ win2_2.index t (1 : Fin 2) = 0 :=
  (by decide +kernel : ∀ t : Fin grid2.N, win2_0.index t (0 : Fin 2) = t.val / 4 ∧ win2_0.index t (1 : Fin 2) = 0
    ∧ win2_1.index t (0 : Fin 2) = 0 ∧ win2_1.index t (1 : Fin 2) = 0
    ∧ win2_2.index t (0 : Fin 2) = t.val / 4 ∧ win2_2.index t (1 : Fin 2) = 0)

theorem lt64 (t : Fin cfg2.N) : t.val < 64 := by
  have h : t.val < grid2.N := t.isLt
  rw [N_2] at h; exact h

variable (x : S8192x256.Idx → EReal)
variable (V : (c : Dev nD) → (b : Ref sig .tc) → Buf (Elt Ideal) ((c : Thread nD τ).loc b))

/-- The row tile at point t is rows 512 · (row tile) onwards of the stacked matrix. -/
theorem rowTile_apply (c : Dev nD) (hx : V c main_v2 = x) (t : Fin cfg2.N) (p : Fin 512) (k : Fin 256) :
    blk2 V c 0 t (ix2 p k) = rowN x (512 * (t.val / 4) + p.val) k := by
  have ht := lt64 t
  obtain ⟨e0, e1, -, -, -, -⟩ := idx_facts2 t
  have hr : 512 * (t.val / 4) + p.val < 8192 := by omega
  unfold rowN; rw [dif_pos hr]
  subst hx
  show V c main_v2 (((cfg2.win 0).blk t).view.emb (ix2 p k)) = V c main_v2 (ix2 (⟨512 * (t.val / 4) + p.val, hr⟩ : Fin 8192) k)
  refine congrArg (fun j => V c main_v2 j) ?_
  funext a; apply Fin.ext
  match a with
  | ⟨0, _⟩ => show win2_0.index t (0 : Fin 2) * 512 + 1 * p.val = 512 * (t.val / 4) + p.val; omega
  | ⟨1, _⟩ => show win2_0.index t (1 : Fin 2) * 256 + 1 * k.val = k.val; omega

/-- The resident rows at any point are the whole stacked matrix. -/
theorem resident_apply (c : Dev nD) (hx : V c main_v2 = x) (t : Fin cfg2.N) (R : Fin 8192) (k : Fin 256) :
    blk2 V c 1 t (ix2 R k) = x (ix2 R k) := by
  obtain ⟨-, -, e2, e3, -, -⟩ := idx_facts2 t
  subst hx
  show V c main_v2 (((cfg2.win 1).blk t).view.emb (ix2 R k)) = V c main_v2 (ix2 R k)
  refine congrArg (fun j => V c main_v2 j) ?_
  funext a; apply Fin.ext
  match a with
  | ⟨0, _⟩ => show win2_1.index t (0 : Fin 2) * 8192 + 1 * R.val = R.val; omega
  | ⟨1, _⟩ => show win2_1.index t (1 : Fin 2) * 256 + 1 * k.val = k.val; omega

/-- The step's logit of tile row p with step row q is the logit of their global rows. -/
theorem logit_step (c : Dev nD) (hx : V c main_v2 = x) (t : Fin cfg2.N) (p : Fin 512) (q : Fin 2048) :
    k2_pay6 (F := Ideal) (blk2 V c 0 t) (colRows (grid2.coords t) (blk2 V c 1 t)) (ix2 p q)
      = logitN x (512 * (t.val / 4) + p.val) (2048 * (t.val % 4) + q.val) := by
  obtain ⟨c0, c1⟩ := coords2 t
  refine (pay6_apply (blk2 V c 0 t) (colRows (grid2.coords t) (blk2 V c 1 t)) p q).trans ?_
  unfold logitN
  refine congrArg (· * Ideal.ofBits .f32 0x40000000#32) (Finset.sum_congr rfl fun k _ => ?_)
  have hc : 2048 * (t.val % 4) + q.val < 8192 := by omega
  have e2 : colRows (grid2.coords t) (blk2 V c 1 t) (ix2 q k) = rowN x (2048 * (t.val % 4) + q.val) k := by
    refine (colRows_apply (grid2.coords t) (blk2 V c 1 t) q k).trans ?_
    refine (resident_apply x V c hx t _ k).trans ?_
    unfold rowN; rw [dif_pos hc]
    exact congrArg (fun R => x (ix2 R k)) (Fin.ext (by show 2048 * (grid2.coords t 1).val + q.val = _; rw [c1]))
  rw [rowTile_apply x V c hx t p k, e2]

/-- The sum accumulator after point t, entry p: what it held (zero at a first step) plus the step's share. -/
theorem step_exp (c : Dev nD) (hx : V c main_v2 = x) (t : Fin cfg2.N) (pe pt : Vec Ideal S512x1 .f32) (p : Fin 512) (u : Fin 1) :
    (stepOut c t (blk2 V c 0 t) (blk2 V c 1 t) pe pt).2.1 (ix2 p u)
      = (if t.val % 4 = 0 then 0 else pe (ix2 p u)) + expBlock x (512 * (t.val / 4) + p.val) (t.val % 4) := by
  obtain ⟨c0, c1⟩ := coords2 t
  rw [stepOut_exp]
  refine (pay2_apply _ _ p u).trans ?_
  refine congrArg₂ (· + ·) ?_ ?_
  · by_cases h0 : t.val % 4 = 0
    · rw [if_pos h0, if_pos h0]; exact pay4_apply p u
    · rw [if_neg h0, if_neg h0]
  · unfold expBlock
    refine Finset.sum_congr rfl fun q _ => ?_
    rw [pay9_apply, c0, c1, logit_step x V c hx t p q]

/-- The partner-logit accumulator after point t, entry p, likewise. -/
theorem step_tgt (c : Dev nD) (hx : V c main_v2 = x) (t : Fin cfg2.N) (pe pt : Vec Ideal S512x1 .f32) (p : Fin 512) (u : Fin 1) :
    (stepOut c t (blk2 V c 0 t) (blk2 V c 1 t) pe pt).2.2 (ix2 p u)
      = (if t.val % 4 = 0 then 0 else pt (ix2 p u)) + tgtBlock x (512 * (t.val / 4) + p.val) (t.val % 4) := by
  obtain ⟨c0, c1⟩ := coords2 t
  rw [stepOut_tgt]
  refine (pay1_apply _ _ p u).trans ?_
  refine congrArg₂ (· + ·) ?_ ?_
  · by_cases h0 : t.val % 4 = 0
    · rw [if_pos h0, if_pos h0]; exact pay5_apply p u
    · rw [if_neg h0, if_neg h0]
  · unfold tgtBlock
    refine (pay10_apply _ _ _ p u).trans ?_
    refine Finset.sum_congr rfl fun q _ => ?_
    rw [c0, c1, logit_step x V c hx t p q]

/-- THE INDUCTION over the grid's points: after point n the accumulators hold, at entry p, the accumulated shares of
    global row 512 · (n / 4) + p through column step n mod 4. -/
theorem stepsAt_acc (c : Dev nD) (hx : V c main_v2 = x) : ∀ (n : ℕ) (h : n < cfg2.N) (p : Fin 512) (u : Fin 1),
    (stepsAt V c n h).2.1 (ix2 p u) = expAcc x (512 * (n / 4) + p.val) (n % 4)
      ∧ (stepsAt V c n h).2.2 (ix2 p u) = tgtAcc x (512 * (n / 4) + p.val) (n % 4)
  | 0, h, p, u => by
    show (stepOut c ⟨0, h⟩ (blk2 V c 0 ⟨0, h⟩) (blk2 V c 1 ⟨0, h⟩) (readBack expV []) (readBack tgtV [])).2.1 (ix2 p u) = _
      ∧ (stepOut c ⟨0, h⟩ (blk2 V c 0 ⟨0, h⟩) (blk2 V c 1 ⟨0, h⟩) (readBack expV []) (readBack tgtV [])).2.2 (ix2 p u) = _
    rw [step_exp x V c hx ⟨0, h⟩, step_tgt x V c hx ⟨0, h⟩]
    exact ⟨rfl, rfl⟩
  | n + 1, h, p, u => by
    obtain ⟨ihE, ihT⟩ := stepsAt_acc c hx n (Nat.lt_of_succ_lt h) p u
    show (stepOut c ⟨n + 1, h⟩ (blk2 V c 0 ⟨n + 1, h⟩) (blk2 V c 1 ⟨n + 1, h⟩) (stepsAt V c n (Nat.lt_of_succ_lt h)).2.1 (stepsAt V c n (Nat.lt_of_succ_lt h)).2.2).2.1 (ix2 p u) = _
      ∧ (stepOut c ⟨n + 1, h⟩ (blk2 V c 0 ⟨n + 1, h⟩) (blk2 V c 1 ⟨n + 1, h⟩) (stepsAt V c n (Nat.lt_of_succ_lt h)).2.1 (stepsAt V c n (Nat.lt_of_succ_lt h)).2.2).2.2 (ix2 p u) = _
    rw [step_exp x V c hx ⟨n + 1, h⟩, step_tgt x V c hx ⟨n + 1, h⟩, ihE, ihT]
    show (if (n + 1) % 4 = 0 then 0 else expAcc x (512 * (n / 4) + p.val) (n % 4)) + expBlock x (512 * ((n + 1) / 4) + p.val) ((n + 1) % 4) = expAcc x (512 * ((n + 1) / 4) + p.val) ((n + 1) % 4)
      ∧ (if (n + 1) % 4 = 0 then 0 else tgtAcc x (512 * (n / 4) + p.val) (n % 4)) + tgtBlock x (512 * ((n + 1) / 4) + p.val) ((n + 1) % 4) = tgtAcc x (512 * ((n + 1) / 4) + p.val) ((n + 1) % 4)
    by_cases h0 : (n + 1) % 4 = 0
    · rw [if_pos h0, if_pos h0, h0]; exact ⟨rfl, rfl⟩
    · rw [if_neg h0, if_neg h0]
      have e1 : (n + 1) / 4 = n / 4 := by omega
      have e2 : (n + 1) % 4 = n % 4 + 1 := by omega
      rw [e1, e2]; exact ⟨rfl, rfl⟩

/-! ## After the last column step: whole-row sums -/

/-- The logit of rows r and j of the stacked matrix: twice their inner product. -/
def simLogit (x : S8192x256.Idx → EReal) (r j : Fin 8192) : EReal :=
  (∑ k : Fin 256, x (ix2 r k) * x (ix2 j k)) * Ideal.ofBits .f32 0x40000000#32

theorem rowN_val (r : Fin 8192) (k : Fin 256) : rowN x r.val k = x (ix2 r k) := by
  unfold rowN; rw [dif_pos r.isLt]

theorem logitN_val (r j : Fin 8192) : logitN x r.val j.val = simLogit x r j := by
  unfold logitN simLogit; simp only [rowN_val]

/-- The partner's number is the partner row's. -/
theorem partner_val (r : Fin 8192) : (Cert.NTXent.partner r).val = partnerOf r.val := by
  unfold Cert.NTXent.partner partnerOf
  by_cases h : r.val < 4096
  · rw [dif_pos h, if_pos h]
  · rw [dif_neg h, if_neg h]

/-- After the fourth column step the sum accumulator holds the row's whole sum of exponentials: the four steps' shares
    are the four consecutive blocks of 2048 columns. -/
theorem expAcc_three (r : Fin 8192) :
    expAcc x r.val 3 = ∑ j : Fin 8192, Ideal.exp ((if r = j then ⊥ else simLogit x r j) - Ideal.ofBits .f32 0x40000000#32) := by
  have hb := Cert.LibSumBlocks.sum_fin_blocks 4 2048
    (fun j : Fin 8192 => Ideal.exp ((if r = j then ⊥ else simLogit x r j) - Ideal.ofBits .f32 0x40000000#32))
  refine Eq.trans ?_ hb.symm
  have blockEq : ∀ s : Fin 4, expBlock x r.val s.val = ∑ q : Fin 2048,
      (fun j : Fin 8192 => Ideal.exp ((if r = j then ⊥ else simLogit x r j) - Ideal.ofBits .f32 0x40000000#32))
        ⟨2048 * s.val + q.val, Cert.LibSumBlocks.blk_lt s.isLt q.isLt⟩ := by
    intro s; unfold expBlock
    refine Finset.sum_congr rfl fun q _ => ?_
    have hj : 2048 * s.val + q.val < 8192 := Cert.LibSumBlocks.blk_lt s.isLt q.isLt
    show Ideal.exp ((if r.val = (⟨2048 * s.val + q.val, hj⟩ : Fin 8192).val then ⊥ else logitN x r.val (⟨2048 * s.val + q.val, hj⟩ : Fin 8192).val) - Ideal.ofBits .f32 0x40000000#32)
      = Ideal.exp ((if r = (⟨2048 * s.val + q.val, hj⟩ : Fin 8192) then ⊥ else simLogit x r ⟨2048 * s.val + q.val, hj⟩) - Ideal.ofBits .f32 0x40000000#32)
    rw [logitN_val]
    exact congrArg (fun z => Ideal.exp (z - Ideal.ofBits .f32 0x40000000#32)) (if_congr Fin.ext_iff.symm rfl rfl)
  rw [Fin.sum_univ_four, ← blockEq 0, ← blockEq 1, ← blockEq 2, ← blockEq 3]
  show 0 + expBlock x r.val 0 + expBlock x r.val 1 + expBlock x r.val 2 + expBlock x r.val 3 = _
  rw [zero_add]; rfl

/-- And the partner-logit accumulator holds the logit with the partner: the one column the four shares keep. -/
theorem tgtAcc_three (r : Fin 8192) : tgtAcc x r.val 3 = simLogit x r (Cert.NTXent.partner r) := by
  have hsum : ∑ j : Fin 8192, (if Cert.NTXent.partner r = j then simLogit x r j else 0) = simLogit x r (Cert.NTXent.partner r) := by
    rw [Finset.sum_ite_eq]; exact if_pos (Finset.mem_univ _)
  have hb := Cert.LibSumBlocks.sum_fin_blocks 4 2048
    (fun j : Fin 8192 => if Cert.NTXent.partner r = j then simLogit x r j else 0)
  refine Eq.trans ?_ (hb.symm.trans hsum)
  have blockEq : ∀ s : Fin 4, tgtBlock x r.val s.val = ∑ q : Fin 2048,
      (fun j : Fin 8192 => if Cert.NTXent.partner r = j then simLogit x r j else 0)
        ⟨2048 * s.val + q.val, Cert.LibSumBlocks.blk_lt s.isLt q.isLt⟩ := by
    intro s; unfold tgtBlock
    refine Finset.sum_congr rfl fun q _ => ?_
    have hj : 2048 * s.val + q.val < 8192 := Cert.LibSumBlocks.blk_lt s.isLt q.isLt
    show (if partnerOf r.val = (⟨2048 * s.val + q.val, hj⟩ : Fin 8192).val then logitN x r.val (⟨2048 * s.val + q.val, hj⟩ : Fin 8192).val else 0)
      = (if Cert.NTXent.partner r = (⟨2048 * s.val + q.val, hj⟩ : Fin 8192) then simLogit x r ⟨2048 * s.val + q.val, hj⟩ else 0)
    rw [logitN_val, ← partner_val]
    exact if_congr Fin.ext_iff.symm rfl rfl
  rw [Fin.sum_univ_four, ← blockEq 0, ← blockEq 1, ← blockEq 2, ← blockEq 3]
  show 0 + tgtBlock x r.val 0 + tgtBlock x r.val 1 + tgtBlock x r.val 2 + tgtBlock x r.val 3 = _
  rw [zero_add]; rfl

/-! ## From the result tiles to the result array -/

/-- Row r's result: its logit with its partner minus the shift plus the logarithm of its sum of shifted exponentials. -/
def resultRow (x : S8192x256.Idx → EReal) (r : Fin 8192) : EReal :=
  simLogit x r (Cert.NTXent.partner r)
    - (Ideal.ofBits .f32 0x40000000#32 + Ideal.log (∑ j : Fin 8192, Ideal.exp ((if r = j then ⊥ else simLogit x r j) - Ideal.ofBits .f32 0x40000000#32)))

/-- The result column. -/
def resultArray (x : S8192x256.Idx → EReal) : S8192x1.Idx → EReal := fun i => resultRow x (i 0)

/-- At a last column step the result tile is made from the two accumulators the step leaves. -/
theorem stepsAt_res (c : Dev nD) (t : Fin cfg2.N) (h3 : t.val % 4 = 3) :
    (stepsAt V c t.val t.isLt).1 = k2_pay3 (stepsAt V c t.val t.isLt).2.1 (stepsAt V c t.val t.isLt).2.2 := by
  rw [stepsAt_pos V c t (by omega)]
  exact stepOut_res c t h3 _ _ _ _

/-- What a last column step's point writes back is its 512 rows of the result column. -/
theorem flushed2_eq (c : Dev nD) (hx : V c main_v2 = x) (t : Fin cfg2.N) (hf : (cfg2.win 2).flush t = true) :
    (dat2 (F := Ideal) V c).flushed 2 t = ((cfg2.win 2).blk t).view.read (Elt Ideal) (resultArray x) := by
  have h3 : t.val % 4 = 3 := (flush2_2 t).mp hf
  have ht := lt64 t
  obtain ⟨-, -, -, -, e4, e5⟩ := idx_facts2 t
  show (cfg2.win 2).cut (grid2.coords t) ((dat2 V c).after 2 t) = _
  rw [after2_2, stepsAt_res V c t h3]
  funext j
  obtain ⟨p, u, rfl⟩ : ∃ (p : Fin 512) (u : Fin 1), j = ix2 p u := ⟨j 0, j 1, eq_ix2 j⟩
  refine (pay3_apply _ _ p u).trans ?_
  obtain ⟨hE, hT⟩ := stepsAt_acc x V c hx t.val t.isLt p u
  rw [hE, hT, h3]
  have hr : 512 * (t.val / 4) + p.val < 8192 := by omega
  rw [show expAcc x (512 * (t.val / 4) + p.val) 3 = _ from expAcc_three x ⟨512 * (t.val / 4) + p.val, hr⟩,
    show tgtAcc x (512 * (t.val / 4) + p.val) 3 = _ from tgtAcc_three x ⟨512 * (t.val / 4) + p.val, hr⟩]
  show resultRow x ⟨512 * (t.val / 4) + p.val, hr⟩ = resultRow x ((((cfg2.win 2).blk t).view.emb (ix2 p u)) 0)
  refine congrArg (resultRow x) (Fin.ext ?_)
  show 512 * (t.val / 4) + p.val = win2_2.index t (0 : Fin 2) * 512 + 1 * p.val
  omega

/-- An index of the result column is in point t's block iff each coordinate is in the block's range on its axis. -/
theorem mem_res (t : Fin cfg2.N) (i : S8192x1.Idx) :
    i ∈ ((cfg2.win 2).blk t).view.set ↔ ∀ a : Fin 2, win2_2.index t a * S512x1.size a ≤ (i a).val ∧ (i a).val < win2_2.index t a * S512x1.size a + S512x1.size a := by
  show i ∈ ((View.whole main_v3).slice (win2_2.rect t)).set ↔ _
  rw [View.set_slice_whole, Rect.mem_set_unit]
  exact Iff.rfl

/-- The sixteen result tiles tile the result column: row r is written back at point 4 · (r / 512) + 3. -/
theorem cover_res (i : S8192x1.Idx) : ∃ t : Fin cfg2.N, (cfg2.win 2).flush t = true ∧ i ∈ ((cfg2.win 2).blk t).view.set := by
  have hi0 : (i 0).val < 8192 := idx2_lt0 i
  have hi1 : (i 1).val < 1 := idx2_lt1 i
  have hlt : 4 * ((i 0).val / 512) + 3 < grid2.N := by rw [N_2]; omega
  refine ⟨⟨4 * ((i 0).val / 512) + 3, hlt⟩, (flush2_2 _).mpr (by show (4 * ((i 0).val / 512) + 3) % 4 = 3; omega), ?_⟩
  rw [mem_res]
  obtain ⟨-, -, -, -, e4, e5⟩ := idx_facts2 ⟨4 * ((i 0).val / 512) + 3, hlt⟩
  have e4' : win2_2.index ⟨4 * ((i 0).val / 512) + 3, hlt⟩ (0 : Fin 2) = (4 * ((i 0).val / 512) + 3) / 4 := e4
  intro a
  match a with
  | ⟨0, _⟩ => show win2_2.index _ (0 : Fin 2) * 512 ≤ (i 0).val ∧ (i 0).val < win2_2.index _ (0 : Fin 2) * 512 + 512; omega
  | ⟨1, _⟩ => show win2_2.index _ (1 : Fin 2) * 1 ≤ (i 1).val ∧ (i 1).val < win2_2.index _ (1 : Fin 2) * 1 + 1; omega

/-- The result array after the region: the result column, whole. -/
theorem final2 (c : Dev nD) (hx : V c main_v2 = x) : (dat2 (F := Ideal) V c).arrAt 2 cfg2.N = resultArray x :=
  (dat2 (F := Ideal) V c).arrAt_eq_of_cover 2 (resultArray x) (fun t hf => flushed2_eq x V c hx t hf) cover_res

/-- Entry by entry: row r's log-probability of its partner, over the stacked rows the region found. -/
theorem result2_apply (c : Dev nD) (hx : V c main_v2 = x) (r : Fin 8192) (u : Fin 1) :
    (dat2 (F := Ideal) V c).arrAt 2 cfg2.N (ix2 r u)
      = (∑ k : Fin 256, x (ix2 r k) * x (ix2 (Cert.NTXent.partner r) k)) * Ideal.ofBits .f32 0x40000000#32
        - (Ideal.ofBits .f32 0x40000000#32 + Ideal.log (∑ j : Fin 8192,
            Ideal.exp ((if r = j then ⊥ else (∑ k : Fin 256, x (ix2 r k) * x (ix2 j k)) * Ideal.ofBits .f32 0x40000000#32) - Ideal.ofBits .f32 0x40000000#32))) := by
  rw [final2 x V c hx]; rfl

end Cert.KernelIdeal.Hand

end
-- ==== Proof.KernelValue.lean ====
/-
  The idealized kernel program's result: the loss of the two argument matrices.  The closing mean is taken over the
  result array the similarity region leaves; that array's entry at row r is the row's log-probability of its partner,
  in the logits of the scaled rows; and the scaled rows are the stacked arguments' rows divided by their norms.
-/
import proofs.«116624_j43327630082371_2_alg».proof.Proof.KernelRows
import proofs.«116624_j43327630082371_2_alg».proof.Proof.KernelTail
import proofs.«116624_j43327630082371_2_alg».proof.Proof.SimValue

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The result array's entry at row r is Spec's log-probability of row r's partner. -/
theorem resultRow_spec (c : Dev nD) (r : Fin 8192) :
    (in4 m ρ c main_v3 : FVec Ideal S8192x1 .f32) (ix2 r (0 : Fin 1)) = Cert.NTXent.rowLogProb (rowsA m c) (rowsB m c) r := by
  rw [show (in4 m ρ c main_v3 : FVec Ideal S8192x1 .f32) = (dat2 (in3 m ρ) c).arrAt 2 cfg2.N from at4_res m ρ c]
  rw [result2_apply (in3 m ρ c main_v2) (in3 m ρ) c rfl r 0]
  unfold Cert.NTXent.rowLogProb Cert.NTXent.expSum Cert.NTXent.offDiag Cert.NTXent.logit Cert.NTXent.two
  simp only [← scaledRows_apply m ρ c]

/-- The program's result at its index. -/
theorem kernel_value (c : Dev nD) (i : S_.Idx) :
    (at5 m ρ c main_v6 : FVec Ideal S_ .f32) i = Cert.NTXent.loss (rowsA m c) (rowsB m c) := by
  have key : ∀ (y : FVec Ideal S8192x1 .f32), (in4 m ρ c main_v3 : FVec Ideal S8192x1 .f32) = y →
      (∀ r : Fin 8192, y (ix2 r (0 : Fin 1)) = Cert.NTXent.rowLogProb (rowsA m c) (rowsB m c) r) →
      (at5 m ρ c main_v6 : FVec Ideal S_ .f32) i = Cert.NTXent.loss (rowsA m c) (rowsB m c) := by
    intro y hy hrow
    rw [closing_apply m ρ c y hy i]
    have hs : (∑ r : Fin 8192, y (ix2 r (0 : Fin 1))) = ∑ r : Fin 8192, Cert.NTXent.rowLogProb (rowsA m c) (rowsB m c) r :=
      Finset.sum_congr rfl fun r _ => hrow r
    rw [hs]
    rfl
  exact key _ rfl (fun r => resultRow_spec m ρ c r)

/-- The idealized kernel program runs to the end with its result at the loss and its arguments as launched. -/
theorem kernel_run : θ_run defs (onTc (τ := τ) (main (F := Ideal))) ⟨m, fun _ => 0, ρ⟩ (fun r => ∀ c : Dev nD,
      r.2.mem ((c.tc : Thread nD τ).loc main_v6) = (fun _ => Cert.NTXent.loss (rowsA m c) (rowsB m c) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v6 (by decide))).trans (funext fun i => kernel_value m ρ c i),
     (h c _ (mem_uc main_arg0 (by decide))).trans (at5_main_arg0 m ρ c),
     (h c _ (mem_uc main_arg1 (by decide))).trans (at5_main_arg1 m ρ c)⟩) (run_all m ρ)

end Cert.KernelIdeal.Hand

end
-- ==== Proof.RefStages.lean ====
/-
  The reference program's result, read back from its list of operations a stretch at a time.

  The run theorem states the result buffer's contents as the fold of the sixty-seven operations over the launch
  contents.  Each operation writes one buffer as a function of the buffers it reads, so that fold, at the result
  buffer, is the composition of the operations' functions: the "stages" val_main_v0 ... val_main_v35, each defined
  from the stages it reads.  Here the list is cut into twelve consecutive stretches chosen where few buffers are
  still to be read:

      arguments -> the scaled rows (v5) -> the logits (v9) -> the row numbers (v10) and the logits with the
      diagonal struck out (v16) -> the partners' row numbers (v17) -> the log-probabilities (v18) -> the pairs
      (row, partner) (v31) -> minus the mean of the gathered log-probabilities (v35).

  For each stretch one lemma says: if, in the contents before the stretch, the buffers the stretch reads hold
  their stages, then after the stretch the buffer it is read for holds its stage; and a buffer the stretch does
  not write is left as it was.  Composing them gives the result buffer's stage.
-/
import proofs.«116624_j43327630082371_2_alg».proof.Proof.RefRunPatched
import proofs.«116624_j43327630082371_2_alg».proof.Proof.RefReadPatched

noncomputable section

namespace Cert.NTXent.Ref

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-- The contents after two lists run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The twelve stretches: operations 0-10, 11-15, 16-25, 26-27, 28, 29-30, 31-33, 34-36, 37-43, 44-59, 60, 61-66.  Each
    joining of two arrays (operations 28 and 60) begins a stretch, so that the arrays it joins are read from the
    contents before the stretch. -/
abbrev opsA : List (HloOp τ sig (Elt F)) := (ops (F := F)).take 11
abbrev opsB : List (HloOp τ sig (Elt F)) := ((ops (F := F)).drop 11).take 5
abbrev opsC : List (HloOp τ sig (Elt F)) := ((ops (F := F)).drop 16).take 10
abbrev opsD1 : List (HloOp τ sig (Elt F)) := ((ops (F := F)).drop 26).take 2
abbrev opsD2 : List (HloOp τ sig (Elt F)) := ((ops (F := F)).drop 28).take 1
abbrev opsE1a : List (HloOp τ sig (Elt F)) := ((ops (F := F)).drop 29).take 2
abbrev opsE1b : List (HloOp τ sig (Elt F)) := ((ops (F := F)).drop 31).take 3
abbrev opsE2 : List (HloOp τ sig (Elt F)) := ((ops (F := F)).drop 34).take 3
abbrev opsE3 : List (HloOp τ sig (Elt F)) := ((ops (F := F)).drop 37).take 7
abbrev opsF1 : List (HloOp τ sig (Elt F)) := ((ops (F := F)).drop 44).take 16
abbrev opsF2 : List (HloOp τ sig (Elt F)) := ((ops (F := F)).drop 60).take 1
abbrev opsG : List (HloOp τ sig (Elt F)) := (ops (F := F)).drop 61

theorem ops_eq : (ops (F := F)) = opsA ++ (opsB ++ (opsC ++ (opsD1 ++ (opsD2 ++ (opsE1a ++ (opsE1b ++ (opsE2 ++ (opsE3 ++ (opsF1 ++ (opsF2 ++ (opsG))))))))))) := rfl

/-- Unfolds a stretch to its operations and reads the fold at a buffer: each operation's result at the buffer it
    writes is its function of the buffers it reads, and at any other buffer what was there. -/
local macro "stretch" : tactic =>
  `(tactic| (simp only [opsA, opsB, opsC, opsD1, opsD2, opsE1a, opsE1b, opsE2, opsE3, opsF1, opsF2, opsG, ops, List.take_succ_cons, List.take_zero, List.drop_succ_cons, List.drop_zero]
             after_results_simp))

section Stretches

variable (W : Valuation τ sig (Elt F)) (x0 x1 : (⟨S4096x256, .f32⟩ : BufTy).Contents (Elt F))

/-- Operations 0-10: from the arguments to the scaled rows. -/
theorem segA_v5 :
    after (opsA (F := F)) W (Proc.devRef .tc main_v5)
      = val_main_v5 (F := F) (W (Proc.devRef .tc main_arg0)) (W (Proc.devRef .tc main_arg1)) := by
  stretch
  rfl

/-- Operations 11-15: from the scaled rows to the logits. -/
theorem segB_v9 (h_v5 : W (Proc.devRef .tc main_v5) = val_main_v5 (F := F) x0 x1) :
    after (opsB (F := F)) W (Proc.devRef .tc main_v9) = val_main_v9 (F := F) x0 x1 := by
  stretch
  rw [h_v5]
  rfl

/-- Operations 16-25: from the logits to the logits with the diagonal struck out ... -/
theorem segC_v16 (h_v9 : W (Proc.devRef .tc main_v9) = val_main_v9 (F := F) x0 x1) :
    after (opsC (F := F)) W (Proc.devRef .tc main_v16) = val_main_v16 (F := F) x0 x1 := by
  stretch
  rw [h_v9]
  rfl

/-- ... and the row numbers, which read nothing. -/
theorem segC_v10 :
    after (opsC (F := F)) W (Proc.devRef .tc main_v10) = val_main_v10 (F := F) := by
  stretch
  rfl

/-- Operations 26-27: the two halves of the row numbers. -/
theorem segD1_call2_v0 (h_v10 : W (Proc.devRef .tc main_v10) = val_main_v10 (F := F)) :
    after (opsD1 (F := F)) W (Proc.devRef .tc main_call2_v0) = val_main_call2_v0 (F := F) := by
  stretch
  rw [h_v10]
  rfl

theorem segD1_call2_v1 (h_v10 : W (Proc.devRef .tc main_v10) = val_main_v10 (F := F)) :
    after (opsD1 (F := F)) W (Proc.devRef .tc main_call2_v1) = val_main_call2_v1 (F := F) := by
  stretch
  rw [h_v10]
  rfl

theorem segD1_keep_v10 : after (opsD1 (F := F)) W (Proc.devRef .tc main_v10) = W (Proc.devRef .tc main_v10) := by stretch
theorem segD1_keep_v16 : after (opsD1 (F := F)) W (Proc.devRef .tc main_v16) = W (Proc.devRef .tc main_v16) := by stretch

/-- Operation 28: the halves joined in the other order are the partners' row numbers. -/
theorem segD2_v17 (h_call2_v0 : W (Proc.devRef .tc main_call2_v0) = val_main_call2_v0 (F := F)) (h_call2_v1 : W (Proc.devRef .tc main_call2_v1) = val_main_call2_v1 (F := F)) :
    after (opsD2 (F := F)) W (Proc.devRef .tc main_v17) = val_main_v17 (F := F) := by
  stretch
  rw [h_call2_v0, h_call2_v1]
  rfl

theorem segD2_keep_v10 : after (opsD2 (F := F)) W (Proc.devRef .tc main_v10) = W (Proc.devRef .tc main_v10) := by stretch
theorem segD2_keep_v16 : after (opsD2 (F := F)) W (Proc.devRef .tc main_v16) = W (Proc.devRef .tc main_v16) := by stretch

/-- Operations 29-30: each row's maximum over its struck-out logits, folded from -infinity.  Both sides are put over
    the same unopened leaf, the contents of the struck-out logits' buffer, and the transports along the buffers' type
    equations are laid bare, so that the two maximum-reductions are compared operand by operand, never unfolded. -/
theorem segE1a_call3_v0 (h_v16 : W (Proc.devRef .tc main_v16) = val_main_v16 (F := F) x0 x1) :
    after (opsE1a (F := F)) W (Proc.devRef .tc main_call3_v0) = val_main_call3_v0 (F := F) x0 x1 := by
  stretch
  simp only [val_main_call3_v0, val_main_call3_cst]
  rw [← h_v16]
  delta TRef.toBuf TRef.ofBuf cast
  rfl

theorem segE1a_keep_v16 : after (opsE1a (F := F)) W (Proc.devRef .tc main_v16) = W (Proc.devRef .tc main_v16) := by stretch
theorem segE1a_keep_v10 : after (opsE1a (F := F)) W (Proc.devRef .tc main_v10) = W (Proc.devRef .tc main_v10) := by stretch
theorem segE1a_keep_v17 : after (opsE1a (F := F)) W (Proc.devRef .tc main_v17) = W (Proc.devRef .tc main_v17) := by stretch

/-- Operations 31-33: the larger of -infinity and that maximum.  Again over the unopened leaf. -/
theorem segE1b_call3_v2 (h_call3_v0 : W (Proc.devRef .tc main_call3_v0) = val_main_call3_v0 (F := F) x0 x1) :
    after (opsE1b (F := F)) W (Proc.devRef .tc main_call3_v2) = val_main_call3_v2 (F := F) x0 x1 := by
  stretch
  simp only [val_main_call3_v2, val_main_call3_v1, val_main_call3_cst_0]
  rw [← h_call3_v0]
  rfl

theorem segE1b_keep_v16 : after (opsE1b (F := F)) W (Proc.devRef .tc main_v16) = W (Proc.devRef .tc main_v16) := by stretch
theorem segE1b_keep_v10 : after (opsE1b (F := F)) W (Proc.devRef .tc main_v10) = W (Proc.devRef .tc main_v10) := by stretch
theorem segE1b_keep_v17 : after (opsE1b (F := F)) W (Proc.devRef .tc main_v17) = W (Proc.devRef .tc main_v17) := by stretch

/-- Operations 34-36: the logits less their row's maximum. -/
theorem segE2_call3_v5 (h_v16 : W (Proc.devRef .tc main_v16) = val_main_v16 (F := F) x0 x1) (h_call3_v2 : W (Proc.devRef .tc main_call3_v2) = val_main_call3_v2 (F := F) x0 x1) :
    after (opsE2 (F := F)) W (Proc.devRef .tc main_call3_v5) = val_main_call3_v5 (F := F) x0 x1 := by
  stretch
  rw [h_v16, h_call3_v2]
  rfl

theorem segE2_keep_v10 : after (opsE2 (F := F)) W (Proc.devRef .tc main_v10) = W (Proc.devRef .tc main_v10) := by stretch
theorem segE2_keep_v17 : after (opsE2 (F := F)) W (Proc.devRef .tc main_v17) = W (Proc.devRef .tc main_v17) := by stretch

/-- Operations 37-43: less the logarithm of the row's sum of exponentials: the log-probabilities. -/
theorem segE3_v18 (h_call3_v5 : W (Proc.devRef .tc main_call3_v5) = val_main_call3_v5 (F := F) x0 x1) :
    after (opsE3 (F := F)) W (Proc.devRef .tc main_v18) = val_main_v18 (F := F) x0 x1 := by
  stretch
  rw [h_call3_v5]
  rfl

theorem segE3_keep_v10 : after (opsE3 (F := F)) W (Proc.devRef .tc main_v10) = W (Proc.devRef .tc main_v10) := by stretch
theorem segE3_keep_v17 : after (opsE3 (F := F)) W (Proc.devRef .tc main_v17) = W (Proc.devRef .tc main_v17) := by stretch

/-- Operations 44-59: the row numbers and the partners' row numbers, each made nonnegative and stood up as a column. -/
theorem segF1_v29 (h_v10 : W (Proc.devRef .tc main_v10) = val_main_v10 (F := F)) :
    after (opsF1 (F := F)) W (Proc.devRef .tc main_v29) = val_main_v29 (F := F) := by
  stretch
  rw [h_v10]
  rfl

theorem segF1_v30 (h_v17 : W (Proc.devRef .tc main_v17) = val_main_v17 (F := F)) :
    after (opsF1 (F := F)) W (Proc.devRef .tc main_v30) = val_main_v30 (F := F) := by
  stretch
  rw [h_v17]
  rfl

theorem segF1_keep_v18 : after (opsF1 (F := F)) W (Proc.devRef .tc main_v18) = W (Proc.devRef .tc main_v18) := by stretch

/-- Operation 60: the two columns side by side are the pairs (row, partner). -/
theorem segF2_v31 (h_v29 : W (Proc.devRef .tc main_v29) = val_main_v29 (F := F)) (h_v30 : W (Proc.devRef .tc main_v30) = val_main_v30 (F := F)) :
    after (opsF2 (F := F)) W (Proc.devRef .tc main_v31) = val_main_v31 (F := F) := by
  stretch
  rw [h_v29, h_v30]
  rfl

theorem segF2_keep_v18 : after (opsF2 (F := F)) W (Proc.devRef .tc main_v18) = W (Proc.devRef .tc main_v18) := by stretch

/-- Operations 61-66: the gather at the pairs, the sum, the division by the number of rows and the sign. -/
theorem segG_v35 (h_v18 : W (Proc.devRef .tc main_v18) = val_main_v18 (F := F) x0 x1) (h_v31 : W (Proc.devRef .tc main_v31) = val_main_v31 (F := F)) :
    after (opsG (F := F)) W (Proc.devRef .tc main_v35) = val_main_v35 (F := F) x0 x1 := by
  stretch
  rw [h_v18, h_v31]
  rfl

end Stretches

/-- The result buffer after all sixty-seven operations holds the last stage of the argument buffers' contents. -/
theorem after_ops (V : Valuation τ sig (Elt F)) :
    after (ops (F := F)) V (Proc.devRef .tc main_v35)
      = val_main_v35 (F := F) (V (Proc.devRef .tc main_arg0)) (V (Proc.devRef .tc main_arg1)) := by
  rw [ops_eq]
  simp only [after_append]
  generalize hA : after opsA V = WA
  have a5 : WA (Proc.devRef .tc main_v5) = _ := hA ▸ segA_v5 (F := F) V
  generalize hB : after opsB WA = WB
  have b9 : WB (Proc.devRef .tc main_v9) = _ := hB ▸ segB_v9 WA _ _ a5
  generalize hC : after opsC WB = WC
  have c16 : WC (Proc.devRef .tc main_v16) = _ := hC ▸ segC_v16 WB _ _ b9
  have c10 : WC (Proc.devRef .tc main_v10) = _ := hC ▸ segC_v10 (F := F) WB
  generalize hD1 : after opsD1 WC = WD1
  have d1a : WD1 (Proc.devRef .tc main_call2_v0) = _ := hD1 ▸ segD1_call2_v0 WC c10
  have d1b : WD1 (Proc.devRef .tc main_call2_v1) = _ := hD1 ▸ segD1_call2_v1 WC c10
  have d1_10 : WD1 (Proc.devRef .tc main_v10) = _ := hD1 ▸ (segD1_keep_v10 WC).trans c10
  have d1_16 : WD1 (Proc.devRef .tc main_v16) = _ := hD1 ▸ (segD1_keep_v16 WC).trans c16
  generalize hD2 : after opsD2 WD1 = WD2
  have d17 : WD2 (Proc.devRef .tc main_v17) = _ := hD2 ▸ segD2_v17 WD1 d1a d1b
  have d10 : WD2 (Proc.devRef .tc main_v10) = _ := hD2 ▸ (segD2_keep_v10 WD1).trans d1_10
  have d16 : WD2 (Proc.devRef .tc main_v16) = _ := hD2 ▸ (segD2_keep_v16 WD1).trans d1_16
  generalize hE1a : after opsE1a WD2 = WE1a
  have e1a0 : WE1a (Proc.devRef .tc main_call3_v0) = _ := hE1a ▸ segE1a_call3_v0 WD2 _ _ d16
  have e1a_16 : WE1a (Proc.devRef .tc main_v16) = _ := hE1a ▸ (segE1a_keep_v16 WD2).trans d16
  have e1a_10 : WE1a (Proc.devRef .tc main_v10) = _ := hE1a ▸ (segE1a_keep_v10 WD2).trans d10
  have e1a_17 : WE1a (Proc.devRef .tc main_v17) = _ := hE1a ▸ (segE1a_keep_v17 WD2).trans d17
  generalize hE1 : after opsE1b WE1a = WE1
  have e1m : WE1 (Proc.devRef .tc main_call3_v2) = _ := hE1 ▸ segE1b_call3_v2 WE1a _ _ e1a0
  have e1_16 : WE1 (Proc.devRef .tc main_v16) = _ := hE1 ▸ (segE1b_keep_v16 WE1a).trans e1a_16
  have e1_10 : WE1 (Proc.devRef .tc main_v10) = _ := hE1 ▸ (segE1b_keep_v10 WE1a).trans e1a_10
  have e1_17 : WE1 (Proc.devRef .tc main_v17) = _ := hE1 ▸ (segE1b_keep_v17 WE1a).trans e1a_17
  generalize hE2 : after opsE2 WE1 = WE2
  have e2s : WE2 (Proc.devRef .tc main_call3_v5) = _ := hE2 ▸ segE2_call3_v5 WE1 _ _ e1_16 e1m
  have e2_10 : WE2 (Proc.devRef .tc main_v10) = _ := hE2 ▸ (segE2_keep_v10 WE1).trans e1_10
  have e2_17 : WE2 (Proc.devRef .tc main_v17) = _ := hE2 ▸ (segE2_keep_v17 WE1).trans e1_17
  generalize hE3 : after opsE3 WE2 = WE3
  have e18 : WE3 (Proc.devRef .tc main_v18) = _ := hE3 ▸ segE3_v18 WE2 _ _ e2s
  have e10 : WE3 (Proc.devRef .tc main_v10) = _ := hE3 ▸ (segE3_keep_v10 WE2).trans e2_10
  have e17 : WE3 (Proc.devRef .tc main_v17) = _ := hE3 ▸ (segE3_keep_v17 WE2).trans e2_17
  generalize hF1 : after opsF1 WE3 = WF1
  have f29 : WF1 (Proc.devRef .tc main_v29) = _ := hF1 ▸ segF1_v29 WE3 e10
  have f30 : WF1 (Proc.devRef .tc main_v30) = _ := hF1 ▸ segF1_v30 WE3 e17
  have f1_18 : WF1 (Proc.devRef .tc main_v18) = _ := hF1 ▸ (segF1_keep_v18 WE3).trans e18
  generalize hF2 : after opsF2 WF1 = WF2
  have f31 : WF2 (Proc.devRef .tc main_v31) = _ := hF2 ▸ segF2_v31 WF1 f29 f30
  have f18 : WF2 (Proc.devRef .tc main_v18) = _ := hF2 ▸ (segF2_keep_v18 WF1).trans f1_18
  exact segG_v35 WF2 _ _ f18 f31

/-- The run's result term is the last stage of the argument arrays. -/
theorem res_eq_val (m : (ℓ : Loc nD τ sig) → Buf (Elt F) ℓ) (c : Dev nD) :
    Cert.ReferenceIdeal.Value.res_main_v35 m c
      = val_main_v35 (F := F) (m ((c.tc : Thread nD τ).loc main_arg0)) (m ((c.tc : Thread nD τ).loc main_arg1)) :=
  after_ops (launchContents m c)

end Cert.NTXent.Ref

end
-- ==== Proof.LogSumExp.lean ====
/-
  The law that joins the two ways of writing a row's log-probability.  A row of logits has entries that are
  real numbers, except some that are -infinity (the struck-out place), and at least one entry, the one we
  read, is real.  Writing w_j = exp(u_j) (a nonnegative real, 0 at -infinity) and W for their sum, W is a
  positive real, and for EVERY real shift m

      (u_t - m) - log (sum_j exp (u_j - m))  =  u_t - log W ,

  because exp (u_j - m) = w_j * exp (-m), so the sum is W * exp (-m) and its logarithm is log W - m.  Both
  programs compute the left side, one with m the row's maximum and one with m = 2 added back afterwards, so
  both equal the right side, which does not mention m.  The row's maximum itself is a real: it is at least
  the real entry and no entry is +infinity.
-/
import proofs.«116624_j43327630082371_2_alg».proof.Proof.Spec

noncomputable section

namespace Cert.NTXent

open Idealize.ShloMosaic

/-- An entry of a row: -infinity or a real number. -/
def BotOrReal (u : EReal) : Prop := u = ⊥ ∨ ∃ x : ℝ, u = (x : EReal)

theorem botOrReal_bot : BotOrReal ⊥ := Or.inl rfl
theorem botOrReal_coe (x : ℝ) : BotOrReal (x : EReal) := Or.inr ⟨x, rfl⟩

/-- The coercion of a finite sum of reals is the sum of the coercions. -/
theorem coe_finsum {ι : Type} (s : Finset ι) (f : ι → ℝ) :
    ((∑ j ∈ s, f j : ℝ) : EReal) = ∑ j ∈ s, (f j : EReal) := by
  classical
  refine Finset.induction_on s (by simp) ?_
  intro a s ha ih
  rw [Finset.sum_insert ha, Finset.sum_insert ha, EReal.coe_add, ih]

/-- The weight of an entry: its exponential as a real number (0 at -infinity). -/
def weight (u : EReal) : ℝ := (Ideal.exp u).toReal

theorem weight_bot : weight ⊥ = 0 := by simp [weight]
theorem weight_coe (x : ℝ) : weight (x : EReal) = Real.exp x := by simp [weight]

theorem weight_nonneg {u : EReal} (hu : BotOrReal u) : 0 ≤ weight u := by
  rcases hu with rfl | ⟨x, rfl⟩
  · rw [weight_bot]
  · rw [weight_coe]; exact (Real.exp_pos x).le

/-- Shifting an entry down by a real m scales its exponential by exp (-m). -/
theorem exp_sub_real {u : EReal} (hu : BotOrReal u) (m : ℝ) :
    Ideal.exp (u - (m : EReal)) = ((weight u * Real.exp (-m) : ℝ) : EReal) := by
  rcases hu with rfl | ⟨x, rfl⟩
  · rw [EReal.bot_sub, Ideal.exp_bot, weight_bot, zero_mul, EReal.coe_zero]
  · rw [← EReal.coe_sub, Ideal.exp_coe, weight_coe, ← Real.exp_add, sub_eq_add_neg]

variable {ι : Type} [Fintype ι]

/-- The total weight of a row. -/
def totalWeight (u : ι → EReal) : ℝ := ∑ j, weight (u j)

theorem totalWeight_pos (u : ι → EReal) (hu : ∀ j, BotOrReal (u j)) (t : ι) (x : ℝ) (ht : u t = (x : EReal)) :
    0 < totalWeight u := by
  classical
  unfold totalWeight
  have h1 : weight (u t) ≤ ∑ j, weight (u j) :=
    Finset.single_le_sum (f := fun j => weight (u j)) (fun j _ => weight_nonneg (hu j)) (Finset.mem_univ t)
  have h2 : 0 < weight (u t) := by rw [ht, weight_coe]; exact Real.exp_pos x
  exact lt_of_lt_of_le h2 h1

/-- The sum of the shifted exponentials over a row is the total weight times exp (-m). -/
theorem sum_exp_sub (u : ι → EReal) (hu : ∀ j, BotOrReal (u j)) (m : ℝ) :
    ∑ j, Ideal.exp (u j - (m : EReal)) = ((totalWeight u * Real.exp (-m) : ℝ) : EReal) := by
  unfold totalWeight
  rw [Finset.sum_mul, coe_finsum]
  exact Finset.sum_congr rfl fun j _ => exp_sub_real (hu j) m

/-- The logarithm of that sum. -/
theorem log_sum_exp_sub (u : ι → EReal) (hu : ∀ j, BotOrReal (u j)) (t : ι) (x : ℝ) (ht : u t = (x : EReal)) (m : ℝ) :
    Ideal.log (∑ j, Ideal.exp (u j - (m : EReal))) = ((Real.log (totalWeight u) - m : ℝ) : EReal) := by
  have hW := totalWeight_pos u hu t x ht
  have hpos : 0 < totalWeight u * Real.exp (-m) := mul_pos hW (Real.exp_pos _)
  rw [sum_exp_sub u hu m, Ideal.log_coe, if_neg (not_le.mpr hpos), Real.log_mul hW.ne' (Real.exp_pos _).ne',
    Real.log_exp, sub_eq_add_neg]

/-- The form with the shift subtracted from the entry first and the sum started from zero. -/
theorem shifted_logProb (u : ι → EReal) (hu : ∀ j, BotOrReal (u j)) (t : ι) (x : ℝ) (ht : u t = (x : EReal)) (m : ℝ) :
    (u t - (m : EReal)) - Ideal.log (0 + ∑ j, Ideal.exp (u j - (m : EReal)))
      = ((x - Real.log (totalWeight u) : ℝ) : EReal) := by
  rw [zero_add, log_sum_exp_sub u hu t x ht m, ht, ← EReal.coe_sub, ← EReal.coe_sub]
  congr 1; ring

/-- The form with the shift added back to the logarithm. -/
theorem addedBack_logProb (u : ι → EReal) (hu : ∀ j, BotOrReal (u j)) (t : ι) (x : ℝ) (ht : u t = (x : EReal)) (c : ℝ) :
    u t - ((c : EReal) + Ideal.log (∑ j, Ideal.exp (u j - (c : EReal))))
      = ((x - Real.log (totalWeight u) : ℝ) : EReal) := by
  rw [log_sum_exp_sub u hu t x ht c, ht, ← EReal.coe_add, ← EReal.coe_sub]
  congr 1; ring

/-- The two forms agree, whatever the two shifts. -/
theorem shifted_eq_addedBack (u : ι → EReal) (hu : ∀ j, BotOrReal (u j)) (t : ι) (x : ℝ) (ht : u t = (x : EReal)) (m c : ℝ) :
    (u t - (m : EReal)) - Ideal.log (0 + ∑ j, Ideal.exp (u j - (m : EReal)))
      = u t - ((c : EReal) + Ideal.log (∑ j, Ideal.exp (u j - (c : EReal)))) :=
  (shifted_logProb u hu t x ht m).trans (addedBack_logProb u hu t x ht c).symm

/-- The maximum of a row, folded from -infinity, is a real: it is at least the real entry, and no entry is
    +infinity. -/
theorem fold_max_real (u : ι → EReal) (hu : ∀ j, BotOrReal (u j)) (t : ι) (x : ℝ) (ht : u t = (x : EReal)) :
    ∃ m : ℝ, (Finset.univ : Finset ι).fold max (⊥ : EReal) u = (m : EReal) := by
  have hlt : (Finset.univ : Finset ι).fold max (⊥ : EReal) u < ⊤ := by
    rw [Finset.fold_max_lt]
    refine ⟨bot_lt_top, fun j _ => ?_⟩
    rcases hu j with h | ⟨y, h⟩
    · rw [h]; exact bot_lt_top
    · rw [h]; exact EReal.coe_lt_top y
  have hge : (x : EReal) ≤ (Finset.univ : Finset ι).fold max (⊥ : EReal) u := by
    rw [Finset.le_fold_max]
    exact Or.inr ⟨t, Finset.mem_univ t, ht.ge⟩
  have hbot : (Finset.univ : Finset ι).fold max (⊥ : EReal) u ≠ ⊥ :=
    fun h => absurd (h ▸ hge) (not_le.mpr (EReal.bot_lt_coe x))
  exact ⟨_, (EReal.coe_toReal hlt.ne hbot).symm⟩

end Cert.NTXent

end
-- ==== Proof.SpecReal.lean ====
/-
  Facts about the specification that both programs' proofs use, over the extended reals, for argument matrices
  whose entries are all real numbers.

  The small constant under the norm is a positive real, so what a row is divided by, the larger of its norm and that
  constant, is a positive real whatever the row (a norm that came out -infinity, if the sum of squares could be
  negative, would lose to the constant as well).  Hence every scaled entry is a real, every inner product of two
  scaled rows is a real, and every logit, that inner product times two, is a real.  A row of logits with its own
  place struck out therefore has one entry -infinity and real entries elsewhere, its partner's among them, which
  is the shape the log-sum-exp law asks for: for EVERY real shift m,

      (l(i, partner i) - m) - log (0 + sum_j exp (l'(i, j) - m))   is the row's log-probability of the
      specification,

  where l' is l with -infinity at j = i.  Also here: dividing by the word of one half is multiplying by the word of
  two, the word 0xFF800000 is -infinity, and the maximum of a row folded from -infinity is a real.
-/
import proofs.«116624_j43327630082371_2_alg».proof.Proof.LogSumExp

noncomputable section

namespace Cert.NTXent

open Idealize.ShloMosaic

/-! ## The constants -/

theorem two_eq : two = ((2 : ℝ) : EReal) := by
  unfold two
  simp [Ideal.ofBits, Ideal.ieee, -EReal.coe_mul]; norm_num

theorem half_eq : Ideal.ofBits .f32 0x3F000000#32 = ((1 / 2 : ℝ) : EReal) := by
  simp [Ideal.ofBits, Ideal.ieee, -EReal.coe_mul]; norm_num

theorem negInf_eq : Ideal.ofBits .f32 0xFF800000#32 = (⊥ : EReal) := by
  simp [Ideal.ofBits, Ideal.ieee]

/-- The small constant is a positive real. -/
theorem tiny_pos : ∃ t : ℝ, 0 < t ∧ tiny = (t : EReal) := by
  unfold tiny
  simp [Ideal.ofBits, Ideal.ieee, -EReal.coe_mul]

/-- Dividing by one half is multiplying by two. -/
theorem div_half (x : EReal) : Ideal.div x (Ideal.ofBits .f32 0x3F000000#32) = x * two := by
  have h2 : ((1 / (1 / 2 : ℝ) : ℝ)) = 2 := by norm_num
  rw [half_eq, Ideal.div_coe (y := 1 / 2) (by norm_num) x, h2, two_eq]

/-! ## Reals are closed under what the specification does -/

/-- "Is a real number". -/
def IsReal (u : EReal) : Prop := ∃ x : ℝ, u = (x : EReal)

theorem IsReal.mul {a b : EReal} (ha : IsReal a) (hb : IsReal b) : IsReal (a * b) := by
  obtain ⟨x, rfl⟩ := ha; obtain ⟨y, rfl⟩ := hb
  exact ⟨x * y, (EReal.coe_mul x y).symm⟩

theorem IsReal.sum {ι : Type} [Fintype ι] {f : ι → EReal} (hf : ∀ k, IsReal (f k)) : IsReal (∑ k, f k) := by
  choose g hg using hf
  exact ⟨∑ k, g k, by rw [coe_finsum]; exact Finset.sum_congr rfl fun k _ => hg k⟩

theorem IsReal.botOrReal {u : EReal} (h : IsReal u) : BotOrReal u := Or.inr h

/-- A real divided by a nonzero real is a real. -/
theorem IsReal.div_pos {a : EReal} (ha : IsReal a) {s : ℝ} (hs : 0 < s) : IsReal (Ideal.div a (s : EReal)) := by
  obtain ⟨x, rfl⟩ := ha
  exact ⟨x * (1 / s), by rw [Ideal.div_coe hs.ne', EReal.coe_mul]⟩

section Rows

variable (z1 z2 : Fin 4096 → Fin 256 → EReal)
variable (h1 : ∀ r k, IsReal (z1 r k)) (h2 : ∀ r k, IsReal (z2 r k))

include h1 h2

theorem stacked_real (i : Fin 8192) (k : Fin 256) : IsReal (stacked z1 z2 i k) := by
  unfold stacked
  split
  · exact h1 _ _
  · exact h2 _ _

/-- What a row is divided by is a positive real. -/
theorem scale_pos (i : Fin 8192) : ∃ s : ℝ, 0 < s ∧ scale z1 z2 i = (s : EReal) := by
  obtain ⟨t, ht, hte⟩ := tiny_pos
  obtain ⟨r, hr⟩ := IsReal.sum fun k => (stacked_real z1 z2 h1 h2 i k).mul (stacked_real z1 z2 h1 h2 i k)
  unfold scale
  rw [hr, hte, Ideal.sqrt_coe]
  by_cases hneg : r < 0
  · rw [if_pos hneg, max_eq_right bot_le]
    exact ⟨t, ht, rfl⟩
  · rw [if_neg hneg]
    exact ⟨max (Real.sqrt r) t, lt_max_of_lt_right ht, (EReal.coe_strictMono.monotone.map_max).symm⟩

theorem unitRow_real (i : Fin 8192) (k : Fin 256) : IsReal (unitRow z1 z2 i k) := by
  obtain ⟨s, hs, hse⟩ := scale_pos z1 z2 h1 h2 i
  unfold unitRow
  rw [hse]
  exact (stacked_real z1 z2 h1 h2 i k).div_pos hs

theorem logit_real (i j : Fin 8192) : IsReal (logit z1 z2 i j) := by
  unfold logit
  exact (IsReal.sum fun k => (unitRow_real z1 z2 h1 h2 i k).mul (unitRow_real z1 z2 h1 h2 j k)).mul ⟨2, two_eq⟩

theorem offDiag_botOrReal (i j : Fin 8192) : BotOrReal (offDiag z1 z2 i j) := by
  unfold offDiag
  split
  · exact botOrReal_bot
  · exact (logit_real z1 z2 h1 h2 i j).botOrReal

omit h1 h2 in
/-- A row's partner is another row. -/
theorem partner_ne (i : Fin 8192) : i ≠ partner i := by
  intro h
  have hv := congrArg Fin.val h
  unfold partner at hv
  split at hv <;> simp at hv <;> omega

omit h1 h2 in
theorem offDiag_partner (i : Fin 8192) : offDiag z1 z2 i (partner i) = logit z1 z2 i (partner i) := by
  unfold offDiag
  rw [if_neg (partner_ne i)]

/-- The row's log-probability, computed with any real shift m subtracted before the exponentials and the sum started
    from zero, is the specification's, which shifts by two and adds the two back. -/
theorem shifted_rowLogProb (i : Fin 8192) (m : ℝ) :
    (offDiag z1 z2 i (partner i) - (m : EReal))
        - Ideal.log (0 + ∑ j : Fin 8192, Ideal.exp (offDiag z1 z2 i j - (m : EReal)))
      = rowLogProb z1 z2 i := by
  obtain ⟨x, hx⟩ := logit_real z1 z2 h1 h2 i (partner i)
  have ht : offDiag z1 z2 i (partner i) = (x : EReal) := (offDiag_partner z1 z2 i).trans hx
  rw [shifted_eq_addedBack (fun j => offDiag z1 z2 i j) (offDiag_botOrReal z1 z2 h1 h2 i) (partner i) x ht m 2]
  unfold rowLogProb expSum
  rw [offDiag_partner, two_eq]

/-- The maximum of a row of struck-out logits, folded from -infinity, is a real. -/
theorem rowMax_real (i : Fin 8192) :
    ∃ m : ℝ, (Finset.univ : Finset (Fin 8192)).fold max (⊥ : EReal) (fun j => offDiag z1 z2 i j) = (m : EReal) := by
  obtain ⟨x, hx⟩ := logit_real z1 z2 h1 h2 i (partner i)
  exact fold_max_real (fun j => offDiag z1 z2 i j) (offDiag_botOrReal z1 z2 h1 h2 i) (partner i) x
    ((offDiag_partner z1 z2 i).trans hx)

end Rows

end Cert.NTXent

end
-- ==== Proof.Finite.lean ====
/-
  From the precondition to "every entry of both argument matrices is a real number".  The precondition is
  the conjunction, over both matrices, of "for all entries x, |x| < +infinity".  Over the extended reals
  |x| is max x (-x), which is +infinity exactly at the two infinities, so the strict inequality leaves the
  real numbers.  The conjunction of all the entries' tests being one gives each entry's test being one.
-/
import Idealize.ShloMosaic.Lib.ReduceAll
import Idealize.ShloMosaic.Lib.ValueIdx
import Idealize.ShloMosaic.PureOps.Ideal
import proofs.«116624_j43327630082371_2_alg».proof.Pre_finite_inputs

noncomputable section

namespace Cert.NTXent

open Idealize.ShloMosaic

/-- The shape with no axes has one index. -/
instance : Subsingleton Cert.Pre_finite_inputs.S_.Idx := ⟨fun a b => funext fun d => d.elim0⟩

/-- An extended real whose absolute value is strictly below +infinity is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp] at h
  | coe r => exact ⟨r, rfl⟩
  | top => simp [Ideal.cmp] at h

/-- Under the precondition every entry of both argument matrices is a real number. -/
theorem entries_real [Cert.Pre_finite_inputs.Facts]
    (a0 a1 : FVec Ideal Cert.Pre_finite_inputs.S4096x256 .f32)
    (h : Cert.Pre_finite_inputs.fn (F := Ideal) a0 a1 = fun _ => 1#1) :
    (∀ i, ∃ x : ℝ, a0 i = (x : EReal)) ∧ (∀ i, ∃ x : ℝ, a1 i = (x : EReal)) := by
  have h0 := congrFun h ValueIdx.ix0
  dsimp only [Cert.Pre_finite_inputs.fn] at h0
  obtain ⟨h1, h2⟩ := IntOp.andi_eq_one.1 h0
  refine ⟨fun i => ?_, fun i => ?_⟩
  · exact real_of_abs_lt_inf (a0 i) (Host.reduce_andi_all _ _ _ _ _ h1 i)
  · exact real_of_abs_lt_inf (a1 i) (Host.reduce_andi_all _ _ _ _ _ h2 i)

end Cert.NTXent

end
-- ==== Proof.RefValue.lean ====
/-
  The reference program's stages read at an index, down to the specification.

  The stages are functions of the two argument arrays; here each is read at explicit coordinates (row r, column
  k; rows i, j), one short step at a time:

    * the arrays joined along the rows are the specification's stacked rows (the join is read by which half the
      row number falls in);
    * the sum of squares along a row, its square root, and the larger of that and the small constant are the
      row's scale, so the quotient is the scaled row;
    * the product of the scaled rows with their transpose is the inner product of two scaled rows, and dividing
      it by the word of one half is multiplying it by the word of two: the logit;
    * the row and column numbers compared for equality mark the diagonal, where the logit is replaced by
      -infinity: the struck-out logits;
    * the maximum along a row, which the program folds from -infinity, is the fold of max over the row's
      struck-out logits; the program then subtracts it, exponentiates, sums along the row from zero, takes the
      logarithm and subtracts again.

  Nothing so far needs the entries to be finite.  The last step does: with real entries every logit is a real,
  the row's maximum is a real, and the log-sum-exp law says that the log-probability computed with the row's
  maximum as the shift is the one the specification computes with the shift two.  The program gathers, for each
  row, the log-probability at the row's partner (that the gather reads that place is proved with the integer
  stages, in their own module, and enters here as a hypothesis), sums the 8192 of them from zero, divides by the
  word of 8192 and changes the sign: the specification's loss.
-/
import proofs.«116624_j43327630082371_2_alg».proof.Proof.RefStages
import proofs.«116624_j43327630082371_2_alg».proof.Proof.SpecReal
import proofs.«116624_j43327630082371_2_alg».proof.Proof.Finite

noncomputable section

namespace Cert.NTXent.Ref

open Cert.ReferenceIdeal Cert.ReferenceIdeal.Gen Cert.ReferenceIdeal.Read Idealize.ShloMosaic Idealize.ShloMosaic.ValueIdx

/-- An argument array as a matrix of extended reals. -/
def mat (a : (⟨S4096x256, .f32⟩ : BufTy).Contents (Elt Ideal)) : Fin 4096 → Fin 256 → EReal := fun r k => a (ix2 r k)

variable (a0 a1 : (⟨S4096x256, .f32⟩ : BufTy).Contents (Elt Ideal))

/-- The two argument arrays joined along the rows: row r of the join is row r of the first for r < 4096 and row
    r - 4096 of the second otherwise. -/
theorem v0_at (r : Fin 8192) (k : Fin 256) :
    val_main_v0 (F := Ideal) a0 a1 (ix2 r k) = stacked (mat a0) (mat a1) r k := by
  unfold val_main_v0 stacked
  by_cases h : r.val < 4096
  · rw [dif_pos h]
    exact concatenate_pair_apply_left (0 : Fin 2) a0 a1 concatenates_S4096x256_S4096x256_S8192x256_d0 (ix2 r k) rfl
      (ix2 ⟨r.val, h⟩ k) (fun b => by match b with | ⟨0, _⟩ => rfl | ⟨1, _⟩ => rfl)
  · rw [dif_neg h]
    exact concatenate_pair_apply_right (0 : Fin 2) a0 a1 concatenates_S4096x256_S4096x256_S8192x256_d0 (ix2 r k) rfl rfl
      (ix2 ⟨r.val - 4096, by have := r.isLt; omega⟩ k)
      (fun b hb => by match b with | ⟨0, _⟩ => exact absurd rfl hb | ⟨1, _⟩ => rfl)
      (by show (r.val - 4096) + 4096 = r.val; omega)

/-- What row r is divided by. -/
theorem v3_at (r : Fin 8192) (z : Fin 1) :
    val_main_v3 (F := Ideal) a0 a1 (ix2 r z) = scale (mat a0) (mat a1) r := by
  rw [val_main_v3_apply, val_main_v1_apply, val_main_call0_v2_apply, val_main_call0_v1_apply, val_main_v2_apply,
    val_main_cst_apply, val_main_call0_cst_apply]
  simp only [val_main_call0_v0_apply, Ideal.maximumf_def, Ideal.hostUnary_sqrt_def, Ideal.mulf_def, Ideal.ofBits_def,
    Ideal.ofBits_zero_f32, zero_add]
  unfold scale tiny
  have e : ∀ k : Fin 256, idx_main_call0_v1 (idx_main_call0_v2 (ix2 r z)) k = ix2 r k := fun k =>
    funext fun a => Fin.ext (by match a with | ⟨0, _⟩ => rfl | ⟨1, _⟩ => rfl)
  simp only [e, v0_at]

/-- The scaled rows. -/
theorem v5_at (r : Fin 8192) (k : Fin 256) :
    val_main_v5 (F := Ideal) a0 a1 (ix2 r k) = unitRow (mat a0) (mat a1) r k := by
  have e : idx_main_v4 (ix2 r k) = ix2 r (0 : Fin 1) :=
    funext fun a => Fin.ext (by match a with | ⟨0, _⟩ => rfl | ⟨1, _⟩ => rfl)
  rw [val_main_v5_apply, val_main_v4_apply, e, v3_at, v0_at]
  rfl

/-- The inner products of the scaled rows, divided by one half: the logits. -/
theorem v9_at (i j : Fin 8192) :
    val_main_v9 (F := Ideal) a0 a1 (ix2 i j) = logit (mat a0) (mat a1) i j := by
  rw [val_main_v9_apply, val_main_v7_apply, val_main_v8_apply, val_main_cst_0_apply]
  simp only [Ideal.hostDivf_def, Ideal.ofBits_def]
  rw [div_half]
  unfold logit
  congr 1
  refine Finset.sum_congr rfl fun k _ => ?_
  have el : lidx_main_v7 (ix2 i j) k = ix2 i k := funext fun a => Fin.ext (by match a with | ⟨0, _⟩ => rfl | ⟨1, _⟩ => rfl)
  have er : idx_main_v6 (ridx_main_v7 (ix2 i j) k) = ix2 j k :=
    funext fun a => Fin.ext (by match a with | ⟨0, _⟩ => rfl | ⟨1, _⟩ => rfl)
  rw [val_main_v6_apply, el, er, v5_at, v5_at]

/-- The diagonal's mask: the bit is one exactly where the row and column numbers agree. -/
theorem v15_at (i j : Fin 8192) : val_main_v15 (F := Ideal) (ix2 i j) = if i = j then 1#1 else 0#1 := by
  rw [val_main_v15_apply, val_main_v13_apply, val_main_v14_apply, val_main_v11_apply, val_main_v12_apply,
    val_main_v10_apply, val_main_v10_apply]
  show IntOp.cmpi .eq (BitVec.ofNat 32 i.val) (BitVec.ofNat 32 j.val) = _
  by_cases h : i = j
  · rw [if_pos h, IntOp.cmpi_eq, h]
  · rw [if_neg h]
    refine eq_zero_of_ne_one fun hc => h (Fin.ext ?_)
    have h1 := congrArg BitVec.toNat (IntOp.cmpi_eq.1 hc)
    simp only [BitVec.toNat_ofNat] at h1
    have := i.isLt; have := j.isLt
    omega

/-- The logits with the diagonal struck out. -/
theorem v16_at (i j : Fin 8192) :
    val_main_v16 (F := Ideal) a0 a1 (ix2 i j) = offDiag (mat a0) (mat a1) i j := by
  rw [val_main_v16_apply, v15_at, v9_at, val_main_call1_v1_apply, val_main_call1_v0_apply, val_main_cst_1_apply]
  simp only [Ideal.ofBits_def]
  rw [negInf_eq]
  unfold offDiag
  by_cases h : i = j
  · rw [if_pos h, if_pos h, select_one]
  · rw [if_neg h, if_neg h, select_zero]

/-- Putting column k back into a row number gives the place (row, k). -/
theorem lift_row (h : S8192x8192.Reduces [1] S8192) (i : Fin 8192) (k : Fin (S8192x8192.size 1)) :
    h.lift (ix1 i) k = ix2 i (⟨k.val, k.isLt⟩ : Fin 8192) := by
  funext c; apply Fin.ext
  fin_cases c <;> rfl

/-- The row's maximum, as the program computes it: the larger of -infinity and the maximum, folded from -infinity,
    of the row's struck-out logits. -/
theorem rowMax_at (i : Fin 8192) :
    val_main_call3_v2 (F := Ideal) a0 a1 (ix1 i)
      = (Finset.univ : Finset (Fin 8192)).fold max (⊥ : EReal) (fun j => offDiag (mat a0) (mat a1) i j) := by
  rw [val_main_call3_v2_apply, val_main_call3_v1_apply, val_main_call3_cst_0_apply]
  unfold val_main_call3_v0
  rw [Host.reduce_eq_fold_single FloatOps.maximumf _ _ reducesTo_S8192x8192_S8192_d1 (by decide) h_S_]
  have hf : (val_main_v16 (F := Ideal) a0 a1 ∘ (by decide : S8192x8192.Reduces [1] S8192).lift (ix1 i))
      = fun j : Fin 8192 => offDiag (mat a0) (mat a1) i j := by
    funext k
    show val_main_v16 (F := Ideal) a0 a1 (_) = _
    rw [lift_row, v16_at]
    rfl
  rw [hf, val_main_call3_cst_apply]
  simp only [Ideal.ofBits_def, Ideal.maximumf_def]
  rw [negInf_eq]
  exact max_eq_right bot_le

/-- The log-probabilities, as the program computes them: each struck-out logit less its row's maximum, less the
    logarithm of the row's sum (started from zero) of the exponentials of those differences. -/
theorem v18_at (i j : Fin 8192) :
    val_main_v18 (F := Ideal) a0 a1 (ix2 i j)
      = (offDiag (mat a0) (mat a1) i j - val_main_call3_v2 (F := Ideal) a0 a1 (ix1 i))
          - Ideal.log (0 + ∑ j' : Fin 8192,
              Ideal.exp (offDiag (mat a0) (mat a1) i j' - val_main_call3_v2 (F := Ideal) a0 a1 (ix1 i))) := by
  have e34 : ∀ c : Fin 8192, idx_main_call3_v3 (idx_main_call3_v4 (ix2 i c)) = ix1 i := fun c =>
    funext fun a => Fin.ext (by match a with | ⟨0, _⟩ => rfl)
  have e7 : ∀ k : Fin 8192, idx_main_call3_v7 (idx_main_call3_v8 (idx_main_call3_v10 (ix2 i j))) k = ix2 i k := fun k =>
    funext fun a => Fin.ext (by match a with | ⟨0, _⟩ => rfl | ⟨1, _⟩ => rfl)
  have h5 : ∀ c : Fin 8192, val_main_call3_v5 (F := Ideal) a0 a1 (ix2 i c)
      = offDiag (mat a0) (mat a1) i c - val_main_call3_v2 (F := Ideal) a0 a1 (ix1 i) := fun c => by
    rw [val_main_call3_v5_apply, val_main_call3_v4_apply, val_main_call3_v3_apply, e34, v16_at]
    rfl
  rw [val_main_v18_apply, val_main_call3_v10_apply, val_main_call3_v9_apply, val_main_call3_v8_apply,
    val_main_call3_v7_apply, val_main_call3_cst_1_apply, h5]
  simp only [val_main_call3_v6_apply, e7, h5, Ideal.subf_def, Ideal.hostUnary_log_def, Ideal.hostUnary_exp_def,
    Ideal.ofBits_def, Ideal.ofBits_zero_f32]

/-- A rank-1 index set is its one coordinate's range ... -/
def idxEquiv1 {n : Nat} : (⟨1, ![n]⟩ : Shape).Idx ≃ Fin n where
  toFun i := i 0
  invFun a := ix1 a
  left_inv i := (eq_ix1 i).symm
  right_inv _ := rfl

/-- ... so a sum over it is the sum over the coordinate. -/
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

section Value

/- What the gather reads (proved from the integer stages in their own module): at row i, the log-probability at
   (i, partner i).  And every entry of both argument arrays is a real number. -/
variable (hv32 : ∀ i : Fin 8192,
  val_main_v32 (F := Ideal) a0 a1 (ix1 i) = val_main_v18 (F := Ideal) a0 a1 (ix2 i (partner i)))
variable (h0 : ∀ i, IsReal (a0 i)) (h1 : ∀ i, IsReal (a1 i))

include hv32 h0 h1

/-- Row i's gathered entry is the specification's log-probability of row i: the program shifts by the row's maximum,
    a real number, and the law says the shift does not matter. -/
theorem row_at (i : Fin 8192) :
    val_main_v32 (F := Ideal) a0 a1 (ix1 i) = rowLogProb (mat a0) (mat a1) i := by
  obtain ⟨m, hm⟩ := rowMax_real (mat a0) (mat a1) (fun r k => h0 (ix2 r k)) (fun r k => h1 (ix2 r k)) i
  rw [hv32, v18_at, rowMax_at, hm]
  exact shifted_rowLogProb (mat a0) (mat a1) (fun r k => h0 (ix2 r k)) (fun r k => h1 (ix2 r k)) i m

/-- The program's result is the specification's loss. -/
theorem v35_eq : val_main_v35 (F := Ideal) a0 a1 = fun _ => loss (mat a0) (mat a1) := by
  funext q
  rw [val_main_v35_apply, val_main_v34_apply, val_main_v33_apply, val_main_cst_6_apply, val_main_cst_5_apply]
  simp only [Ideal.hostNegf_def, Ideal.negf_def, Ideal.hostDivf_def, Ideal.ofBits_def, Ideal.ofBits_zero_f32, zero_add]
  unfold loss count
  rw [sum_idx1]
  simp only [row_at a0 a1 hv32 h0 h1]

end Value

end Cert.NTXent.Ref

end
-- ==== Proof.RefIndex.lean ====
/-
  The integer side of the reference: which entry of the log-probability matrix each row's loss reads.  The reference
  builds, per row i, the pair (i, roll(i)) of 32-bit words — the row's own number and the number 4096 places away,
  cyclically — guards both against negative values (none occurs: every word is below 8192), sets the two columns side
  by side and gathers, from the 8192 × 8192 matrix, the entry at that pair.  Row i therefore reads the matrix at
  (i, partner i).
-/
import proofs.«116624_j43327630082371_2_alg».proof.Proof.RefReadPatched
import proofs.«116624_j43327630082371_2_alg».proof.Proof.Spec
import Idealize.ShloMosaic.Lib.Affine

noncomputable section

namespace Cert.NTXent.Ref

open Cert.ReferenceIdeal Cert.ReferenceIdeal.Gen Cert.ReferenceIdeal.Read Idealize.ShloMosaic Idealize.ShloMosaic.ValueIdx

variable {F : FTy → Type} [FloatOps F]

/-! ## Words below 2^31 -/

/-- The word of a number below 2^31 reads back, signed, as the number. -/
theorem toInt_small (n : ℕ) (hn : n < 2 ^ 31) : (BitVec.ofNat 32 n).toInt = (n : Int) := by
  rw [BitVec.toInt_eq_toNat_of_lt (by simp only [BitVec.toNat_ofNat]; omega)]
  simp only [BitVec.toNat_ofNat]; omega

/-- Such a word is not negative. -/
theorem not_neg_small (n : ℕ) (hn : n < 2 ^ 31) : IntOp.cmpi .slt (BitVec.ofNat 32 n) 0#32 = 0#1 := by
  refine eq_zero_of_ne_one fun h => ?_
  have h' := IntOp.cmpi_slt.mp h
  rw [toInt_small n hn] at h'
  have h0 : (0#32 : BitVec 32).toInt = 0 := by decide
  rw [h0] at h'
  omega

/-- The guard against a negative index leaves such a word as it is. -/
theorem fixup_small (n : ℕ) (hn : n < 2 ^ 31) (k : BitVec 32) :
    Scalar.select (IntOp.cmpi .slt (BitVec.ofNat 32 n) 0#32) (IntOp.addi (BitVec.ofNat 32 n) k) (BitVec.ofNat 32 n) = BitVec.ofNat 32 n := by
  rw [not_neg_small n hn, select_zero]

/-- Read signed and clamped into 0..8191, the word of a number below 8192 is the number. -/
theorem clamp_small (n : ℕ) (hn : n < 8192) : min (BitVec.ofNat 32 n).toInt.toNat (8192 - 1) = n := by
  rw [toInt_small n (by omega)]
  simp only [Int.toNat_natCast]
  omega

/-! ## The row numbers and the rolled row numbers -/

/-- The row numbers. -/
theorem iota_at (i : Fin 8192) : val_main_v10 (F := F) (ix1 i) = BitVec.ofNat 32 i.val := rfl

/-- The row numbers rolled by 4096: the second half followed by the first, so that place i holds its partner's number. -/
theorem roll_at (i : Fin 8192) : val_main_v17 (F := F) (ix1 i) = BitVec.ofNat 32 (Cert.NTXent.partner i).val := by
  unfold val_main_v17
  by_cases h : i.val < 4096
  · have e := concatenate_pair_apply_left (0 : Fin 1) (val_main_call2_v0 (F := F)) (val_main_call2_v1 (F := F))
      concatenates_S4096_S4096_S8192_d0 (ix1 i) rfl (ix1 (⟨i.val, h⟩ : Fin 4096)) (fun b => by match b with | ⟨0, _⟩ => rfl)
    refine e.trans ?_
    rw [val_main_call2_v0_apply]
    show BitVec.ofNat 32 (4096 + i.val) = _
    refine congrArg (BitVec.ofNat 32) ?_
    unfold Cert.NTXent.partner
    rw [dif_pos h]
    show 4096 + i.val = i.val + 4096
    omega
  · have hlt : i.val - 4096 < 4096 := by have := i.isLt; omega
    have e := concatenate_pair_apply_right (0 : Fin 1) (val_main_call2_v0 (F := F)) (val_main_call2_v1 (F := F))
      concatenates_S4096_S4096_S8192_d0 (ix1 i) rfl rfl (ix1 (⟨i.val - 4096, hlt⟩ : Fin 4096))
      (fun b hb => absurd (Fin.ext (Nat.lt_one_iff.mp (Fin.cast rfl b).isLt)) hb)
      (by show (i.val - 4096) + 4096 = i.val; omega)
    refine e.trans ?_
    rw [val_main_call2_v1_apply]
    show BitVec.ofNat 32 (i.val - 4096) = _
    refine congrArg (BitVec.ofNat 32) ?_
    unfold Cert.NTXent.partner
    rw [dif_neg h]

/-- The guarded row numbers are the row numbers. -/
theorem v23_at (i : Fin 8192) : val_main_v23 (F := F) (ix1 i) = BitVec.ofNat 32 i.val := by
  rw [val_main_v23_apply, val_main_v20_apply, val_main_v22_apply, val_main_v19_apply, val_main_c_apply, iota_at]
  exact fixup_small i.val (by have := i.isLt; omega) _

/-- The guarded rolled row numbers are the partners' numbers. -/
theorem v28_at (i : Fin 8192) : val_main_v28 (F := F) (ix1 i) = BitVec.ofNat 32 (Cert.NTXent.partner i).val := by
  rw [val_main_v28_apply, val_main_v25_apply, val_main_v27_apply, val_main_v24_apply, val_main_c_3_apply, roll_at]
  exact fixup_small _ (by have := (Cert.NTXent.partner i).isLt; omega) _

/-! ## The index pairs -/

/-- The pair's first component: the row's own number. -/
theorem v31_left (i : Fin 8192) : val_main_v31 (F := F) (ix2 i (0 : Fin 2)) = BitVec.ofNat 32 i.val := by
  unfold val_main_v31
  have e := concatenate_pair_apply_left (1 : Fin 2) (val_main_v29 (F := F)) (val_main_v30 (F := F))
    concatenates_S8192x1_S8192x1_S8192x2_d1 (ix2 i (0 : Fin 2)) rfl (ix2 i (0 : Fin 1))
    (fun b => by match b with | ⟨0, _⟩ => rfl | ⟨1, _⟩ => rfl)
  refine e.trans ?_
  rw [val_main_v29_apply]
  exact v23_at i

/-- The pair's second component: the partner's number. -/
theorem v31_right (i : Fin 8192) : val_main_v31 (F := F) (ix2 i (1 : Fin 2)) = BitVec.ofNat 32 (Cert.NTXent.partner i).val := by
  unfold val_main_v31
  have hi : ∀ b : Fin S8192x1.rank, b.cast (rfl : S8192x1.rank = S8192x2.rank) ≠ (1 : Fin 2) →
      ((ix2 i (0 : Fin 1) : S8192x1.Idx) b).val = ((ix2 i (1 : Fin 2) : S8192x2.Idx) (b.cast (rfl : S8192x1.rank = S8192x2.rank))).val := by
    intro b hb
    have hb2 : b.val < 2 := b.isLt
    have hb1 : b.val ≠ 1 := fun e => hb (Fin.ext e)
    have hb0 : b = (⟨0, Nat.zero_lt_two⟩ : Fin 2) := Fin.ext (by show b.val = 0; omega)
    rw [hb0]
    rfl
  have ha : ((ix2 i (0 : Fin 1) : S8192x1.Idx) ((1 : Fin 2).cast (rfl : S8192x2.rank = S8192x1.rank))).val
      + S8192x1.size ((1 : Fin 2).cast (rfl : S8192x2.rank = S8192x1.rank)) = ((ix2 i (1 : Fin 2) : S8192x2.Idx) (1 : Fin 2)).val := rfl
  have e := concatenate_pair_apply_right (1 : Fin 2) (val_main_v29 (F := F)) (val_main_v30 (F := F))
    concatenates_S8192x1_S8192x1_S8192x2_d1 (ix2 i (1 : Fin 2)) rfl rfl (ix2 i (0 : Fin 1)) hi ha
  refine e.trans ?_
  have hidx : idx_main_v30 (ix2 i (0 : Fin 1)) = ix1 i := by
    funext a; match a with | ⟨0, _⟩ => rfl
  rw [val_main_v30_apply, hidx]
  exact v28_at i

/-! ## The gather -/

/-- One entry per row gathered from a square matrix at a pair of words: row i of the result is the matrix at the
    pair's two components, each read signed and clamped into the matrix. -/
theorem gather_pair_apply {α : Type} {w : ℕ} (x : S8192x8192.Idx → α) (idx : IVec S8192x2 w) (i r c : Fin 8192)
    (hr : min (idx (ix2 i (0 : Fin 2))).toInt.toNat (8192 - 1) = r.val)
    (hc : min (idx (ix2 i (1 : Fin 2))).toInt.toNat (8192 - 1) = c.val) :
    Host.gather gather_S8192x8192_S8192x2_S8192_n_01_n_n_01_1_11 x idx (ix1 i) = x (ix2 r c) := by
  unfold Host.gather
  refine congrArg x ?_
  funext a
  refine Fin.ext ?_
  show gather_S8192x8192_S8192x2_S8192_n_01_n_n_01_1_11.start (ix1 i) idx a
      + gather_S8192x8192_S8192x2_S8192_n_01_n_n_01_1_11.batchCoord (ix1 i) a
      + gather_S8192x8192_S8192x2_S8192_n_01_n_n_01_1_11.offCoord (ix1 i) a = (ix2 r c a).val
  have hcases : a = (0 : Fin 2) ∨ a = (1 : Fin 2) := by
    match a with
    | ⟨0, _⟩ => exact Or.inl rfl
    | ⟨1, _⟩ => exact Or.inr rfl
  have hm0 : (0 : Fin 2) ∈ ([(0 : Fin 2), 1] : List (Fin 2)) := List.mem_cons_self
  have hm1 : (1 : Fin 2) ∈ ([(0 : Fin 2), 1] : List (Fin 2)) := List.mem_cons_of_mem _ List.mem_cons_self
  rcases hcases with rfl | rfl
  · rw [GatherDims.batchCoord_eq_zero _ _ _ List.not_mem_nil,
      GatherDims.offCoord_eq_zero _ _ _ (fun h => ((GatherDims.mem_sKept _ _).mp h).1 hm0)]
    simp only [Nat.add_zero]
    unfold GatherDims.start
    rw [dif_pos (show (0 : Fin 2) ∈ gather_S8192x8192_S8192x2_S8192_n_01_n_n_01_1_11.startIndexMap from hm0)]
    have hsi : gather_S8192x8192_S8192x2_S8192_n_01_n_n_01_1_11.siIdx (ix1 i)
        ⟨List.idxOf (0 : Fin 2) gather_S8192x8192_S8192x2_S8192_n_01_n_n_01_1_11.startIndexMap, List.idxOf_lt_length_iff.2 hm0⟩
        = ix2 i (0 : Fin 2) := by
      funext b; refine Fin.ext ?_
      match b with
      | ⟨0, _⟩ => rfl
      | ⟨1, _⟩ => rfl
    rw [hsi]
    exact hr
  · rw [GatherDims.batchCoord_eq_zero _ _ _ List.not_mem_nil,
      GatherDims.offCoord_eq_zero _ _ _ (fun h => ((GatherDims.mem_sKept _ _).mp h).1 hm1)]
    simp only [Nat.add_zero]
    unfold GatherDims.start
    rw [dif_pos (show (1 : Fin 2) ∈ gather_S8192x8192_S8192x2_S8192_n_01_n_n_01_1_11.startIndexMap from hm1)]
    have hsi : gather_S8192x8192_S8192x2_S8192_n_01_n_n_01_1_11.siIdx (ix1 i)
        ⟨List.idxOf (1 : Fin 2) gather_S8192x8192_S8192x2_S8192_n_01_n_n_01_1_11.startIndexMap, List.idxOf_lt_length_iff.2 hm1⟩
        = ix2 i (1 : Fin 2) := by
      funext b; refine Fin.ext ?_
      match b with
      | ⟨0, _⟩ => rfl
      | ⟨1, _⟩ => rfl
    rw [hsi]
    exact hc

/-- Row i of the gathered column is the log-probability matrix at (i, partner i). -/
theorem v32_at (x0 x1 : (⟨S4096x256, .f32⟩ : BufTy).Contents (Elt Ideal)) (i : Fin 8192) :
    val_main_v32 (F := Ideal) x0 x1 (ix1 i) = val_main_v18 (F := Ideal) x0 x1 (ix2 i (Cert.NTXent.partner i)) := by
  unfold val_main_v32
  refine gather_pair_apply (val_main_v18 (F := Ideal) x0 x1) (val_main_v31 (F := Ideal)) i i (Cert.NTXent.partner i) ?_ ?_
  · rw [v31_left]; exact clamp_small i.val i.isLt
  · rw [v31_right]; exact clamp_small _ (Cert.NTXent.partner i).isLt

end Cert.NTXent.Ref

end
-- ==== Proof.RefFinal.lean ====
/-
  The reference program's run and value, joined.

  Every weakly fair execution of the reference ends with its result buffer at the fold of its operations over the
  launch contents (the run), that fold is the last stage of the two argument arrays (the stretches), and, when
  every entry of both arrays is a real number, the last stage is the specification's loss of the two arrays read
  as matrices (the stages read at an index, with the gather's place from the integer stages).  The entries are
  real under the precondition, which says of both arrays that every entry's absolute value is below +infinity.
-/
import proofs.«116624_j43327630082371_2_alg».proof.Proof.RefValue
import proofs.«116624_j43327630082371_2_alg».proof.Proof.RefIndex

noncomputable section

namespace Cert.NTXent.Ref

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The reference's last stage, for argument arrays with real entries, is the specification's loss. -/
theorem ref_value (x0 x1 : (⟨S4096x256, .f32⟩ : BufTy).Contents (Elt Ideal))
    (h0 : ∀ i, IsReal (x0 i)) (h1 : ∀ i, IsReal (x1 i)) :
    val_main_v35 (F := Ideal) x0 x1 = fun _ => loss (mat x0) (mat x1) :=
  v35_eq x0 x1 (v32_at x0 x1) h0 h1

/-- Under the precondition on its own argument arrays, every weakly fair execution of the reference terminates with
    its result the specification's loss of those arrays, and the arrays unchanged. -/
theorem ref_run [Cert.Pre_finite_inputs.Facts] (m : (ℓ : Loc nD τ sig) → Buf (Elt Ideal) ℓ) (ρ : Dev nD → PrngReg)
    (hpre : ∀ c : Dev nD, Cert.Pre_finite_inputs.fn (F := Ideal) (m ((c.tc : Thread nD τ).loc main_arg0))
      (m ((c.tc : Thread nD τ).loc main_arg1)) = fun _ => 1#1) :
    θ_run (defs (F := Ideal)) (onTc (τ := τ) (main (F := Ideal))) ⟨m, fun _ => 0, ρ⟩ fun r => ∀ c : Dev nD,
      r.2.mem ((c.tc : Thread nD τ).loc main_v35)
          = (fun _ => loss (mat (m ((c.tc : Thread nD τ).loc main_arg0))) (mat (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
      obtain ⟨e0, e1⟩ := entries_real _ _ (hpre c)
      exact ⟨(h c).1.trans ((res_eq_val m c).trans (ref_value _ _ e0 e1)), (h c).2⟩)
    (Cert.ReferenceIdeal.Value.run (F := Ideal) m ρ)

end Cert.NTXent.Ref

end
-- ==== Proof.Algebraic.lean ====
/-
  The two idealized programs compute the same number.  Run from memories that agree on the two argument matrices,
  whose entries the precondition makes real numbers, the kernel program ends with its result at the loss of the
  matrices (it needs nothing of the entries for that) and the reference ends with its result at the same loss (by the
  log-sum-exp law, which needs the entries real).
-/
import proofs.«116624_j43327630082371_2_alg».proof.Defs
import proofs.«116624_j43327630082371_2_alg».proof.Proof.Gen.KernelIdeal
import proofs.«116624_j43327630082371_2_alg».proof.Proof.Gen.ReferenceIdeal
import proofs.«116624_j43327630082371_2_alg».proof.Proof.Gen.Pre_finite_inputs
import proofs.«116624_j43327630082371_2_alg».proof.Proof.KernelValue
import proofs.«116624_j43327630082371_2_alg».proof.Proof.RefFinal

noncomputable section

namespace Cert.NTXent

open Idealize.ShloMosaic Idealize.SL.Sem

theorem algebraic : Cert.algebraic_KernelIdeal_ReferenceIdeal := by
  intro m ρ m' ρ' hpre hagree
  refine ⟨fun c => (fun _ => Cert.NTXent.loss (Cert.KernelIdeal.Hand.rowsA m c) (Cert.KernelIdeal.Hand.rowsB m c)),
    Cert.KernelIdeal.Hand.kernel_run m ρ, ?_⟩
  have hpre' : ∀ c : Dev Cert.ReferenceIdeal.nD,
      Cert.Pre_finite_inputs.fn (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = fun _ => 1#1 :=
    fun c => by rw [(hagree c).1, (hagree c).2]; exact hpre c
  refine (θ_run Cert.ReferenceIdeal.defs _ _).mono (fun _ h c => ⟨(h c).1.trans ?_, (h c).2⟩)
    (Cert.NTXent.Ref.ref_run m' ρ' hpre')
  rw [(hagree c).1, (hagree c).2]
  rfl

end Cert.NTXent

end
-- ==== Proof.lean ====
/-
  The certificate that a tiled contrastive-loss kernel and its plain reference compute the same number.

  Both take two 4096 x 256 matrices, stack them into 8192 rows, divide each row by the larger of its Euclidean norm
  and a small constant, form the logits (twice the inner products of the scaled rows), strike each row's logit with
  itself, and return minus the mean, over the rows, of the row's log-probability of its partner (the row 4096 places
  away).  The reference takes the logarithm of the sum of exponentials after shifting by the row's maximum; the kernel
  shifts by the constant 2, never forms the 8192 x 8192 matrix, and accumulates each row's sum over four column steps.
  Over the extended reals the two agree whenever the arguments' entries are real numbers: a sum of exponentials shifted
  by any real, with the shift added back to its logarithm, does not depend on the shift.

  The kernel program is three kernel regions (two row scalings, the similarity pass) with a concatenation between
  them and a closing mean; its run is assembled from one record per region over the whole-program launch, once at the
  word level and once at the ideal instance.  The struck-out logit is the one place the idealized program differs
  from the printed one: a large negative constant read as minus infinity.
-/
import proofs.«116624_j43327630082371_2_alg».proof.Defs
import proofs.«116624_j43327630082371_2_alg».proof.Proof.Gen.Kernel
import proofs.«116624_j43327630082371_2_alg».proof.Proof.Gen.KernelIdeal
import proofs.«116624_j43327630082371_2_alg».proof.Proof.Gen.ReferenceIdeal
import proofs.«116624_j43327630082371_2_alg».proof.Proof.Gen.Pre_finite_inputs
import proofs.«116624_j43327630082371_2_alg».proof.Proof.RunBits
import proofs.«116624_j43327630082371_2_alg».proof.Proof.RunIdeal
import proofs.«116624_j43327630082371_2_alg».proof.Proof.RefRunPatched
import proofs.«116624_j43327630082371_2_alg».proof.Proof.Algebraic
import Idealize.ShloMosaic.Adequacy
import Idealize.ShloMosaic.Init

noncomputable section

namespace Cert.Proof

open Idealize.ShloMosaic Idealize.SL.Sem

/-- The word-level program runs to the end and leaves its arguments as launched. -/
theorem frame_kernel : Cert.frame_Kernel := fun m ρ _ => Cert.Kernel.Hand.frame (F := Bits) m ρ

/-- So does the idealized program. -/
theorem frame_kernelIdeal : Cert.frame_KernelIdeal := fun m ρ _ => Cert.KernelIdeal.Hand.frame (F := Ideal) m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one idealization: the large negative fill constant is minus infinity at the ideal instance. -/
theorem preserves : Cert.preserves_Kernel_KernelIdeal :=
  IdealRules.named_const.statement Cert.KernelIdeal.κ "neg_big" .f32 0xF149F2CA#32 ⊥ rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, Cert.NTXent.algebraic⟩

end Cert.Proof

end
